-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x4096x1024 .f32) (main_arg1 : FVec F S8x4096x1024 .f32) (main_arg2 : FVec F S8x4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S8x256x1024 : Shape := ⟨3, ![8, 256, 1024]⟩
abbrev S2048x1024 : Shape := ⟨2, ![2048, 1024]⟩
abbrev S1x1024 : Shape := ⟨2, ![1, 1024]⟩
abbrev S32768x1024 : Shape := ⟨2, ![32768, 1024]⟩
abbrev S8x128x1024 : Shape := ⟨3, ![8, 128, 1024]⟩
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 20
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x256x1024, .f32⟩
  | .hbm, ⟨10, _⟩ => ⟨S2048x1024, .f32⟩
  | .hbm, ⟨11, _⟩ => ⟨S2048x1024, .bf16⟩
  | .hbm, ⟨12, _⟩ => ⟨S8x256x1024, .bf16⟩
  | .hbm, ⟨13, _⟩ => ⟨S32768x1024, .f32⟩
  | .hbm, ⟨14, _⟩ => ⟨S32768x1024, .bf16⟩
  | .hbm, ⟨15, _⟩ => ⟨S8x4096x1024, .bf16⟩
  | .hbm, ⟨16, _⟩ => ⟨S32768x1024, .f32⟩
  | .hbm, ⟨17, _⟩ => ⟨S32768x1024, .bf16⟩
  | .hbm, ⟨18, _⟩ => ⟨S8x4096x1024, .bf16⟩
  | .hbm, ⟨19, _⟩ => ⟨S8x256x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024, .f32⟩
  | .local _ .vmem, ⟨16, _⟩ => ⟨S1024x1024, .bf16⟩
  | .local _ .vmem, ⟨17, _⟩ => ⟨S1024x1024, .bf16⟩
  | .local _ .vmem, ⟨18, _⟩ => ⟨S8x128x1024, .bf16⟩
  | .local _ .vmem, ⟨19, _⟩ => ⟨S8x128x1024, .bf16⟩
  | .local _ .vmem, ⟨20, _⟩ => ⟨S8x256x1024, .bf16⟩
  | .local _ .vmem, ⟨21, _⟩ => ⟨S8x256x1024, .bf16⟩
  | .local _ .vmem, ⟨22, _⟩ => ⟨S8x256x1024, .bf16⟩
  | .local _ .vmem, ⟨23, _⟩ => ⟨S8x256x1024, .bf16⟩
  | .local _ .vmem, ⟨24, _⟩ => ⟨S8x128x1024, .f32⟩
  | .local _ .vmem, ⟨25, _⟩ => ⟨S8x128x1024, .f32⟩
  | .local _ .vmem, ⟨26, _⟩ => ⟨S8x128x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 16], ![false, false]⟩

def k3_cond2 (i : grid3.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_19 : BitVec 32 := 0#32
  let v30 : BitVec 1 := Scalar.cmpi .ne v29 c0_i32_19
  v30

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x128x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S8x256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S8x256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S8x128x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S8x4096x1024_S8x256x1024_0_0_0 : S8x4096x1024.Slices ![0, 0, 0] S8x256x1024
  shapeCasts_S8x256x1024_S2048x1024 : S8x256x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S2048x1024_S8x256x1024 : S2048x1024.ShapeCasts S8x256x1024
  shapeCasts_S8x4096x1024_S32768x1024 : S8x4096x1024.ShapeCasts S32768x1024
  shapeCasts_S32768x1024_S8x4096x1024 : S32768x1024.ShapeCasts S8x4096x1024
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  reduces_S8x128x256_S128x256 : S8x128x256.Reduces [0] S128x256
  shapeCasts_S128x256_S1x128x256 : S128x256.ShapeCasts S1x128x256
  broadcasts_S1x128x256_S8x128x256 : S1x128x256.Broadcasts S8x128x256
  dot_S1024x1024_S1024x1024_S1024x1024_1_1_0_0_n_n_wf : DotDims.WF S1024x1024 S1024x1024 S1024x1024 [1] [1] [0] [0] [] []
  dot_S8x128x1024_S8x256x1024_S8x128x256_2_2_1_1_0_0_wf : DotDims.WF S8x128x1024 S8x256x1024 S8x128x256 [2] [2] [1] [1] [0] [0]
  dot_S8x128x256_S8x256x1024_S8x128x1024_2_1_1_2_0_0_wf : DotDims.WF S8x128x256 S8x256x1024 S8x128x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .f32 = 32 ∨ (Rect.block (s := S2048x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x1024.size a
  hwx0_3 : ∀ i : grid0.Coords, EltTy.bits .bf16 = 32 ∨ (Rect.block (s := S2048x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S32768x1024.size a
  hwx1_3 : ∀ i : grid1.Coords, EltTy.bits .bf16 = 32 ∨ (Rect.block (s := S32768x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S32768x1024.size a
  hwx2_0 : ∀ i : grid2.Coords, EltTy.bits .f32 = 32 ∨ (Rect.block (s := S32768x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S32768x1024.size a
  hwx2_3 : ∀ i : grid2.Coords, EltTy.bits .bf16 = 32 ∨ (Rect.block (s := S32768x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x128x1024.size a ≤ S8x256x1024.size a
  hwx3_0 : ∀ i : grid3.Coords, EltTy.bits .bf16 = 32 ∨ (Rect.block (s := S8x256x1024) S8x128x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x256x1024.size a ≤ S8x4096x1024.size a
  hwx3_1 : ∀ i : grid3.Coords, EltTy.bits .bf16 = 32 ∨ (Rect.block (s := S8x4096x1024) S8x256x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x256x1024.size a ≤ S8x4096x1024.size a
  hwx3_2 : ∀ i : grid3.Coords, EltTy.bits .bf16 = 32 ∨ (Rect.block (s := S8x4096x1024) S8x256x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x128x1024.size a ≤ S8x256x1024.size a
  hwx3_3 : ∀ i : grid3.Coords, EltTy.bits .f32 = 32 ∨ (Rect.block (s := S8x256x1024) S8x128x1024.size (cc3_transform_3 i) (hinb3_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S8x128x1024_S8x256x1024_S8x128x256_2_2_1_1_0_0 : DotDims S8x128x1024 S8x256x1024 S8x128x256 where
  lhsContracting := [2]
  rhsContracting := [2]
  lhsNonContracting := [1]
  rhsNonContracting := [1]
  lhsBatch := [0]
  rhsBatch := [0]
  wf := dot_S8x128x1024_S8x256x1024_S8x128x256_2_2_1_1_0_0_wf
def dot_S8x128x256_S8x256x1024_S8x128x1024_2_1_1_2_0_0 : DotDims S8x128x256 S8x256x1024 S8x128x1024 where
  lhsContracting := [2]
  rhsContracting := [1]
  lhsNonContracting := [1]
  rhsNonContracting := [2]
  lhsBatch := [0]
  rhsBatch := [0]
  wf := dot_S8x128x256_S8x256x1024_S8x128x1024_2_1_1_2_0_0_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S8x128x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S8x256x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S8x256x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S8x128x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x256x1024 : Shape := ⟨3, ![8, 256, 1024]⟩
abbrev S8x256x4096 : Shape := ⟨3, ![8, 256, 4096]⟩
abbrev S256x4096 : Shape := ⟨2, ![256, 4096]⟩
abbrev S1x256x4096 : Shape := ⟨3, ![1, 256, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x4096x1024, .f32⟩
  | .hbm, ⟨10, _⟩ => ⟨S1x1x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S1x1x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x256x1024, .f32⟩
  | .hbm, ⟨26, _⟩ => ⟨S8x256x4096, .f32⟩
  | .hbm, ⟨27, _⟩ => ⟨S8x256x4096, .f32⟩
  | .hbm, ⟨28, _⟩ => ⟨S8x256x4096, .f32⟩
  | .hbm, ⟨29, _⟩ => ⟨S_, .f32⟩
  | .hbm, ⟨30, _⟩ => ⟨S256x4096, .f32⟩
  | .hbm, ⟨31, _⟩ => ⟨S_, .f32⟩
  | .hbm, ⟨32, _⟩ => ⟨S256x4096, .f32⟩
  | .hbm, ⟨33, _⟩ => ⟨S256x4096, .f32⟩
  | .hbm, ⟨34, _⟩ => ⟨S1x256x4096, .f32⟩
  | .hbm, ⟨35, _⟩ => ⟨S8x256x4096, .f32⟩
  | .hbm, ⟨36, _⟩ => ⟨S8x256x4096, .f32⟩
  | .hbm, ⟨37, _⟩ => ⟨S8x256x4096, .f32⟩
  | .hbm, ⟨38, _⟩ => ⟨S_, .f32⟩
  | .hbm, ⟨39, _⟩ => ⟨S256x4096, .f32⟩
  | .hbm, ⟨40, _⟩ => ⟨S1x256x4096, .f32⟩
  | .hbm, ⟨41, _⟩ => ⟨S8x256x4096, .f32⟩
  | .hbm, ⟨42, _⟩ => ⟨S8x256x4096, .f32⟩
  | .hbm, ⟨43, _⟩ => ⟨S8x256x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  slices_S8x4096x1024_S8x256x1024_0_0_0 : S8x4096x1024.Slices ![0, 0, 0] S8x256x1024
  bcast_S_S8x256x4096 : S_.BroadcastsInDim S8x256x4096 (![] : Fin 0 → Fin S8x256x4096.rank)
  reducesTo_S8x256x4096_S256x4096_d0 : S8x256x4096.ReducesTo [0] S256x4096
  h_S_ : 0 < S_.numel
  bcast_S_S256x4096 : S_.BroadcastsInDim S256x4096 (![] : Fin 0 → Fin S256x4096.rank)
  bcast_S256x4096_S1x256x4096_1_2 : S256x4096.BroadcastsInDim S1x256x4096 (![1, 2] : Fin 2 → Fin S1x256x4096.rank)
  bcast_S1x256x4096_S8x256x4096_0_1_2 : S1x256x4096.BroadcastsInDim S8x256x4096 (![0, 1, 2] : Fin 3 → Fin S8x256x4096.rank)
  dot_S8x4096x1024_S1024x1024_S8x4096x1024_2_1_01_0_n_n_wf : DotDims.WF S8x4096x1024 S1024x1024 S8x4096x1024 [2] [1] [0, 1] [0] [] []
  dot_S8x256x1024_S8x4096x1024_S8x256x4096_2_2_1_1_0_0_wf : DotDims.WF S8x256x1024 S8x4096x1024 S8x256x4096 [2] [2] [1] [1] [0] [0]
  dot_S8x256x4096_S8x4096x1024_S8x256x1024_2_1_1_2_0_0_wf : DotDims.WF S8x256x4096 S8x4096x1024 S8x256x1024 [2] [1] [1] [2] [0] [0]

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x256x1024_S8x4096x1024_S8x256x4096_2_2_1_1_0_0 : DotDims S8x256x1024 S8x4096x1024 S8x256x4096 where
  lhsContracting := [2]
  rhsContracting := [2]
  lhsNonContracting := [1]
  rhsNonContracting := [1]
  lhsBatch := [0]
  rhsBatch := [0]
  wf := dot_S8x256x1024_S8x4096x1024_S8x256x4096_2_2_1_1_0_0_wf
def dot_S8x256x4096_S8x4096x1024_S8x256x1024_2_1_1_2_0_0 : DotDims S8x256x4096 S8x4096x1024 S8x256x1024 where
  lhsContracting := [2]
  rhsContracting := [1]
  lhsNonContracting := [1]
  rhsNonContracting := [2]
  lhsBatch := [0]
  rhsBatch := [0]
  wf := dot_S8x256x4096_S8x4096x1024_S8x256x1024_2_1_1_2_0_0_wf

class Facts : Prop extends Facts₀ where

variable [Facts]
-- ==== Proof.ProjRegions.lean ====
/-
  The three linear-projection regions (x·Wᵀ + b on a 1024-row block of x) at an arbitrary entry state of the
  TensorCore's buffers: for each, what the body leaves in the output window's staging buffer as a function of the
  three input blocks, the body's separation-logic triple, the pipeline's proof data, and the body obligation.
  Everything is stated at any float instance.
-/
import proofs.«137853_j11811160064067_1_alg».proof.Proof.Gen.KernelIdeal.Launch
import proofs.«137853_j11811160064067_1_alg».proof.Proof.Gen.KernelIdeal.Skeleton
import proofs.«137853_j11811160064067_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers of the TensorCore when a region is entered: every statement below is made at an arbitrary such state
variable (V : (c : Dev nD) → (b : Ref sig .tc) → Buf (Elt F) ((c : Thread nD τ).loc b))

/-! ## The rectangles the three bodies access

Every load and the one store of a projection body goes through the WHOLE staging buffer: the full 1024×1024 matrix
(the block of x, the weights, the result) or the full length-1024 bias vector. -/

/-- The whole 1024×1024 buffer as a rectangle. -/
abbrev matAll : Rect S1024x1024 := Rect.unit (s := S1024x1024) ![0, 0] S1024x1024.size inb_S1024x1024_S1024x1024_0_0
/-- The whole length-1024 buffer as a rectangle. -/
abbrev vecAll : Rect S1024 := Rect.unit (s := S1024) ![0] S1024.size inb_S1024_S1024_0

/-- One store through the whole matrix covers every index of it. -/
theorem matAll_covers {e : EltTy} (p : Vec F S1024x1024 e) (y : S1024x1024.Idx) :
    ∃ pc ∈ ([⟨matAll, p⟩] : List (View.Piece (Elt F) S1024x1024 e)), y ∈ pc.1.set :=
  View.cover_of_tiled [⟨matAll, p⟩] S1024x1024.size (by rfl) y

/-! # Projection region 0: pipeline 0, body `cc0__proj_kernel` -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the x block of the point, for any proof data over the entry arrays whose body
    leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's staging buffer holds the weight matrix at every point: fetched once, its block index never
    moves, and the body leaves the buffer alone. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the bias window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the result window's staging buffer: its one store, through the whole buffer, of the
    projection of the x block `x0` by the weights `x1` plus the bias `x2`. -/
def out0_3 (x0 x1 : Vec F S1024x1024 .f32) (x2 : Vec F S1024 .f32) : Vec F S1024x1024 .bf16 :=
  View.canon [⟨matAll, k0_pay1 (View.ld x0 matAll) (View.ld x1 matAll) (View.ld x2 vecAll)⟩]

set_option maxHeartbeats 1000000 in
/-- The body's triple: on whole staging memrefs, the three inputs' reading `x0`, `x1`, `x2` and the result's holding
    anything, the body runs to a state where the inputs' are unchanged and the result's reads `out0_3 x0 x1 x2`. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024 .f32) (harg3 : arg3.IsWhole) (arg4 : Memref sig .tc .vmem S1024x1024 .bf16) (harg4 : arg4.IsWhole)
    (x0 x1 : Vec F S1024x1024 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (matAll_covers _)

/-- The proof data of pipeline 0 on core `c`: the arrays as the region finds them; after the body at point `t` each
    input's buffer still at its block and the result's at the projection of the three blocks; the invariant is the
    untouched rest (scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry state's. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the four windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Projection region 1: pipeline 1, body `cc1__proj_kernel` -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds the x block of the point, for any proof data over the entry arrays whose body
    leaves that buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight window's staging buffer holds the weight matrix at every point: fetched once, its block index never
    moves, and the body leaves the buffer alone. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the bias window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the result window's staging buffer: its one store, through the whole buffer, of the
    projection of the x block `x0` by the weights `x1` plus the bias `x2`. -/
def out1_3 (x0 x1 : Vec F S1024x1024 .f32) (x2 : Vec F S1024 .f32) : Vec F S1024x1024 .bf16 :=
  View.canon [⟨matAll, k1_pay1 (View.ld x0 matAll) (View.ld x1 matAll) (View.ld x2 vecAll)⟩]

set_option maxHeartbeats 1000000 in
/-- The body's triple: on whole staging memrefs, the three inputs' reading `x0`, `x1`, `x2` and the result's holding
    anything, the body runs to a state where the inputs' are unchanged and the result's reads `out1_3 x0 x1 x2`. -/
theorem sound_kernel1 (c : Dev nD) (E : Set ℕ) (i : grid1.Coords)
    (arg1 : Memref sig .tc .vmem S1024x1024 .f32) (harg1 : arg1.IsWhole) (arg2 : Memref sig .tc .vmem S1024x1024 .f32) (harg2 : arg2.IsWhole)
    (arg3 : Memref sig .tc .vmem S1024 .f32) (harg3 : arg3.IsWhole) (arg4 : Memref sig .tc .vmem S1024x1024 .bf16) (harg4 : arg4.IsWhole)
    (x0 x1 : Vec F S1024x1024 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (matAll_covers _)

/-- The proof data of pipeline 1 on core `c`: the arrays as the region finds them; after the body at point `t` each
    input's buffer still at its block and the result's at the projection of the three blocks; the invariant is the
    untouched rest (scoped buffers and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry state's. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the four windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Projection region 2: pipeline 2, body `cc2__proj_kernel` -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x window's staging buffer holds the x block of the point, for any proof data over the entry arrays whose body
    leaves that buffer alone. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's staging buffer holds the weight matrix at every point: fetched once, its block index never
    moves, and the body leaves the buffer alone. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for the bias window. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the result window's staging buffer: its one store, through the whole buffer, of the
    projection of the x block `x0` by the weights `x1` plus the bias `x2`. -/
def out2_3 (x0 x1 : Vec F S1024x1024 .f32) (x2 : Vec F S1024 .f32) : Vec F S1024x1024 .bf16 :=
  View.canon [⟨matAll, k2_pay1 (View.ld x0 matAll) (View.ld x1 matAll) (View.ld x2 vecAll)⟩]

set_option maxHeartbeats 1000000 in
/-- The body's triple: on whole staging memrefs, the three inputs' reading `x0`, `x1`, `x2` and the result's holding
    anything, the body runs to a state where the inputs' are unchanged and the result's reads `out2_3 x0 x1 x2`. -/
theorem sound_kernel2 (c : Dev nD) (E : Set ℕ) (i : grid2.Coords)
    (arg1 : Memref sig .tc .vmem S1024x1024 .f32) (harg1 : arg1.IsWhole) (arg2 : Memref sig .tc .vmem S1024x1024 .f32) (harg2 : arg2.IsWhole)
    (arg3 : Memref sig .tc .vmem S1024 .f32) (harg3 : arg3.IsWhole) (arg4 : Memref sig .tc .vmem S1024x1024 .bf16) (harg4 : arg4.IsWhole)
    (x0 x1 : Vec F S1024x1024 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (matAll_covers _)

/-- The proof data of pipeline 2 on core `c`: the arrays as the region finds them; after the body at point `t` each
    input's buffer still at its block and the result's at the projection of the three blocks; the invariant is the
    untouched rest (scoped buffers and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry state's. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the four windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.AttnShared.lean ====
/-
  The attention region (the fourth kernel launch): what its three cases share.
  The grid is 2 query tiles by 16 key tiles, walked key tile fastest, so point t is query tile t / 16 and key tile t % 16.
  The body resets its accumulator at key tile 0, adds one key tile's contribution at every point, and copies the
  accumulator to the output block at key tile 15; the output window is idle (neither stored nor written back) elsewhere.
  Here: a window's block at a point read off the array the region finds; that an input's staging buffer holds its block
  whether or not the point fetched it; the two branch conditions in closed form over the grid; where the output window
  is idle; and the accumulator split out of the core's scoped buffers, the rest of which the region never opens.
-/
import proofs.«137853_j11811160064067_1_alg».proof.Proof.Gen.KernelIdeal.Launch
import proofs.«137853_j11811160064067_1_alg».proof.Proof.Gen.KernelIdeal.Skeleton
import proofs.«137853_j11811160064067_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query window's staging buffer holds the point's query block at every point: it is fetched when the query tile
    changes and its index does not move in between. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The key window's staging buffer holds the point's key block (fetched at every point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The value window's staging buffer holds the point's value block (fetched at every point). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- "This is key tile 0": the condition under which the accumulator is reset, as the body computes it. -/
abbrev cond3_0 (i : grid3.Coords) : Prop := (Scalar.cmpi .ne (Scalar.extui (Scalar.cmpi .eq (BitVec.ofNat 32 (i 1).val) 0#32)) 0#32) = 1#1
/-- It holds exactly at the points ≡ 0 (mod 16). -/
theorem hcond3_0 : ∀ t : Fin cfg3.N, cond3_0 (grid3.coords t) ↔ t.val % 16 = 0 :=
  (by decide +kernel : ∀ t : Fin grid3.N, cond3_0 (grid3.coords t) ↔ t.val % 16 = 0)

/-- "This is key tile 15": the condition under which the accumulator is copied to the output block. -/
abbrev cond3_1 (i : grid3.Coords) : Prop := k3_cond2 i = 1#1
/-- It holds exactly at the points ≡ 15 (mod 16). -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from key tile 15 the output window is idle and its block is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At key tile 15 it is live. -/
theorem liveAt3_3 : ∀ t : Fin cfg3.N, cond3_1 (grid3.coords t) → cfg3.idle 3 (grid3.coords t) = false := by decide +kernel

/-! ## The memrefs the body is called with -/

/-- One staging buffer of the output window, through which its contents are stated. -/
abbrev VO3_3 : View sig .tc .vmem S8x128x1024 .f32 := (Memref.whole cc3_stg3_0 : Memref sig .tc .vmem S8x128x1024 .f32).view
abbrev ms3_0 (t : Fin cfg3.N) : Memref sig .tc .vmem S8x128x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x256x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x256x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S8x128x1024 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3_0 : Memref sig .tc .vmem S8x128x1024 .f32 := Memref.whole cc3_scratch0
abbrev VS3_0 : View sig .tc .vmem S8x128x1024 .f32 := scM3_0.view

/-! ## The accumulator among the core's scoped buffers -/

/-- The core's scoped buffers that are no staging buffer of this launch: the accumulator at some contents, and every
    other one (the other launches' staging buffers), which this region never opens. -/
theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop((∃ f : Buf Val ((c : Thread nD τ).loc cc3_scratch0), ((c : Thread nD τ).loc cc3_scratch0) ↦{fullShare} f)
          ∗ Pipeline.scopedRestBut (Ix := Ix) (Name := Name) (U := U) (Lvl := Lvl) (Val := Val) spec3 c [cc3_scratch0]) :=
  Pipeline.scopedRest_split_of_list spec3 c [cc3_scratch0] (by decide) (by decide)

/-- The others, named. -/
abbrev others3 (c : Dev nD) : sProp 𝕄 :=
  Pipeline.scopedRestBut (Ix := Unit) (Name := ℕ) (U := UR sig nD τ) (Lvl := ℕ) (Val := Elt F) spec3 c [cc3_scratch0]

/-- The class invariant with the accumulator as a memref owned at some contents. -/
theorem PhiA3_eq (c : Dev nD) :
    (Pipeline.ΦA spec3 c : sProp 𝕄)
      = iprop(iprop((∃ d, owns (c : Thread nD τ) scM3_0 fullShare d) ∗ others3 (F := F) c) ∗ (∃ r, prngReg c r)) := by
  unfold Pipeline.ΦA; rw [scopedRest3_split]; simp only [scM3_0, owns_whole]; try rfl

end Cert.KernelIdeal.Hand

end
-- ==== Proof.AttnRunA.lean ====
/-
  The attention body run whole at key tile 0 (the accumulator is reset, then one key tile is added; the output block is left alone).
  On whole staging memrefs holding the query, key and value blocks, the body runs to its end with those three unchanged;
  what it leaves in the accumulator is a list of stored pieces, found while the body is run and kept as the run's witness.
-/
import proofs.«137853_j11811160064067_1_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator (second component), with the proof that the body,
    started on the blocks `x0` (queries), `x1` (keys), `x2` (values) and the accumulator at anything, runs to the continuation
    that holds the inputs as they were and the written buffers with those pieces written. -/
noncomputable def kernelRun3_A (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : cond3_0 i) (hc1 : ¬cond3_1 i)
    (x0 : Vec F S8x128x1024 .bf16) (x1 : Vec F S8x256x1024 .bf16) (x2 : Vec F S8x256x1024 .bf16) :
    Σ' (L3 : List (View.Piece (Elt F) S8x128x1024 .f32)), { LS0 : List (View.Piece (Elt F) S8x128x1024 .f32) //
      ∀ (xi3 : Vec F S8x128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.AttnRunB.lean ====
/-
  The attention body run whole at a key tile strictly between the first and the last (one key tile is added to the accumulator; the output block is left alone).
  On whole staging memrefs holding the query, key and value blocks, the body runs to its end with those three unchanged;
  what it leaves in the accumulator is a list of stored pieces, found while the body is run and kept as the run's witness.
-/
import proofs.«137853_j11811160064067_1_alg».proof.Proof.AttnRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator (second component), with the proof that the body,
    started on the blocks `x0` (queries), `x1` (keys), `x2` (values) and the accumulator at `xs0`, runs to the continuation
    that holds the inputs as they were and the written buffers with those pieces written. -/
noncomputable def kernelRun3_B (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : ¬cond3_1 i)
    (x0 : Vec F S8x128x1024 .bf16) (x1 : Vec F S8x256x1024 .bf16) (x2 : Vec F S8x256x1024 .bf16) (xs0 : Vec F S8x128x1024 .f32) :
    Σ' (L3 : List (View.Piece (Elt F) S8x128x1024 .f32)), { LS0 : List (View.Piece (Elt F) S8x128x1024 .f32) //
      ∀ (xi3 : Vec F S8x128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.AttnRunC.lean ====
/-
  The attention body run whole at key tile 15 (one key tile is added to the accumulator, which is then copied into the output block).
  On whole staging memrefs holding the query, key and value blocks, the body runs to its end with those three unchanged;
  what it leaves in the accumulator and in the output block is a list of stored pieces, found while the body is run and kept as the run's witness.
-/
import proofs.«137853_j11811160064067_1_alg».proof.Proof.AttnRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (first component) and in the accumulator (second component), with the proof that the body,
    started on the blocks `x0` (queries), `x1` (keys), `x2` (values) and the accumulator at `xs0`, runs to the continuation
    that holds the inputs as they were and the written buffers with those pieces written. -/
noncomputable def kernelRun3_C (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) :
    Σ' (L3 : List (View.Piece (Elt F) S8x128x1024 .f32)), { LS0 : List (View.Piece (Elt F) S8x128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.AttnRegion.lean ====
/-
  The attention region: what its buffers hold point by point, and the obligation of its body.
  Walking the 32 points in order, the accumulator after a point is: at key tile 0 the key tile's contribution over a
  reset accumulator; elsewhere that contribution added to what the point before left. The output block is stored only
  at key tile 15, with the accumulator's contents. The region's invariant carries the accumulator at exactly those
  contents from one point to the next, beside the core's other scoped buffers (unopened) and its generator register.
-/
import proofs.«137853_j11811160064067_1_alg».proof.Proof.AttnRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the output block's buffer reads as after the body in case A: its pieces read back (none: the window is idle there, nothing consults this). -/
def out3_A_3 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : cond3_0 i) (hc1 : ¬cond3_1 i)
    (x0 : Vec F S8x128x1024 .bf16) (x1 : Vec F S8x256x1024 .bf16) (x2 : Vec F S8x256x1024 .bf16) : Vec F S8x128x1024 .f32 :=
  VO3_3.read (Elt F) (VO3_3.writes (Elt F) VO3_3.junk (kernelRun3_A c i arg2 harg2 arg3 harg3 arg4 harg4 arg5 harg5 arg6 harg6 hc0 hc1 x0 x1 x2).1)

/-- The accumulator's pieces in case A cover it. -/
theorem scover3_A_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : cond3_0 i) (hc1 : ¬cond3_1 i)
    (x0 : Vec F S8x128x1024 .bf16) (x1 : Vec F S8x256x1024 .bf16) (x2 : Vec F S8x256x1024 .bf16) (y : S8x128x1024.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S8x128x1024.size (by sl_kernel_rfl) y

/-- What case A leaves in the accumulator: its pieces read back. -/
def sout3_A_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : cond3_0 i) (hc1 : ¬cond3_1 i)
    (x0 : Vec F S8x128x1024 .bf16) (x1 : Vec F S8x256x1024 .bf16) (x2 : Vec F S8x256x1024 .bf16) : Vec F S8x128x1024 .f32 :=
  VS3_0.read (Elt F) (VS3_0.writes (Elt F) VS3_0.junk (kernelRun3_A c i arg2 harg2 arg3 harg3 arg4 harg4 arg5 harg5 arg6 harg6 hc0 hc1 x0 x1 x2).2.1)

/-- What the output block's buffer reads as after the body in case B: its pieces read back (none: the window is idle there, nothing consults this). -/
def out3_B_3 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : ¬cond3_1 i)
    (x0 : Vec F S8x128x1024 .bf16) (x1 : Vec F S8x256x1024 .bf16) (x2 : Vec F S8x256x1024 .bf16) (xs0 : Vec F S8x128x1024 .f32) : Vec F S8x128x1024 .f32 :=
  VO3_3.read (Elt F) (VO3_3.writes (Elt F) VO3_3.junk (kernelRun3_B c i arg2 harg2 arg3 harg3 arg4 harg4 arg5 harg5 arg6 harg6 hc0 hc1 x0 x1 x2 xs0).1)

/-- The accumulator's pieces in case B cover it. -/
theorem scover3_B_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : ¬cond3_1 i)
    (x0 : Vec F S8x128x1024 .bf16) (x1 : Vec F S8x256x1024 .bf16) (x2 : Vec F S8x256x1024 .bf16) (xs0 : Vec F S8x128x1024 .f32) (y : S8x128x1024.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S8x128x1024.size (by sl_kernel_rfl) y

/-- What case B leaves in the accumulator: its pieces read back. -/
def sout3_B_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : ¬cond3_1 i)
    (x0 : Vec F S8x128x1024 .bf16) (x1 : Vec F S8x256x1024 .bf16) (x2 : Vec F S8x256x1024 .bf16) (xs0 : Vec F S8x128x1024 .f32) : Vec F S8x128x1024 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- What the output block's buffer reads as after the body in case C: its pieces read back. -/
def out3_C_3 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) : Vec F S8x128x1024 .f32 :=
  VO3_3.read (Elt F) (VO3_3.writes (Elt F) VO3_3.junk (kernelRun3_C c i arg2 harg2 arg3 harg3 arg4 harg4 arg5 harg5 arg6 harg6 hc0 hc1 x0 x1 x2 xs0).1)

/-- In case C the output block's pieces cover it. -/
theorem cover3_C_3 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) (y : S8x128x1024.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S8x128x1024.size (by sl_kernel_rfl) y

/-- The accumulator's pieces in case C cover it. -/
theorem scover3_C_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) (y : S8x128x1024.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S8x128x1024.size (by sl_kernel_rfl) y

/-- What case C leaves in the accumulator: its pieces read back. -/
def sout3_C_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) : Vec F S8x128x1024 .f32 :=
  VS3_0.read (Elt F) (VS3_0.writes (Elt F) VS3_0.junk (kernelRun3_C c i arg2 harg2 arg3 harg3 arg4 harg4 arg5 harg5 arg6 harg6 hc0 hc1 x0 x1 x2 xs0).2.1)

/-- THE ACCUMULATION: what the output block's staging buffer (first) and the accumulator (second) hold after the body at
    position `n`: the case the closed forms select there, run on the point's blocks, over what the point before left in the
    accumulator. Key tile 0 and key tile 15 are never the same point. -/
def outsAt3 (c : Dev nD) : (n : ℕ) → n < cfg3.N → Vec F S8x128x1024 .f32 × Vec F S8x128x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 16 = 0 then
      if h1 : (n + 1) % 16 = 15 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 16 = 15 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 16 = 0) (h1 : ¬t.val % 16 = 15) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 16 = 0) (h1 : ¬t.val % 16 = 15) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 16 = 0) (h1 : t.val % 16 = 15) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the accumulator at what the point before left, the other scoped buffers unopened, the generator register
    at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ others3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ others3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ others3 (F := F) c) ∗ (∃ r, prngReg c r)) := by
  cases n with
  | zero => exact absurd rfl hz
  | succ n => rfl

/-! ## The region's proof data -/

/-- The arrays as the region finds them; after the body at point `t` each input's buffer at its block and the output's at
    the accumulation's first component; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' memrefs hold their blocks; the closed forms say which case the point is in; the
    invariant hands the body the accumulator at what the point before left (at anything at the very first point) and takes
    it back at this point's contents; the other scoped buffers, the generator register and the core's dues pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 16 = 0
  · have h1 : ¬t.val % 16 = 15 := by omega
    rw [Dat.leavesExact_idle (dat3 V c) 3 t (idleAt3_3 t (fun h => h1 ((hcond3_1 t).mp h))) (noFlush3_3 t (fun h => h1 ((hcond3_1 t).mp h)))]
    rw [outsAt3_A V c t h0 h1]
    unfold sout3_A_0; (try dsimp only)
    by_cases hz : t.val = 0
    · rw [PhiS3_castSucc V c t, PhiS3_zero V c _ _ hz, PhiA3_eq]
      iintro ⟨⟨⟨HS0, Hoth⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 16 = 15
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C_3 sout3_C_0; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B_0; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 32 := N_3; omega), PhiA3_eq]
  iintro ⟨⟨HS0, Hoth⟩, Hg⟩
  isplitl [HS0 Hoth]
  · isplitl [HS0]
    · iexists _; iexact HS0
    iexact Hoth
  iexact Hg

end Cert.KernelIdeal.Hand

end
-- ==== Proof.MainRun.lean ====
/-
  The whole program run: four kernel launches among reshapes on the host.
  The contents of every buffer outside the kernels' scoped memory are followed from the launch memory through @main:
  a stretch of host operations applies them; a kernel launch leaves its input arrays as they were and its output array
  at what its write-backs fold to. Each launch is entered from "every such buffer at the current contents" and left at
  the next; at the end every such buffer of the final state is read at the last contents. From that: the argument
  arrays end as launched (no host operation and no launch writes one), and the result array holds what the attention
  launch's write-backs fold to.
-/
import proofs.«137853_j11811160064067_1_alg».proof.Proof.ProjRegions
import proofs.«137853_j11811160064067_1_alg».proof.Proof.AttnRegion
import proofs.«137853_j11811160064067_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations before launch 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After launch 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host operations before launch 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After launch 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host operations before launch 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After launch 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host operations before launch 3. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After launch 3: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide : main_arg2 ∉ hostOps3_W)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide : main_arg3 ∉ hostOps0_W)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub hostOps0 _ hostOps0_writes (by decide : main_arg4 ∉ hostOps0_W)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := (W4_arr m ρ c 1).trans (((dat1 (V3 m ρ) c).arrAt_in 1 rfl _).trans (A_eq1 (V3 m ρ) c 1))
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := (W4_arr m ρ c 2).trans (((dat1 (V3 m ρ) c).arrAt_in 2 rfl _).trans (A_eq1 (V3 m ρ) c 2))
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide : main_arg7 ∉ hostOps3_W)
    _ = W5 m ρ c (Proc.devRef .tc main_arg7) := (W6_arr m ρ c 1).trans (((dat2 (V5 m ρ) c).arrAt_in 1 rfl _).trans (A_eq2 (V5 m ρ) c 1))
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps3 _ hostOps3_writes (by decide : main_arg8 ∉ hostOps3_W)
    _ = W5 m ρ c (Proc.devRef .tc main_arg8) := (W6_arr m ρ c 2).trans (((dat2 (V5 m ρ) c).arrAt_in 2 rfl _).trans (A_eq2 (V5 m ρ) c 2))
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

/-! ## The proof data family and the thread state -/

/-- Every launch's proof data, each at the contents its launch is entered from. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m ρ c) ∗ ∃ r, prngReg c r)

/-! ## The launches as segments -/

set_option backward.isDefEq.respectTransparency.types false in
/-- Launch 0 over the thread state: entered from every unscoped buffer at `W1`, left at `W2`. Its arrays are split out
    of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are split out
    of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W5`, left at `W6`. Its arrays are split out
    of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered from every unscoped buffer at `W7`, left at `W8`. Its arrays are split out
    of the unscoped buffers and put back at the exit contents; the generator register goes into the region's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ (Pipeline.ΦA spec3 c : sProp 𝕄) from hout3 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs m ρ) := (main_chain c).trans (by chain_rfl)

set_option backward.isDefEq.respectTransparency.types false in
/-- At the compiled mesh, from any memory with zero counters, every weakly fair execution of @main terminates without a
    fault, and the final state holds every buffer outside the kernels' scoped memory at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_all m ρ)

/-- The run with the result named: the result array ends at what the attention launch's write-backs fold to, the argument
    arrays as launched. -/
theorem run_result : θ_run defs (onTc (τ := τ) (main (F := F))) ⟨m, fun _ => 0, ρ⟩ (fun r => ∀ c : Dev nD,
      r.2.mem ((c.tc : Thread nD τ).loc main_v10) = (dat3 (V7 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v10 (by decide))).trans (W8_arr m ρ c 3),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_all m ρ)

end Cert.KernelIdeal.Hand

end
-- ==== Proof.ProjRegionsBits.lean ====
/-
  The three linear-projection regions (x·Wᵀ + b on a 1024-row block of x) at an arbitrary entry state of the
  TensorCore's buffers: for each, what the body leaves in the output window's staging buffer as a function of the
  three input blocks, the body's separation-logic triple, the pipeline's proof data, and the body obligation.
  Everything is stated at any float instance.
-/
import proofs.«137853_j11811160064067_1_alg».proof.Proof.Gen.Kernel.Launch
import proofs.«137853_j11811160064067_1_alg».proof.Proof.Gen.Kernel.Skeleton
import proofs.«137853_j11811160064067_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers of the TensorCore when a region is entered: every statement below is made at an arbitrary such state
variable (V : (c : Dev nD) → (b : Ref sig .tc) → Buf (Elt F) ((c : Thread nD τ).loc b))

/-! ## The rectangles the three bodies access

Every load and the one store of a projection body goes through the WHOLE staging buffer: the full 1024×1024 matrix
(the block of x, the weights, the result) or the full length-1024 bias vector. -/

/-- The whole 1024×1024 buffer as a rectangle. -/
abbrev matAll : Rect S1024x1024 := Rect.unit (s := S1024x1024) ![0, 0] S1024x1024.size inb_S1024x1024_S1024x1024_0_0
/-- The whole length-1024 buffer as a rectangle. -/
abbrev vecAll : Rect S1024 := Rect.unit (s := S1024) ![0] S1024.size inb_S1024_S1024_0

/-- One store through the whole matrix covers every index of it. -/
theorem matAll_covers {e : EltTy} (p : Vec F S1024x1024 e) (y : S1024x1024.Idx) :
    ∃ pc ∈ ([⟨matAll, p⟩] : List (View.Piece (Elt F) S1024x1024 e)), y ∈ pc.1.set :=
  View.cover_of_tiled [⟨matAll, p⟩] S1024x1024.size (by rfl) y

/-! # Projection region 0: pipeline 0, body `cc0__proj_kernel` -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the x block of the point, for any proof data over the entry arrays whose body
    leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's staging buffer holds the weight matrix at every point: fetched once, its block index never
    moves, and the body leaves the buffer alone. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the bias window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the result window's staging buffer: its one store, through the whole buffer, of the
    projection of the x block `x0` by the weights `x1` plus the bias `x2`. -/
def out0_3 (x0 x1 : Vec F S1024x1024 .f32) (x2 : Vec F S1024 .f32) : Vec F S1024x1024 .bf16 :=
  View.canon [⟨matAll, k0_pay1 (View.ld x0 matAll) (View.ld x1 matAll) (View.ld x2 vecAll)⟩]

set_option maxHeartbeats 1000000 in
/-- The body's triple: on whole staging memrefs, the three inputs' reading `x0`, `x1`, `x2` and the result's holding
    anything, the body runs to a state where the inputs' are unchanged and the result's reads `out0_3 x0 x1 x2`. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024 .f32) (harg3 : arg3.IsWhole) (arg4 : Memref sig .tc .vmem S1024x1024 .bf16) (harg4 : arg4.IsWhole)
    (x0 x1 : Vec F S1024x1024 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (matAll_covers _)

/-- The proof data of pipeline 0 on core `c`: the arrays as the region finds them; after the body at point `t` each
    input's buffer still at its block and the result's at the projection of the three blocks; the invariant is the
    untouched rest (scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry state's. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the four windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Projection region 1: pipeline 1, body `cc1__proj_kernel` -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds the x block of the point, for any proof data over the entry arrays whose body
    leaves that buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight window's staging buffer holds the weight matrix at every point: fetched once, its block index never
    moves, and the body leaves the buffer alone. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the bias window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the result window's staging buffer: its one store, through the whole buffer, of the
    projection of the x block `x0` by the weights `x1` plus the bias `x2`. -/
def out1_3 (x0 x1 : Vec F S1024x1024 .f32) (x2 : Vec F S1024 .f32) : Vec F S1024x1024 .bf16 :=
  View.canon [⟨matAll, k1_pay1 (View.ld x0 matAll) (View.ld x1 matAll) (View.ld x2 vecAll)⟩]

set_option maxHeartbeats 1000000 in
/-- The body's triple: on whole staging memrefs, the three inputs' reading `x0`, `x1`, `x2` and the result's holding
    anything, the body runs to a state where the inputs' are unchanged and the result's reads `out1_3 x0 x1 x2`. -/
theorem sound_kernel1 (c : Dev nD) (E : Set ℕ) (i : grid1.Coords)
    (arg1 : Memref sig .tc .vmem S1024x1024 .f32) (harg1 : arg1.IsWhole) (arg2 : Memref sig .tc .vmem S1024x1024 .f32) (harg2 : arg2.IsWhole)
    (arg3 : Memref sig .tc .vmem S1024 .f32) (harg3 : arg3.IsWhole) (arg4 : Memref sig .tc .vmem S1024x1024 .bf16) (harg4 : arg4.IsWhole)
    (x0 x1 : Vec F S1024x1024 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (matAll_covers _)

/-- The proof data of pipeline 1 on core `c`: the arrays as the region finds them; after the body at point `t` each
    input's buffer still at its block and the result's at the projection of the three blocks; the invariant is the
    untouched rest (scoped buffers and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry state's. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the four windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Projection region 2: pipeline 2, body `cc2__proj_kernel` -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x window's staging buffer holds the x block of the point, for any proof data over the entry arrays whose body
    leaves that buffer alone. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's staging buffer holds the weight matrix at every point: fetched once, its block index never
    moves, and the body leaves the buffer alone. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for the bias window. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the result window's staging buffer: its one store, through the whole buffer, of the
    projection of the x block `x0` by the weights `x1` plus the bias `x2`. -/
def out2_3 (x0 x1 : Vec F S1024x1024 .f32) (x2 : Vec F S1024 .f32) : Vec F S1024x1024 .bf16 :=
  View.canon [⟨matAll, k2_pay1 (View.ld x0 matAll) (View.ld x1 matAll) (View.ld x2 vecAll)⟩]

set_option maxHeartbeats 1000000 in
/-- The body's triple: on whole staging memrefs, the three inputs' reading `x0`, `x1`, `x2` and the result's holding
    anything, the body runs to a state where the inputs' are unchanged and the result's reads `out2_3 x0 x1 x2`. -/
theorem sound_kernel2 (c : Dev nD) (E : Set ℕ) (i : grid2.Coords)
    (arg1 : Memref sig .tc .vmem S1024x1024 .f32) (harg1 : arg1.IsWhole) (arg2 : Memref sig .tc .vmem S1024x1024 .f32) (harg2 : arg2.IsWhole)
    (arg3 : Memref sig .tc .vmem S1024 .f32) (harg3 : arg3.IsWhole) (arg4 : Memref sig .tc .vmem S1024x1024 .bf16) (harg4 : arg4.IsWhole)
    (x0 x1 : Vec F S1024x1024 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (matAll_covers _)

/-- The proof data of pipeline 2 on core `c`: the arrays as the region finds them; after the body at point `t` each
    input's buffer still at its block and the result's at the projection of the three blocks; the invariant is the
    untouched rest (scoped buffers and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry state's. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the four windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.AttnSharedBits.lean ====
/-
  The attention region (the fourth kernel launch): what its three cases share.
  The grid is 2 query tiles by 16 key tiles, walked key tile fastest, so point t is query tile t / 16 and key tile t % 16.
  The body resets its accumulator at key tile 0, adds one key tile's contribution at every point, and copies the
  accumulator to the output block at key tile 15; the output window is idle (neither stored nor written back) elsewhere.
  Here: a window's block at a point read off the array the region finds; that an input's staging buffer holds its block
  whether or not the point fetched it; the two branch conditions in closed form over the grid; where the output window
  is idle; and the accumulator split out of the core's scoped buffers, the rest of which the region never opens.
-/
import proofs.«137853_j11811160064067_1_alg».proof.Proof.Gen.Kernel.Launch
import proofs.«137853_j11811160064067_1_alg».proof.Proof.Gen.Kernel.Skeleton
import proofs.«137853_j11811160064067_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query window's staging buffer holds the point's query block at every point: it is fetched when the query tile
    changes and its index does not move in between. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The key window's staging buffer holds the point's key block (fetched at every point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The value window's staging buffer holds the point's value block (fetched at every point). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- "This is key tile 0": the condition under which the accumulator is reset, as the body computes it. -/
abbrev cond3_0 (i : grid3.Coords) : Prop := (Scalar.cmpi .ne (Scalar.extui (Scalar.cmpi .eq (BitVec.ofNat 32 (i 1).val) 0#32)) 0#32) = 1#1
/-- It holds exactly at the points ≡ 0 (mod 16). -/
theorem hcond3_0 : ∀ t : Fin cfg3.N, cond3_0 (grid3.coords t) ↔ t.val % 16 = 0 :=
  (by decide +kernel : ∀ t : Fin grid3.N, cond3_0 (grid3.coords t) ↔ t.val % 16 = 0)

/-- "This is key tile 15": the condition under which the accumulator is copied to the output block. -/
abbrev cond3_1 (i : grid3.Coords) : Prop := k3_cond2 i = 1#1
/-- It holds exactly at the points ≡ 15 (mod 16). -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from key tile 15 the output window is idle and its block is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At key tile 15 it is live. -/
theorem liveAt3_3 : ∀ t : Fin cfg3.N, cond3_1 (grid3.coords t) → cfg3.idle 3 (grid3.coords t) = false := by decide +kernel

/-! ## The memrefs the body is called with -/

/-- One staging buffer of the output window, through which its contents are stated. -/
abbrev VO3_3 : View sig .tc .vmem S8x128x1024 .f32 := (Memref.whole cc3_stg3_0 : Memref sig .tc .vmem S8x128x1024 .f32).view
abbrev ms3_0 (t : Fin cfg3.N) : Memref sig .tc .vmem S8x128x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x256x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x256x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S8x128x1024 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3_0 : Memref sig .tc .vmem S8x128x1024 .f32 := Memref.whole cc3_scratch0
abbrev VS3_0 : View sig .tc .vmem S8x128x1024 .f32 := scM3_0.view

/-! ## The accumulator among the core's scoped buffers -/

/-- The core's scoped buffers that are no staging buffer of this launch: the accumulator at some contents, and every
    other one (the other launches' staging buffers), which this region never opens. -/
theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop((∃ f : Buf Val ((c : Thread nD τ).loc cc3_scratch0), ((c : Thread nD τ).loc cc3_scratch0) ↦{fullShare} f)
          ∗ Pipeline.scopedRestBut (Ix := Ix) (Name := Name) (U := U) (Lvl := Lvl) (Val := Val) spec3 c [cc3_scratch0]) :=
  Pipeline.scopedRest_split_of_list spec3 c [cc3_scratch0] (by decide) (by decide)

/-- The others, named. -/
abbrev others3 (c : Dev nD) : sProp 𝕄 :=
  Pipeline.scopedRestBut (Ix := Unit) (Name := ℕ) (U := UR sig nD τ) (Lvl := ℕ) (Val := Elt F) spec3 c [cc3_scratch0]

/-- The class invariant with the accumulator as a memref owned at some contents. -/
theorem PhiA3_eq (c : Dev nD) :
    (Pipeline.ΦA spec3 c : sProp 𝕄)
      = iprop(iprop((∃ d, owns (c : Thread nD τ) scM3_0 fullShare d) ∗ others3 (F := F) c) ∗ (∃ r, prngReg c r)) := by
  unfold Pipeline.ΦA; rw [scopedRest3_split]; simp only [scM3_0, owns_whole]; try rfl

end Cert.Kernel.Hand

end
-- ==== Proof.AttnRunABits.lean ====
/-
  The attention body run whole at key tile 0 (the accumulator is reset, then one key tile is added; the output block is left alone).
  On whole staging memrefs holding the query, key and value blocks, the body runs to its end with those three unchanged;
  what it leaves in the accumulator is a list of stored pieces, found while the body is run and kept as the run's witness.
-/
import proofs.«137853_j11811160064067_1_alg».proof.Proof.AttnSharedBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator (second component), with the proof that the body,
    started on the blocks `x0` (queries), `x1` (keys), `x2` (values) and the accumulator at anything, runs to the continuation
    that holds the inputs as they were and the written buffers with those pieces written. -/
noncomputable def kernelRun3_A (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : cond3_0 i) (hc1 : ¬cond3_1 i)
    (x0 : Vec F S8x128x1024 .bf16) (x1 : Vec F S8x256x1024 .bf16) (x2 : Vec F S8x256x1024 .bf16) :
    Σ' (L3 : List (View.Piece (Elt F) S8x128x1024 .f32)), { LS0 : List (View.Piece (Elt F) S8x128x1024 .f32) //
      ∀ (xi3 : Vec F S8x128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.AttnRunBBits.lean ====
/-
  The attention body run whole at a key tile strictly between the first and the last (one key tile is added to the accumulator; the output block is left alone).
  On whole staging memrefs holding the query, key and value blocks, the body runs to its end with those three unchanged;
  what it leaves in the accumulator is a list of stored pieces, found while the body is run and kept as the run's witness.
-/
import proofs.«137853_j11811160064067_1_alg».proof.Proof.AttnRunABits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator (second component), with the proof that the body,
    started on the blocks `x0` (queries), `x1` (keys), `x2` (values) and the accumulator at `xs0`, runs to the continuation
    that holds the inputs as they were and the written buffers with those pieces written. -/
noncomputable def kernelRun3_B (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : ¬cond3_1 i)
    (x0 : Vec F S8x128x1024 .bf16) (x1 : Vec F S8x256x1024 .bf16) (x2 : Vec F S8x256x1024 .bf16) (xs0 : Vec F S8x128x1024 .f32) :
    Σ' (L3 : List (View.Piece (Elt F) S8x128x1024 .f32)), { LS0 : List (View.Piece (Elt F) S8x128x1024 .f32) //
      ∀ (xi3 : Vec F S8x128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.AttnRunCBits.lean ====
/-
  The attention body run whole at key tile 15 (one key tile is added to the accumulator, which is then copied into the output block).
  On whole staging memrefs holding the query, key and value blocks, the body runs to its end with those three unchanged;
  what it leaves in the accumulator and in the output block is a list of stored pieces, found while the body is run and kept as the run's witness.
-/
import proofs.«137853_j11811160064067_1_alg».proof.Proof.AttnRunBBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (first component) and in the accumulator (second component), with the proof that the body,
    started on the blocks `x0` (queries), `x1` (keys), `x2` (values) and the accumulator at `xs0`, runs to the continuation
    that holds the inputs as they were and the written buffers with those pieces written. -/
noncomputable def kernelRun3_C (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) :
    Σ' (L3 : List (View.Piece (Elt F) S8x128x1024 .f32)), { LS0 : List (View.Piece (Elt F) S8x128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.AttnRegionBits.lean ====
/-
  The attention region: what its buffers hold point by point, and the obligation of its body.
  Walking the 32 points in order, the accumulator after a point is: at key tile 0 the key tile's contribution over a
  reset accumulator; elsewhere that contribution added to what the point before left. The output block is stored only
  at key tile 15, with the accumulator's contents. The region's invariant carries the accumulator at exactly those
  contents from one point to the next, beside the core's other scoped buffers (unopened) and its generator register.
-/
import proofs.«137853_j11811160064067_1_alg».proof.Proof.AttnRunCBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the output block's buffer reads as after the body in case A: its pieces read back (none: the window is idle there, nothing consults this). -/
def out3_A_3 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : cond3_0 i) (hc1 : ¬cond3_1 i)
    (x0 : Vec F S8x128x1024 .bf16) (x1 : Vec F S8x256x1024 .bf16) (x2 : Vec F S8x256x1024 .bf16) : Vec F S8x128x1024 .f32 :=
  VO3_3.read (Elt F) (VO3_3.writes (Elt F) VO3_3.junk (kernelRun3_A c i arg2 harg2 arg3 harg3 arg4 harg4 arg5 harg5 arg6 harg6 hc0 hc1 x0 x1 x2).1)

/-- The accumulator's pieces in case A cover it. -/
theorem scover3_A_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : cond3_0 i) (hc1 : ¬cond3_1 i)
    (x0 : Vec F S8x128x1024 .bf16) (x1 : Vec F S8x256x1024 .bf16) (x2 : Vec F S8x256x1024 .bf16) (y : S8x128x1024.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S8x128x1024.size (by sl_kernel_rfl) y

/-- What case A leaves in the accumulator: its pieces read back. -/
def sout3_A_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : cond3_0 i) (hc1 : ¬cond3_1 i)
    (x0 : Vec F S8x128x1024 .bf16) (x1 : Vec F S8x256x1024 .bf16) (x2 : Vec F S8x256x1024 .bf16) : Vec F S8x128x1024 .f32 :=
  VS3_0.read (Elt F) (VS3_0.writes (Elt F) VS3_0.junk (kernelRun3_A c i arg2 harg2 arg3 harg3 arg4 harg4 arg5 harg5 arg6 harg6 hc0 hc1 x0 x1 x2).2.1)

/-- What the output block's buffer reads as after the body in case B: its pieces read back (none: the window is idle there, nothing consults this). -/
def out3_B_3 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : ¬cond3_1 i)
    (x0 : Vec F S8x128x1024 .bf16) (x1 : Vec F S8x256x1024 .bf16) (x2 : Vec F S8x256x1024 .bf16) (xs0 : Vec F S8x128x1024 .f32) : Vec F S8x128x1024 .f32 :=
  VO3_3.read (Elt F) (VO3_3.writes (Elt F) VO3_3.junk (kernelRun3_B c i arg2 harg2 arg3 harg3 arg4 harg4 arg5 harg5 arg6 harg6 hc0 hc1 x0 x1 x2 xs0).1)

/-- The accumulator's pieces in case B cover it. -/
theorem scover3_B_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : ¬cond3_1 i)
    (x0 : Vec F S8x128x1024 .bf16) (x1 : Vec F S8x256x1024 .bf16) (x2 : Vec F S8x256x1024 .bf16) (xs0 : Vec F S8x128x1024 .f32) (y : S8x128x1024.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S8x128x1024.size (by sl_kernel_rfl) y

/-- What case B leaves in the accumulator: its pieces read back. -/
def sout3_B_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : ¬cond3_1 i)
    (x0 : Vec F S8x128x1024 .bf16) (x1 : Vec F S8x256x1024 .bf16) (x2 : Vec F S8x256x1024 .bf16) (xs0 : Vec F S8x128x1024 .f32) : Vec F S8x128x1024 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- What the output block's buffer reads as after the body in case C: its pieces read back. -/
def out3_C_3 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) : Vec F S8x128x1024 .f32 :=
  VO3_3.read (Elt F) (VO3_3.writes (Elt F) VO3_3.junk (kernelRun3_C c i arg2 harg2 arg3 harg3 arg4 harg4 arg5 harg5 arg6 harg6 hc0 hc1 x0 x1 x2 xs0).1)

/-- In case C the output block's pieces cover it. -/
theorem cover3_C_3 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) (y : S8x128x1024.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S8x128x1024.size (by sl_kernel_rfl) y

/-- The accumulator's pieces in case C cover it. -/
theorem scover3_C_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) (y : S8x128x1024.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S8x128x1024.size (by sl_kernel_rfl) y

/-- What case C leaves in the accumulator: its pieces read back. -/
def sout3_C_0 (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) : Vec F S8x128x1024 .f32 :=
  VS3_0.read (Elt F) (VS3_0.writes (Elt F) VS3_0.junk (kernelRun3_C c i arg2 harg2 arg3 harg3 arg4 harg4 arg5 harg5 arg6 harg6 hc0 hc1 x0 x1 x2 xs0).2.1)

/-- THE ACCUMULATION: what the output block's staging buffer (first) and the accumulator (second) hold after the body at
    position `n`: the case the closed forms select there, run on the point's blocks, over what the point before left in the
    accumulator. Key tile 0 and key tile 15 are never the same point. -/
def outsAt3 (c : Dev nD) : (n : ℕ) → n < cfg3.N → Vec F S8x128x1024 .f32 × Vec F S8x128x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 16 = 0 then
      if h1 : (n + 1) % 16 = 15 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 16 = 15 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 16 = 0) (h1 : ¬t.val % 16 = 15) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 16 = 0) (h1 : ¬t.val % 16 = 15) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 16 = 0) (h1 : t.val % 16 = 15) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the accumulator at what the point before left, the other scoped buffers unopened, the generator register
    at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ others3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ others3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ others3 (F := F) c) ∗ (∃ r, prngReg c r)) := by
  cases n with
  | zero => exact absurd rfl hz
  | succ n => rfl

/-! ## The region's proof data -/

/-- The arrays as the region finds them; after the body at point `t` each input's buffer at its block and the output's at
    the accumulation's first component; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' memrefs hold their blocks; the closed forms say which case the point is in; the
    invariant hands the body the accumulator at what the point before left (at anything at the very first point) and takes
    it back at this point's contents; the other scoped buffers, the generator register and the core's dues pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 16 = 0
  · have h1 : ¬t.val % 16 = 15 := by omega
    rw [Dat.leavesExact_idle (dat3 V c) 3 t (idleAt3_3 t (fun h => h1 ((hcond3_1 t).mp h))) (noFlush3_3 t (fun h => h1 ((hcond3_1 t).mp h)))]
    rw [outsAt3_A V c t h0 h1]
    unfold sout3_A_0; (try dsimp only)
    by_cases hz : t.val = 0
    · rw [PhiS3_castSucc V c t, PhiS3_zero V c _ _ hz, PhiA3_eq]
      iintro ⟨⟨⟨HS0, Hoth⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 16 = 15
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C_3 sout3_C_0; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B_0; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 32 := N_3; omega), PhiA3_eq]
  iintro ⟨⟨HS0, Hoth⟩, Hg⟩
  isplitl [HS0 Hoth]
  · isplitl [HS0]
    · iexists _; iexact HS0
    iexact Hoth
  iexact Hg

end Cert.Kernel.Hand

end
-- ==== Proof.MainRunBits.lean ====
/-
  The whole program run: four kernel launches among reshapes on the host.
  The contents of every buffer outside the kernels' scoped memory are followed from the launch memory through @main:
  a stretch of host operations applies them; a kernel launch leaves its input arrays as they were and its output array
  at what its write-backs fold to. Each launch is entered from "every such buffer at the current contents" and left at
  the next; at the end every such buffer of the final state is read at the last contents. From that: the argument
  arrays end as launched (no host operation and no launch writes one), and the result array holds what the attention
  launch's write-backs fold to.
-/
import proofs.«137853_j11811160064067_1_alg».proof.Proof.ProjRegionsBits
import proofs.«137853_j11811160064067_1_alg».proof.Proof.AttnRegionBits
import proofs.«137853_j11811160064067_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations before launch 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After launch 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host operations before launch 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After launch 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host operations before launch 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After launch 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host operations before launch 3. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After launch 3: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide : main_arg2 ∉ hostOps3_W)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide : main_arg3 ∉ hostOps0_W)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub hostOps0 _ hostOps0_writes (by decide : main_arg4 ∉ hostOps0_W)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := (W4_arr m ρ c 1).trans (((dat1 (V3 m ρ) c).arrAt_in 1 rfl _).trans (A_eq1 (V3 m ρ) c 1))
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := (W4_arr m ρ c 2).trans (((dat1 (V3 m ρ) c).arrAt_in 2 rfl _).trans (A_eq1 (V3 m ρ) c 2))
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide : main_arg7 ∉ hostOps3_W)
    _ = W5 m ρ c (Proc.devRef .tc main_arg7) := (W6_arr m ρ c 1).trans (((dat2 (V5 m ρ) c).arrAt_in 1 rfl _).trans (A_eq2 (V5 m ρ) c 1))
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps3 _ hostOps3_writes (by decide : main_arg8 ∉ hostOps3_W)
    _ = W5 m ρ c (Proc.devRef .tc main_arg8) := (W6_arr m ρ c 2).trans (((dat2 (V5 m ρ) c).arrAt_in 2 rfl _).trans (A_eq2 (V5 m ρ) c 2))
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

/-! ## The proof data family and the thread state -/

/-- Every launch's proof data, each at the contents its launch is entered from. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m ρ c) ∗ ∃ r, prngReg c r)

/-! ## The launches as segments -/

set_option backward.isDefEq.respectTransparency.types false in
/-- Launch 0 over the thread state: entered from every unscoped buffer at `W1`, left at `W2`. Its arrays are split out
    of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are split out
    of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W5`, left at `W6`. Its arrays are split out
    of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered from every unscoped buffer at `W7`, left at `W8`. Its arrays are split out
    of the unscoped buffers and put back at the exit contents; the generator register goes into the region's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ (Pipeline.ΦA spec3 c : sProp 𝕄) from hout3 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs m ρ) := (main_chain c).trans (by chain_rfl)

set_option backward.isDefEq.respectTransparency.types false in
/-- At the compiled mesh, from any memory with zero counters, every weakly fair execution of @main terminates without a
    fault, and the final state holds every buffer outside the kernels' scoped memory at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_all m ρ)

/-- The run with the result named: the result array ends at what the attention launch's write-backs fold to, the argument
    arrays as launched. -/
theorem run_result : θ_run defs (onTc (τ := τ) (main (F := F))) ⟨m, fun _ => 0, ρ⟩ (fun r => ∀ c : Dev nD,
      r.2.mem ((c.tc : Thread nD τ).loc main_v10) = (dat3 (V7 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v10 (by decide))).trans (W8_arr m ρ c 3),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_all m ρ)

end Cert.Kernel.Hand

end
-- ==== Proof.Spec.lean ====
/-
  The specification both programs are proved against: truncated-query attention whose softmax runs over the BATCH axis.
  With three linear projections  qp = q·Wqᵀ + bq,  kp = k·Wkᵀ + bk,  vp = v·Wvᵀ + bv  (rows of the weight matrices
  against the last axis of the inputs), a scaled score  s(b,i,j) = (∑_d qp(b,i,d)·kp(b,j,d))·c  for the first 256
  query rows i and all 4096 key rows j, its maximum over the 8 batches  mx(i,j), the exponentials
  e(b,i,j) = exp(s(b,i,j) − mx(i,j)), their sum over the batches  z(i,j), the weights  a(b,i,j) = e(b,i,j) / z(i,j),
  the result is  out(b,i,d) = ∑_j a(b,i,j)·vp(b,j,d),  everything on the extended reals.
  The scale c and the fold's start are kept as the binary words the programs carry; nothing here evaluates them.
-/
import Idealize.ShloMosaic.PureOps.Ideal
import Idealize.ShloMosaic.Lib.ValueIdx

noncomputable section

open scoped BigOperators

namespace Cert.Spec

open Idealize.ShloMosaic Idealize.ShloMosaic.ValueIdx

/-- The three input arrays' shape [8, 4096, 1024], a weight matrix's [1024, 1024], a bias vector's [1024], and the
    result's [8, 256, 1024]. -/
abbrev X3 : Shape := ⟨3, ![8, 4096, 1024]⟩
abbrev W2 : Shape := ⟨2, ![1024, 1024]⟩
abbrev B1 : Shape := ⟨1, ![1024]⟩
abbrev O3 : Shape := ⟨3, ![8, 256, 1024]⟩

/-- The score's scale, 2⁻⁵ as an f32 word read at the ideal instance. -/
def scale : EReal := FloatOps.ofBits (F := Ideal) .f32 0x3D000000#32
/-- Where the maximum over the batches starts: the word of −∞. -/
def negInf : EReal := FloatOps.ofBits (F := Ideal) .f32 0xFF800000#32

/-- A linear layer at (b, l, e): row e of the weights against row (b, l) of the input, plus the bias at e. -/
def lin (x : X3.Idx → EReal) (W : W2.Idx → EReal) (bias : B1.Idx → EReal) (b : Fin 8) (l : Fin 4096) (e : Fin 1024) : EReal :=
  (∑ d : Fin 1024, x (ix3 b l d) * W (ix2 e d)) + bias (ix1 e)

/-- Query row i < 256 as a row of the length-4096 axis. -/
abbrev qrow (i : Fin 256) : Fin 4096 := Fin.castLE (by decide) i

/-- The scaled score of query row i against key row j in batch b. -/
def score (qp kp : Fin 8 → Fin 4096 → Fin 1024 → EReal) (b : Fin 8) (i : Fin 256) (j : Fin 4096) : EReal :=
  (∑ d : Fin 1024, qp b (qrow i) d * kp b j d) * scale

/-- The maximum of the score over the 8 batches, folded from −∞. -/
def smax (s : Fin 8 → Fin 256 → Fin 4096 → EReal) (i : Fin 256) (j : Fin 4096) : EReal :=
  (Finset.univ : Finset (Fin 8)).fold max negInf (fun b => s b i j)

/-- The exponential of the score less its maximum over the batches. -/
def expo (s : Fin 8 → Fin 256 → Fin 4096 → EReal) (b : Fin 8) (i : Fin 256) (j : Fin 4096) : EReal :=
  Ideal.exp (s b i j - smax s i j)

/-- The softmax weight over the batch axis. -/
def weight (s : Fin 8 → Fin 256 → Fin 4096 → EReal) (b : Fin 8) (i : Fin 256) (j : Fin 4096) : EReal :=
  Ideal.div (expo s b i j) (∑ b' : Fin 8, expo s b' i j)

/-- The weighted sum of the value rows. -/
def mix (a : Fin 8 → Fin 256 → Fin 4096 → EReal) (vp : Fin 8 → Fin 4096 → Fin 1024 → EReal)
    (b : Fin 8) (i : Fin 256) (d : Fin 1024) : EReal :=
  ∑ j : Fin 4096, a b i j * vp b j d

/-- The whole result as one function of the nine argument arrays. -/
def out (q k v : X3.Idx → EReal) (Wq : W2.Idx → EReal) (bq : B1.Idx → EReal) (Wk : W2.Idx → EReal) (bk : B1.Idx → EReal)
    (Wv : W2.Idx → EReal) (bv : B1.Idx → EReal) : O3.Idx → EReal := fun o =>
  mix (weight (score (lin q Wq bq) (lin k Wk bk))) (lin v Wv bv) (o 0) (o 1) (o 2)

end Cert.Spec

end
-- ==== Proof.RefConsts.lean ====
/-
  The float words the reference program spells, read once at the ideal instance, and the one scalar fact the
  reference's scale needs: the reference divides 1 by the square root of 1024, the specification carries the word
  of 2⁻⁵; both are the real 1/32, since 1024 = 32².
-/
import Idealize.ShloMosaic.PureOps.Ideal
import proofs.«137853_j11811160064067_1_alg».proof.Proof.Spec

noncomputable section

namespace Cert.RefConsts

open Idealize.ShloMosaic

/-- The word of 1024.0 denotes the real 1024. -/
theorem ofBits_1024 : Ideal.ofBits .f32 0x44800000#32 = ((1024 : ℝ) : EReal) := by
  simp [Ideal.ofBits, Ideal.ieee, -EReal.coe_mul]; norm_num

/-- The word of 1.0 denotes 1. -/
theorem ofBits_one : Ideal.ofBits .f32 0x3F800000#32 = ((1 : ℝ) : EReal) := by
  simp [Ideal.ofBits, Ideal.ieee, -EReal.coe_mul]; norm_num

/-- The word of 2⁻⁵ denotes the real 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Real.sqrt 1024 = 32 := by
  rw [show (1024 : ℝ) = 32 ^ 2 by norm_num]
  exact Real.sqrt_sq (by norm_num)

/-- One over the square root of 1024, computed as the reference does it, is the specification's scale. -/
theorem scale_eq :
    Ideal.div (Ideal.ofBits .f32 0x3F800000#32) (Ideal.sqrt (Ideal.ofBits .f32 0x44800000#32)) = Cert.Spec.scale := by
  unfold Cert.Spec.scale
  rw [Ideal.ofBits_def, ofBits_inv32, ofBits_one, ofBits_1024, Ideal.sqrt_coe, if_neg (by norm_num), sqrt_1024,
    Ideal.div_coe (by norm_num : (32 : ℝ) ≠ 0), ← EReal.coe_mul]
  norm_num

end Cert.RefConsts

end
-- ==== Proof.RefValue.lean ====
/-
  The reference program's result is the specification's function of the nine argument arrays.
  The reference computes, stage by stage on whole arrays: the three linear layers (a contraction over the last axis
  plus the bias broadcast along it), the first 256 query rows of the first, the batched contraction of those rows
  against all key rows, the product with 1/√1024, the maximum over the batch axis (folded from −∞ and then once more
  joined with −∞), the exponential of the difference, its sum over the batch axis from 0, the quotient, and the batched
  contraction of the quotient against the value rows. Each stage is read at an index whose coordinates are literal:
  (b, l, e) ∈ 8 × 4096 × 1024 for a linear layer, (b, i, j) ∈ 8 × 256 × 4096 for a score, (i, j) ∈ 256 × 4096 for
  what is reduced over the batches, (b, i, d) ∈ 8 × 256 × 1024 for the result; at every such index the stage is the
  specification's function of the same name. The only arithmetic: 1/√1024 is the word of 2⁻⁵; max −∞ x = x (used in the
  form max a (fold max a f) = fold max a f, which does not evaluate the word); 0 + x = x.
-/
import proofs.«137853_j11811160064067_1_alg».proof.Defs
import proofs.«137853_j11811160064067_1_alg».proof.Proof.Gen.ReferenceIdeal
import proofs.«137853_j11811160064067_1_alg».proof.Proof.Gen.Pre_finite_inputs
import proofs.«137853_j11811160064067_1_alg».proof.Proof.Gen.ReferenceIdeal.Run
import proofs.«137853_j11811160064067_1_alg».proof.Proof.Gen.ReferenceIdeal.Read
import proofs.«137853_j11811160064067_1_alg».proof.Proof.Spec
import proofs.«137853_j11811160064067_1_alg».proof.Proof.RefConsts

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-- Two index functions of a rank-1, rank-2 or rank-3 shape whose coordinates agree axis by axis. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

/-! ## The linear layers -/

/-- The query layer at (b, l, e): the contraction of row (b, l) of the input against row e of the weights, plus the
    bias at e. -/
theorem lin_v3 (x : FVec Ideal S8x4096x1024 .f32) (W : FVec Ideal S1024x1024 .f32) (c : FVec Ideal S1024 .f32)
    (b : Fin 8) (l : Fin 4096) (e : Fin 1024) :
    val_main_v3 (F := Ideal) x W c (ix3 b l e) = Spec.lin x W c b l e := by
  rw [val_main_v3_apply, val_main_v0_apply, val_main_v2_apply, val_main_v1_apply]
  unfold Spec.lin
  rw [Ideal.addf_def]
  refine congrArg₂ (· + ·) (Finset.sum_congr rfl fun d _ => ?_) (congrArg c ?_)
  · exact congrArg₂ (· * ·) (congrArg x (by idx3)) (congrArg W (by idx2))
  · idx1

/-- The key layer at (b, l, e). -/
theorem lin_v7 (x : FVec Ideal S8x4096x1024 .f32) (W : FVec Ideal S1024x1024 .f32) (c : FVec Ideal S1024 .f32)
    (b : Fin 8) (l : Fin 4096) (e : Fin 1024) :
    val_main_v7 (F := Ideal) x W c (ix3 b l e) = Spec.lin x W c b l e := by
  rw [val_main_v7_apply, val_main_v4_apply, val_main_v6_apply, val_main_v5_apply]
  unfold Spec.lin
  rw [Ideal.addf_def]
  refine congrArg₂ (· + ·) (Finset.sum_congr rfl fun d _ => ?_) (congrArg c ?_)
  · exact congrArg₂ (· * ·) (congrArg x (by idx3)) (congrArg W (by idx2))
  · idx1

/-- The value layer at (b, l, e). -/
theorem lin_v11 (x : FVec Ideal S8x4096x1024 .f32) (W : FVec Ideal S1024x1024 .f32) (c : FVec Ideal S1024 .f32)
    (b : Fin 8) (l : Fin 4096) (e : Fin 1024) :
    val_main_v11 (F := Ideal) x W c (ix3 b l e) = Spec.lin x W c b l e := by
  rw [val_main_v11_apply, val_main_v8_apply, val_main_v10_apply, val_main_v9_apply]
  unfold Spec.lin
  rw [Ideal.addf_def]
  refine congrArg₂ (· + ·) (Finset.sum_congr rfl fun d _ => ?_) (congrArg c ?_)
  · exact congrArg₂ (· * ·) (congrArg x (by idx3)) (congrArg W (by idx2))
  · idx1

/-- The first 256 rows of the query layer: row i of the slice is row i of the length-4096 axis. -/
theorem slice_v14 (x : FVec Ideal S8x4096x1024 .f32) (W : FVec Ideal S1024x1024 .f32) (c : FVec Ideal S1024 .f32)
    (b : Fin 8) (i : Fin 256) (e : Fin 1024) :
    val_main_v14 (F := Ideal) x W c (ix3 b i e) = Spec.lin x W c b (Spec.qrow i) e := by
  rw [val_main_v14_apply, show idx_main_v14 (ix3 b i e) = ix3 b (Spec.qrow i) e from by idx3, lin_v3]

/-! ## The scores and what is reduced over the batches -/

section Scores

variable (x0 x1 : FVec Ideal S8x4096x1024 .f32) (x3 : FVec Ideal S1024x1024 .f32) (x4 : FVec Ideal S1024 .f32)
  (x5 : FVec Ideal S1024x1024 .f32) (x6 : FVec Ideal S1024 .f32)

/-- The specification's score of these six arrays. -/
local notation "sc" => Spec.score (Spec.lin x0 x3 x4) (Spec.lin x1 x5 x6)

/-- The scaled score at (b, i, j): the contraction of query row i against key row j in batch b, times 1/√1024, which is
    the specification's scale. -/
theorem score_v17 (b : Fin 8) (i : Fin 256) (j : Fin 4096) :
    val_main_v17 (F := Ideal) x0 x1 x3 x4 x5 x6 (ix3 b i j) = sc b i j := by
  rw [val_main_v17_apply, val_main_v15_apply, val_main_v16_apply, val_main_v13_apply, val_main_cst_0_apply,
    val_main_v12_apply, val_main_cst_apply]
  unfold Spec.score
  rw [Ideal.mulf_def, Ideal.hostDivf_def, Ideal.hostUnary_sqrt_def]
  simp only [Ideal.ofBits_def]
  rw [Cert.RefConsts.scale_eq]
  refine congrArg (· * Spec.scale) (Finset.sum_congr rfl fun d _ => ?_)
  rw [show lidx_main_v15 (ix3 b i j) d = ix3 b i d from by idx3, slice_v14,
    show ridx_main_v15 (ix3 b i j) d = ix3 b j d from by idx3, lin_v7]

/-- The source index over (i, j) with batch b put back is (b, i, j). -/
theorem lift_batch (h : S8x256x4096.Reduces [0] S256x4096) (i : Fin 256) (j : Fin 4096) (b : Fin (S8x256x4096.size 0)) :
    h.lift (ix2 i j) b = ix3 (⟨b.val, b.isLt⟩ : Fin 8) i j := by
  funext c; apply Fin.ext
  fin_cases c <;> rfl

/-- The reduce with a maximum body over the batch axis, at (i, j), is the fold of max from the word of −∞ over the
    eight batches' scores: the specification's maximum. -/
theorem reduce_v18 (i : Fin 256) (j : Fin 4096) :
    val_main_v18 (F := Ideal) x0 x1 x3 x4 x5 x6 (ix2 i j) = Spec.smax sc i j := by
  have h : S8x256x4096.Reduces [0] S256x4096 := by decide
  unfold val_main_v18
  rw [Host.reduce_eq_fold_single (s := S8x256x4096) (t := S256x4096) (u := S_) (FloatOps.maximumf (F := Ideal) (φ := .f32))
    (val_main_v17 (F := Ideal) x0 x1 x3 x4 x5 x6) (val_main_cst_1 (F := Ideal)) reducesTo_S8x256x4096_S256x4096_d0 h h_S_ (ix2 i j)]
  have hf : (val_main_v17 (F := Ideal) x0 x1 x3 x4 x5 x6 ∘ h.lift (ix2 i j)) = fun b : Fin 8 => sc b i j :=
    funext fun b => by
      show val_main_v17 (F := Ideal) x0 x1 x3 x4 x5 x6 (h.lift (ix2 i j) b) = _
      rw [lift_batch h i j b, score_v17]
      rfl
  unfold Spec.smax Spec.negInf
  exact congrArg (fun f => Finset.fold max (FloatOps.ofBits (F := Ideal) .f32 0xFF800000#32) f (Finset.univ : Finset (Fin 8))) hf

/-- The maximum once more joined with −∞ is the maximum: the fold already starts from that word. -/
theorem max_v20 (i : Fin 256) (j : Fin 4096) :
    val_main_v20 (F := Ideal) x0 x1 x3 x4 x5 x6 (ix2 i j) = Spec.smax sc i j := by
  rw [val_main_v20_apply, val_main_v19_apply, val_main_cst_2_apply, reduce_v18, Ideal.maximumf_def]
  unfold Spec.smax Spec.negInf
  exact max_eq_right ((Finset.le_fold_max _).2 (Or.inl le_rfl))

/-- The exponential of the score less its maximum over the batches, at (b, i, j). -/
theorem expo_v24 (b : Fin 8) (i : Fin 256) (j : Fin 4096) :
    val_main_v24 (F := Ideal) x0 x1 x3 x4 x5 x6 (ix3 b i j) = Spec.expo sc b i j := by
  rw [val_main_v24_apply, val_main_v23_apply, val_main_v22_apply, val_main_v21_apply,
    show idx_main_v21 (idx_main_v22 (ix3 b i j)) = ix2 i j from by idx2, max_v20, score_v17]
  unfold Spec.expo
  rw [Ideal.hostUnary_exp_def, Ideal.subf_def]

/-- The sum of the exponentials over the batch axis from the word of 0, at (i, j). -/
theorem sum_v25 (i : Fin 256) (j : Fin 4096) :
    val_main_v25 (F := Ideal) x0 x1 x3 x4 x5 x6 (ix2 i j) = ∑ b : Fin 8, Spec.expo sc b i j := by
  rw [val_main_v25_apply, val_main_cst_3_apply, Ideal.ofBits_def, Ideal.ofBits_zero_f32, zero_add]
  refine Finset.sum_congr rfl fun b _ => ?_
  rw [show idx_main_v25 (ix2 i j) b = ix3 b i j from by idx3, expo_v24]

/-- The softmax weight over the batch axis, at (b, i, j). -/
theorem weight_v28 (b : Fin 8) (i : Fin 256) (j : Fin 4096) :
    val_main_v28 (F := Ideal) x0 x1 x3 x4 x5 x6 (ix3 b i j) = Spec.weight sc b i j := by
  rw [val_main_v28_apply, val_main_v27_apply, val_main_v26_apply,
    show idx_main_v26 (idx_main_v27 (ix3 b i j)) = ix2 i j from by idx2, sum_v25, expo_v24]
  unfold Spec.weight
  rw [Ideal.hostDivf_def]

end Scores

/-! ## The result -/

/-- The reference's result array, as a function of the nine argument arrays, is the specification. -/
theorem result_eq (q k v : FVec Ideal S8x4096x1024 .f32) (Wq : FVec Ideal S1024x1024 .f32) (bq : FVec Ideal S1024 .f32)
    (Wk : FVec Ideal S1024x1024 .f32) (bk : FVec Ideal S1024 .f32) (Wv : FVec Ideal S1024x1024 .f32) (bv : FVec Ideal S1024 .f32) :
    val_main_v29 (F := Ideal) q k v Wq bq Wk bk Wv bv = Cert.Spec.out q k v Wq bq Wk bk Wv bv := by
  funext o
  obtain ⟨b, i, d, rfl⟩ : ∃ (b : Fin 8) (i : Fin 256) (d : Fin 1024), o = ix3 b i d := ⟨o 0, o 1, o 2, eq_ix3 o⟩
  rw [val_main_v29_apply]
  show _ = Spec.mix _ _ b i d
  unfold Spec.mix
  refine Finset.sum_congr rfl fun j _ => ?_
  rw [show lidx_main_v29 (ix3 b i d) j = ix3 b i j from by idx3, weight_v28,
    show ridx_main_v29 (ix3 b i d) j = ix3 b j d from by idx3, lin_v11]

/-- Every weakly fair execution of the reference terminates with its result at the specification's function of the
    argument arrays' launch contents, the arguments unchanged. -/
theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v29) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run Cert.ReferenceIdeal.defs _ _).mono
    (fun _ h c => ⟨(h c).1.trans ((val_main_v29_eq m c).trans (result_eq _ _ _ _ _ _ _ _ _)), (h c).2⟩)
    (Cert.ReferenceIdeal.Value.run (F := Ideal) m ρ)

/-- The reference runs and leaves its argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.LibMatmulRows.lean ====
/-
  A matrix product of the rows of two matrices, read at an index.

  A `tpu.matmul` whose dimension numbers contract axis 1 of the left operand with axis 1 of the right one, with no
  batch axes — an [A, K] matrix against a [B, K] matrix, every row of the first against every row of the second, the
  product a kernel writes as "x · yᵀ" without forming the transpose — into the zero accumulator is, at the ideal values
  and at output position (p, q), the sum over k < K of left(p, k) · right(q, k): the contraction shape has the one axis
  of extent K, and the operand indices at output (p, q) and contraction position k are (p, k) and (q, k).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a product of rows with rows: rows × contraction against rows × contraction. -/
abbrev rows2 (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ := ⟨[1], [1], [0], [0], [], [], wf⟩

/-- Its contraction shape has one axis, -/
theorem rows2_rank (wf : DotDims.WF ⟨2, ![A, K]⟩ ⟨2, ![B, K]⟩ ⟨2, ![A, B]⟩ [1] [1] [0] [0] [] []) :
    (rows2 wf).contr.rank = 1 := rfl

/-- of extent `K`. -/
theorem rows2_size (wf : DotDims.WF ⟨2, ![A, K]⟩ ⟨2, ![B, K]⟩ ⟨2, ![A, B]⟩ [1] [1] [0] [0] [] []) :
    (rows2 wf).contr.size ⟨0, by rw [rows2_rank]; exact Nat.one_pos⟩ = K := rfl

/-- The product into the zero accumulator at (p, q) is `∑ k, l (p, k) * r (q, k)`. -/
theorem matmulRows_zero_apply (wf : DotDims.WF ⟨2, ![A, K]⟩ ⟨2, ![B, K]⟩ ⟨2, ![A, B]⟩ [1] [1] [0] [0] [] [])
    (l : FVec Ideal ⟨2, ![A, K]⟩ φ₁) (r : FVec Ideal ⟨2, ![B, K]⟩ φ₂) (p : Fin A) (q : Fin B) :
    matmul (rows2 wf) none l r (constant ⟨2, ![A, B]⟩ .f32 0x00000000#32) (ix2 p q)
      = ∑ k : Fin K, l (ix2 p k) * r (ix2 q k) := by
  refine (Ideal.matmul_constant_zero_apply (rows2 wf) none l r (ix2 p q)).trans ?_
  refine (Equiv.sum_comp (contrEquiv1 (rows2 wf) K (rows2_rank wf) (rows2_size wf)).symm _).symm.trans ?_
  refine Finset.sum_congr rfl fun k _ => ?_
  have hk := contrEquiv1_symm_val (rows2 wf) K (rows2_rank wf) (rows2_size wf) k
  have hl : (rows2 wf).lhsIdx (ix2 p q) ((contrEquiv1 (rows2 wf) K (rows2_rank wf) (rows2_size wf)).symm k) = ix2 p k := by
    funext a; apply Fin.ext
    match a with
    | ⟨0, _⟩ => simp [DotDims.lhsIdx]; rfl
    | ⟨1, _⟩ => exact (DotDims.lhsIdx_val_of_single (rows2 wf) (cl := 1) rfl (ix2 p q) _).trans hk
  have hr : (rows2 wf).rhsIdx (ix2 p q) ((contrEquiv1 (rows2 wf) K (rows2_rank wf) (rows2_size wf)).symm k) = ix2 q k := by
    funext a; apply Fin.ext
    match a with
    | ⟨0, _⟩ => simp [DotDims.rhsIdx]; rfl
    | ⟨1, _⟩ => exact (DotDims.rhsIdx_val_of_single (rows2 wf) (cr := 1) rfl (ix2 p q) _).trans hk
  show l _ * r _ = _
  rw [hl, hr]

end Cert.Lib

end
-- ==== Proof.ProjPayload.lean ====
/-
  The projection kernels' arithmetic at the ideal values.

  Each of the three projection kernels takes a block of 1024 input rows, the 1024 × 1024 weight matrix and the bias
  vector, and stores the product of the input rows with the ROWS of the weight matrix (the kernel's "x · Wᵀ") plus the
  bias repeated down the rows. The roundings to the 16-bit format before the product and before the store are the
  identity at the ideal values, and the cast to the same shape is the identity. Read at (p, e) the stored value is the
  sum over the 1024 features d of input(p, d) times weight(e, d), plus bias(e). The three kernels' payloads are the
  same expression, so one statement serves all three.
-/
import proofs.«137853_j11811160064067_1_alg».proof.Proof.Gen.KernelIdeal.Skeleton
import proofs.«137853_j11811160064067_1_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.ProjValue

open Idealize.ShloMosaic Idealize.ShloMosaic.ValueIdx

/-- The projection's dimension numbers are those of a product of rows with rows. -/
theorem dotP_eq : dot_S1024x1024_S1024x1024_S1024x1024_1_1_0_0_n_n
    = Cert.Lib.rows2 (A := 1024) (K := 1024) (B := 1024) Gen.dot_S1024x1024_S1024x1024_S1024x1024_1_1_0_0_n_n_wf := rfl

/-- The projection payload as one expression of the input block, the weights and the bias. -/
def projVec (v0 v3 : Vec Ideal S1024x1024 .f32) (v6 : Vec Ideal S1024 .f32) : FVec Ideal S1024x1024 .bf16 :=
  truncf (φ := .f32) .bf16
    (addf (φ := .f32)
      (matmul (φ₁ := .bf16) (φ₂ := .bf16) dot_S1024x1024_S1024x1024_S1024x1024_1_1_0_0_n_n none
        (truncf (φ := .f32) .bf16 (shapeCast S1024x1024 v0 Gen.shapeCasts_S1024x1024_S1024x1024) Gen.bitsLt_bf16_f32)
        (truncf (φ := .f32) .bf16 v3 Gen.bitsLt_bf16_f32)
        (constant S1024x1024 .f32 0x00000000#32))
      (broadcastTo S1024x1024 (shapeCast S1x1024 v6 Gen.shapeCasts_S1024_S1x1024) Gen.broadcasts_S1x1024_S1024x1024))
    Gen.bitsLt_bf16_f32

/-- Read at (p, e): row p of the input against row e of the weights, plus the bias at e. -/
theorem projVec_apply (v0 v3 : Vec Ideal S1024x1024 .f32) (v6 : Vec Ideal S1024 .f32) (p e : Fin 1024) :
    projVec v0 v3 v6 (ix2 p e) = (∑ d : Fin 1024, v0 (ix2 p d) * v3 (ix2 e d)) + v6 (ix1 e) := by
  unfold projVec
  rw [shapeCast_self, dotP_eq, truncf_apply, addf_apply, Cert.Lib.matmulRows_zero_apply, broadcastTo_1b_ab_apply, shapeCast_a_1a_apply]
  rfl

/-- The first projection kernel's stored value at (p, e). -/
theorem proj_pay_apply0 (v0 v3 : Vec Ideal S1024x1024 .f32) (v6 : Vec Ideal S1024 .f32) (p e : Fin 1024) :
    Gen.k0_pay1 (F := Ideal) v0 v3 v6 (ix2 p e) = (∑ d : Fin 1024, v0 (ix2 p d) * v3 (ix2 e d)) + v6 (ix1 e) :=
  (congrFun (show Gen.k0_pay1 (F := Ideal) v0 v3 v6 = projVec v0 v3 v6 from rfl) (ix2 p e)).trans (projVec_apply v0 v3 v6 p e)

/-- The second projection kernel's stored value at (p, e). -/
theorem proj_pay_apply1 (v0 v3 : Vec Ideal S1024x1024 .f32) (v6 : Vec Ideal S1024 .f32) (p e : Fin 1024) :
    Gen.k1_pay1 (F := Ideal) v0 v3 v6 (ix2 p e) = (∑ d : Fin 1024, v0 (ix2 p d) * v3 (ix2 e d)) + v6 (ix1 e) :=
  (congrFun (show Gen.k1_pay1 (F := Ideal) v0 v3 v6 = projVec v0 v3 v6 from rfl) (ix2 p e)).trans (projVec_apply v0 v3 v6 p e)

/-- The third projection kernel's stored value at (p, e). -/
theorem proj_pay_apply2 (v0 v3 : Vec Ideal S1024x1024 .f32) (v6 : Vec Ideal S1024 .f32) (p e : Fin 1024) :
    Gen.k2_pay1 (F := Ideal) v0 v3 v6 (ix2 p e) = (∑ d : Fin 1024, v0 (ix2 p d) * v3 (ix2 e d)) + v6 (ix1 e) :=
  (congrFun (show Gen.k2_pay1 (F := Ideal) v0 v3 v6 = projVec v0 v3 v6 from rfl) (ix2 p e)).trans (projVec_apply v0 v3 v6 p e)

end Cert.KernelIdeal.ProjValue

end
-- ==== Proof.ProjValue.lean ====
/-
  From the blocks the projection regions write back to the whole result array.

  Each projection region walks the rows of its input in blocks of 1024: at grid point t it reads rows 1024·t … 1024·t + 1023
  of the input, the whole weight matrix and the whole bias vector, and writes the same rows of the result. Read at
  row r and feature e, the block written at point r / 1024 holds  ∑_d x(r, d) · W(e, d) + b(e);  the blocks tile the
  rows, so the result array after the region is that function of the three arrays as the region found them.
-/
import proofs.«137853_j11811160064067_1_alg».proof.Proof.ProjRegions
import proofs.«137853_j11811160064067_1_alg».proof.Proof.ProjPayload
import Idealize.ShloMosaic.Lib.Pipeline.Value

set_option maxRecDepth 16384

noncomputable section

open scoped BigOperators

namespace Cert.KernelIdeal.ProjValue

open Idealize.ShloMosaic Idealize.ShloMosaic.ValueIdx Idealize.ShloMosaic.TcCoe
open Idealize.SL Idealize.SL.Sem
open Idealize.ShloMosaic.Pipeline (Dat)
open Cert.KernelIdeal.Gen Cert.KernelIdeal.Hand

-- the buffers of the TensorCore when a region is entered, at the ideal values
variable (V : (c : Dev nD) → (b : Ref sig .tc) → Buf (Elt Ideal) ((c : Thread nD τ).loc b))

/-- The offsets of a whole-buffer rectangle, of rank 2 and of rank 1, are all zero. -/
theorem zeros2 : (![0, 0] : Fin 2 → Nat) = fun _ => 0 := funext fun a => by fin_cases a <;> rfl
theorem zeros1 : (![0] : Fin 1 → Nat) = fun _ => 0 := funext fun a => by fin_cases a <;> rfl

/-- The linear layer on a 2048-row array: at (r, e), row r of x against row e of W, plus b at e. -/
def lin2048 (x : S2048x1024.Idx → EReal) (W : S1024x1024.Idx → EReal) (b : S1024.Idx → EReal) : S2048x1024.Idx → EReal :=
  fun i => (∑ d : Fin 1024, x (ix2 (i 0) d) * W (ix2 (i 1) d)) + b (ix1 (i 1))

/-- The same on a 32768-row array. -/
def lin32768 (x : S32768x1024.Idx → EReal) (W : S1024x1024.Idx → EReal) (b : S1024.Idx → EReal) : S32768x1024.Idx → EReal :=
  fun i => (∑ d : Fin 1024, x (ix2 (i 0) d) * W (ix2 (i 1) d)) + b (ix1 (i 1))

/-- The linear layer read at an index given by its coordinates. -/
theorem lin2048_apply (x : S2048x1024.Idx → EReal) (W : S1024x1024.Idx → EReal) (b : S1024.Idx → EReal) (r : Fin 2048) (e : Fin 1024) :
    lin2048 x W b (ix2 r e) = (∑ d : Fin 1024, x (ix2 r d) * W (ix2 e d)) + b (ix1 e) := rfl
theorem lin32768_apply (x : S32768x1024.Idx → EReal) (W : S1024x1024.Idx → EReal) (b : S1024.Idx → EReal) (r : Fin 32768) (e : Fin 1024) :
    lin32768 x W b (ix2 r e) = (∑ d : Fin 1024, x (ix2 r d) * W (ix2 e d)) + b (ix1 e) := rfl

/-! # Projection region 0: 2048 rows, arrays `main_v1` (x), `main_arg3` (W), `main_arg4` (b), result `main_v2` -/

/-- The block indices at grid point t: the x window and the result window are at row block t, column block 0; the
    weight and bias windows never move. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The x block at point t is rows 1024·t … of the x array. -/
theorem xBlock0_apply (c : Dev nD) (t : Fin cfg0.N) (y : S1024x1024.Idx) (i : S2048x1024.Idx)
    (h0 : (i 0).val = 1024 * t.val + (y 0).val) (h1 : (i 1).val = (y 1).val) :
    (iblk0 V c 0 t : Vec Ideal S1024x1024 .f32) y = (V c main_v1 : S2048x1024.Idx → EReal) i := by
  obtain ⟨e0, e1, -⟩ := blockIdx0 t
  unfold iblk0
  rw [View.read_apply]
  show V c main_v1 _ = V c main_v1 _
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

/-- The weight block at every point is the whole weight matrix. -/
theorem wBlock0_apply (c : Dev nD) (t : Fin cfg0.N) (y i : S1024x1024.Idx)
    (h0 : (i 0).val = (y 0).val) (h1 : (i 1).val = (y 1).val) :
    (iblk0 V c 1 t : Vec Ideal S1024x1024 .f32) y = (V c main_arg3 : S1024x1024.Idx → EReal) i := by
  obtain ⟨-, -, e0, e1, -⟩ := blockIdx0 t
  unfold iblk0
  rw [View.read_apply]
  show V c main_arg3 _ = V c main_arg3 _
  congr 1
  funext a
  apply Fin.ext
  match a with
  | ⟨0, _⟩ => show win0_1.index t (0 : Fin 2) * 1024 + 1 * (y 0).val = (i 0).val; rw [e0, h0]; omega
  | ⟨1, _⟩ => show win0_1.index t (1 : Fin 2) * 1024 + 1 * (y 1).val = (i 1).val; rw [e1, h1]; omega

/-- The bias block at every point is the whole bias vector. -/
theorem bBlock0_apply (c : Dev nD) (t : Fin cfg0.N) (y i : S1024.Idx) (h0 : (i 0).val = (y 0).val) :
    (iblk0 V c 2 t : Vec Ideal S1024 .f32) y = (V c main_arg4 : S1024.Idx → EReal) i := by
  obtain ⟨-, -, -, -, e0, -⟩ := blockIdx0 t
  unfold iblk0
  rw [View.read_apply]
  show V c main_arg4 _ = V c main_arg4 _
  congr 1
  funext a
  apply Fin.ext
  match a with
  | ⟨0, _⟩ => show win0_2.index t (0 : Fin 1) * 1024 + 1 * (y 0).val = (i 0).val; rw [e0, h0]; omega

/-- What point t writes back is block t of the linear layer of the three arrays as the region finds them. -/
theorem flushed0_eq (c : Dev nD) (t : Fin cfg0.N) :
    (dat0 (F := Ideal) V c).flushed 3 t
      = ((cfg0.win 3).blk t).view.read (Elt Ideal) (lin2048 (V c main_v1) (V c main_arg3) (V c main_arg4)) := by
  show (cfg0.win 3).cut (grid0.coords t) ((dat0 V c).after 3 t) = _
  rw [after0_3]
  unfold out0_3
  rw [View.canon_unit_zero zeros2]
  simp only [View.ld_unit_zero (S := S1024x1024) zeros2, View.ld_unit_zero (S := S1024) zeros1]
  obtain ⟨-, -, -, -, -, e0, e1⟩ := blockIdx0 t
  funext j
  obtain ⟨p, e, rfl⟩ : ∃ (p e : Fin 1024), j = ix2 p e := ⟨j 0, j 1, eq_ix2 j⟩
  show k0_pay1 (F := Ideal) (iblk0 V c 0 t) (iblk0 V c 1 t) (iblk0 V c 2 t) (ix2 p e)
    = lin2048 (V c main_v1) (V c main_arg3) (V c main_arg4) (((cfg0.win 3).blk t).view.emb (ix2 p e))
  refine (proj_pay_apply0 (iblk0 V c 0 t) (iblk0 V c 1 t) (iblk0 V c 2 t) p e).trans ?_
  have hk0 : ((((cfg0.win 3).blk t).view.emb (ix2 p e)) 0).val = win0_3.index t (0 : Fin 2) * 1024 + 1 * p.val := rfl
  have hk1 : ((((cfg0.win 3).blk t).view.emb (ix2 p e)) 1).val = win0_3.index t (1 : Fin 2) * 1024 + 1 * e.val := rfl
  rw [e0] at hk0
  rw [e1] at hk1
  unfold lin2048
  refine congrArg₂ (· + ·) (Finset.sum_congr rfl fun d _ => congrArg₂ (· * ·) ?_ ?_) ?_
  · exact xBlock0_apply V c t (ix2 p d) _ (by rw [hk0]; show _ = 1024 * t.val + p.val; omega) rfl
  · exact wBlock0_apply V c t (ix2 e d) _ (by show _ = e.val; rw [hk1]; omega) rfl
  · exact bBlock0_apply V c t (ix1 e) _ (by show _ = e.val; rw [hk1]; omega)

/-- An index of the result array lies in point t's block iff each coordinate is in the block's range. -/
theorem mem_outBlock0 (t : Fin cfg0.N) (i : S2048x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v2).slice (win0_3.rect t)).set ↔ _
  rw [View.set_slice_whole, Rect.mem_set_unit]
  exact Iff.rfl

/-- The result array after the region: the linear layer of the three arrays as the region found them. Row r is
    written at point r / 1024, and every point writes back. -/
theorem final0 (c : Dev nD) :
    (dat0 (F := Ideal) V c).arrAt 3 cfg0.N = lin2048 (V c main_v1) (V c main_arg3) (V c main_arg4) :=
  (dat0 (F := Ideal) V c).arrAt_eq_of_cover 3 (lin2048 (V c main_v1) (V c main_arg3) (V c main_arg4)) (fun t _ => flushed0_eq V c t) fun i => by
    have hi0 : (i 0).val < 2048 := (i 0).isLt
    have hi1 : (i 1).val < 1024 := (i 1).isLt
    have hN : grid0.N = 2 := N_0
    let t : Fin cfg0.N := ⟨(i 0).val / 1024, by show (i 0).val / 1024 < grid0.N; omega⟩
    obtain ⟨-, -, -, -, -, e0, e1⟩ := blockIdx0 t
    have ht : t.val = (i 0).val / 1024 := rfl
    refine ⟨t, flush0_3 t, ?_⟩
    rw [mem_outBlock0]
    intro a
    match a with
    | ⟨0, _⟩ =>
      show win0_3.index t (0 : Fin 2) * 1024 ≤ (i 0).val ∧ (i 0).val < win0_3.index t (0 : Fin 2) * 1024 + 1024
      rw [e0, ht]; omega
    | ⟨1, _⟩ =>
      show win0_3.index t (1 : Fin 2) * 1024 ≤ (i 1).val ∧ (i 1).val < win0_3.index t (1 : Fin 2) * 1024 + 1024
      rw [e1]; omega

/-- The result array read at row r and feature e, as the linear layer of the entry arrays there. -/
theorem proj_final0_apply (c : Dev nD) (r : Fin 2048) (e : Fin 1024) :
    (dat0 (F := Ideal) V c).arrAt 3 cfg0.N (ix2 r e) = lin2048 (V c main_v1) (V c main_arg3) (V c main_arg4) (ix2 r e) :=
  congrFun (final0 V c) (ix2 r e)

/-- The same with the entry arrays named: if they hold x, W and b, the result at (r, e) is  ∑_d x(r, d) · W(e, d) + b(e). -/
theorem proj_final0_apply_of (c : Dev nD) (x : S2048x1024.Idx → EReal) (W : S1024x1024.Idx → EReal) (b : S1024.Idx → EReal)
    (hx : V c main_v1 = x) (hW : V c main_arg3 = W) (hb : V c main_arg4 = b) (r : Fin 2048) (e : Fin 1024) :
    (dat0 (F := Ideal) V c).arrAt 3 cfg0.N (ix2 r e) = (∑ d : Fin 1024, x (ix2 r d) * W (ix2 e d)) + b (ix1 e) := by
  subst hx hW hb
  exact (proj_final0_apply V c r e).trans (lin2048_apply _ _ _ r e)

/-! # Projection region 1: 32768 rows, arrays `main_v4` (x), `main_arg5` (W), `main_arg6` (b), result `main_v5` -/

/-- The block indices at grid point t: the x window and the result window are at row block t, column block 0; the
    weight and bias windows never move. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The x block at point t is rows 1024·t … of the x array. -/
theorem xBlock1_apply (c : Dev nD) (t : Fin cfg1.N) (y : S1024x1024.Idx) (i : S32768x1024.Idx)
    (h0 : (i 0).val = 1024 * t.val + (y 0).val) (h1 : (i 1).val = (y 1).val) :
    (iblk1 V c 0 t : Vec Ideal S1024x1024 .f32) y = (V c main_v4 : S32768x1024.Idx → EReal) i := by
  obtain ⟨e0, e1, -⟩ := blockIdx1 t
  unfold iblk1
  rw [View.read_apply]
  show V c main_v4 _ = V c main_v4 _
  congr 1
  funext a
  apply Fin.ext
  match a with
  | ⟨0, _⟩ => show win1_0.index t (0 : Fin 2) * 1024 + 1 * (y 0).val = (i 0).val; rw [e0, h0]; omega
  | ⟨1, _⟩ => show win1_0.index t (1 : Fin 2) * 1024 + 1 * (y 1).val = (i 1).val; rw [e1, h1]; omega

/-- The weight block at every point is the whole weight matrix. -/
theorem wBlock1_apply (c : Dev nD) (t : Fin cfg1.N) (y i : S1024x1024.Idx)
    (h0 : (i 0).val = (y 0).val) (h1 : (i 1).val = (y 1).val) :
    (iblk1 V c 1 t : Vec Ideal S1024x1024 .f32) y = (V c main_arg5 : S1024x1024.Idx → EReal) i := by
  obtain ⟨-, -, e0, e1, -⟩ := blockIdx1 t
  unfold iblk1
  rw [View.read_apply]
  show V c main_arg5 _ = V c main_arg5 _
  congr 1
  funext a
  apply Fin.ext
  match a with
  | ⟨0, _⟩ => show win1_1.index t (0 : Fin 2) * 1024 + 1 * (y 0).val = (i 0).val; rw [e0, h0]; omega
  | ⟨1, _⟩ => show win1_1.index t (1 : Fin 2) * 1024 + 1 * (y 1).val = (i 1).val; rw [e1, h1]; omega

/-- The bias block at every point is the whole bias vector. -/
theorem bBlock1_apply (c : Dev nD) (t : Fin cfg1.N) (y i : S1024.Idx) (h0 : (i 0).val = (y 0).val) :
    (iblk1 V c 2 t : Vec Ideal S1024 .f32) y = (V c main_arg6 : S1024.Idx → EReal) i := by
  obtain ⟨-, -, -, -, e0, -⟩ := blockIdx1 t
  unfold iblk1
  rw [View.read_apply]
  show V c main_arg6 _ = V c main_arg6 _
  congr 1
  funext a
  apply Fin.ext
  match a with
  | ⟨0, _⟩ => show win1_2.index t (0 : Fin 1) * 1024 + 1 * (y 0).val = (i 0).val; rw [e0, h0]; omega

/-- What point t writes back is block t of the linear layer of the three arrays as the region finds them. -/
theorem flushed1_eq (c : Dev nD) (t : Fin cfg1.N) :
    (dat1 (F := Ideal) V c).flushed 3 t
      = ((cfg1.win 3).blk t).view.read (Elt Ideal) (lin32768 (V c main_v4) (V c main_arg5) (V c main_arg6)) := by
  show (cfg1.win 3).cut (grid1.coords t) ((dat1 V c).after 3 t) = _
  rw [after1_3]
  unfold out1_3
  rw [View.canon_unit_zero zeros2]
  simp only [View.ld_unit_zero (S := S1024x1024) zeros2, View.ld_unit_zero (S := S1024) zeros1]
  obtain ⟨-, -, -, -, -, e0, e1⟩ := blockIdx1 t
  funext j
  obtain ⟨p, e, rfl⟩ : ∃ (p e : Fin 1024), j = ix2 p e := ⟨j 0, j 1, eq_ix2 j⟩
  show k1_pay1 (F := Ideal) (iblk1 V c 0 t) (iblk1 V c 1 t) (iblk1 V c 2 t) (ix2 p e)
    = lin32768 (V c main_v4) (V c main_arg5) (V c main_arg6) (((cfg1.win 3).blk t).view.emb (ix2 p e))
  refine (proj_pay_apply1 (iblk1 V c 0 t) (iblk1 V c 1 t) (iblk1 V c 2 t) p e).trans ?_
  have hk0 : ((((cfg1.win 3).blk t).view.emb (ix2 p e)) 0).val = win1_3.index t (0 : Fin 2) * 1024 + 1 * p.val := rfl
  have hk1 : ((((cfg1.win 3).blk t).view.emb (ix2 p e)) 1).val = win1_3.index t (1 : Fin 2) * 1024 + 1 * e.val := rfl
  rw [e0] at hk0
  rw [e1] at hk1
  unfold lin32768
  refine congrArg₂ (· + ·) (Finset.sum_congr rfl fun d _ => congrArg₂ (· * ·) ?_ ?_) ?_
  · exact xBlock1_apply V c t (ix2 p d) _ (by rw [hk0]; show _ = 1024 * t.val + p.val; omega) rfl
  · exact wBlock1_apply V c t (ix2 e d) _ (by show _ = e.val; rw [hk1]; omega) rfl
  · exact bBlock1_apply V c t (ix1 e) _ (by show _ = e.val; rw [hk1]; omega)

/-- An index of the result array lies in point t's block iff each coordinate is in the block's range. -/
theorem mem_outBlock1 (t : Fin cfg1.N) (i : S32768x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v5).slice (win1_3.rect t)).set ↔ _
  rw [View.set_slice_whole, Rect.mem_set_unit]
  exact Iff.rfl

/-- The result array after the region: the linear layer of the three arrays as the region found them. Row r is
    written at point r / 1024, and every point writes back. -/
theorem final1 (c : Dev nD) :
    (dat1 (F := Ideal) V c).arrAt 3 cfg1.N = lin32768 (V c main_v4) (V c main_arg5) (V c main_arg6) :=
  (dat1 (F := Ideal) V c).arrAt_eq_of_cover 3 (lin32768 (V c main_v4) (V c main_arg5) (V c main_arg6)) (fun t _ => flushed1_eq V c t) fun i => by
    have hi0 : (i 0).val < 32768 := (i 0).isLt
    have hi1 : (i 1).val < 1024 := (i 1).isLt
    have hN : grid1.N = 32 := N_1
    let t : Fin cfg1.N := ⟨(i 0).val / 1024, by show (i 0).val / 1024 < grid1.N; omega⟩
    obtain ⟨-, -, -, -, -, e0, e1⟩ := blockIdx1 t
    have ht : t.val = (i 0).val / 1024 := rfl
    refine ⟨t, flush1_3 t, ?_⟩
    rw [mem_outBlock1]
    intro a
    match a with
    | ⟨0, _⟩ =>
      show win1_3.index t (0 : Fin 2) * 1024 ≤ (i 0).val ∧ (i 0).val < win1_3.index t (0 : Fin 2) * 1024 + 1024
      rw [e0, ht]; omega
    | ⟨1, _⟩ =>
      show win1_3.index t (1 : Fin 2) * 1024 ≤ (i 1).val ∧ (i 1).val < win1_3.index t (1 : Fin 2) * 1024 + 1024
      rw [e1]; omega

/-- The result array read at row r and feature e, as the linear layer of the entry arrays there. -/
theorem proj_final1_apply (c : Dev nD) (r : Fin 32768) (e : Fin 1024) :
    (dat1 (F := Ideal) V c).arrAt 3 cfg1.N (ix2 r e) = lin32768 (V c main_v4) (V c main_arg5) (V c main_arg6) (ix2 r e) :=
  congrFun (final1 V c) (ix2 r e)

/-- The same with the entry arrays named: if they hold x, W and b, the result at (r, e) is  ∑_d x(r, d) · W(e, d) + b(e). -/
theorem proj_final1_apply_of (c : Dev nD) (x : S32768x1024.Idx → EReal) (W : S1024x1024.Idx → EReal) (b : S1024.Idx → EReal)
    (hx : V c main_v4 = x) (hW : V c main_arg5 = W) (hb : V c main_arg6 = b) (r : Fin 32768) (e : Fin 1024) :
    (dat1 (F := Ideal) V c).arrAt 3 cfg1.N (ix2 r e) = (∑ d : Fin 1024, x (ix2 r d) * W (ix2 e d)) + b (ix1 e) := by
  subst hx hW hb
  exact (proj_final1_apply V c r e).trans (lin32768_apply _ _ _ r e)

/-! # Projection region 2: 32768 rows, arrays `main_v7` (x), `main_arg7` (W), `main_arg8` (b), result `main_v8` -/

/-- The block indices at grid point t: the x window and the result window are at row block t, column block 0; the
    weight and bias windows never move. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The x block at point t is rows 1024·t … of the x array. -/
theorem xBlock2_apply (c : Dev nD) (t : Fin cfg2.N) (y : S1024x1024.Idx) (i : S32768x1024.Idx)
    (h0 : (i 0).val = 1024 * t.val + (y 0).val) (h1 : (i 1).val = (y 1).val) :
    (iblk2 V c 0 t : Vec Ideal S1024x1024 .f32) y = (V c main_v7 : S32768x1024.Idx → EReal) i := by
  obtain ⟨e0, e1, -⟩ := blockIdx2 t
  unfold iblk2
  rw [View.read_apply]
  show V c main_v7 _ = V c main_v7 _
  congr 1
  funext a
  apply Fin.ext
  match a with
  | ⟨0, _⟩ => show win2_0.index t (0 : Fin 2) * 1024 + 1 * (y 0).val = (i 0).val; rw [e0, h0]; omega
  | ⟨1, _⟩ => show win2_0.index t (1 : Fin 2) * 1024 + 1 * (y 1).val = (i 1).val; rw [e1, h1]; omega

/-- The weight block at every point is the whole weight matrix. -/
theorem wBlock2_apply (c : Dev nD) (t : Fin cfg2.N) (y i : S1024x1024.Idx)
    (h0 : (i 0).val = (y 0).val) (h1 : (i 1).val = (y 1).val) :
    (iblk2 V c 1 t : Vec Ideal S1024x1024 .f32) y = (V c main_arg7 : S1024x1024.Idx → EReal) i := by
  obtain ⟨-, -, e0, e1, -⟩ := blockIdx2 t
  unfold iblk2
  rw [View.read_apply]
  show V c main_arg7 _ = V c main_arg7 _
  congr 1
  funext a
  apply Fin.ext
  match a with
  | ⟨0, _⟩ => show win2_1.index t (0 : Fin 2) * 1024 + 1 * (y 0).val = (i 0).val; rw [e0, h0]; omega
  | ⟨1, _⟩ => show win2_1.index t (1 : Fin 2) * 1024 + 1 * (y 1).val = (i 1).val; rw [e1, h1]; omega

/-- The bias block at every point is the whole bias vector. -/
theorem bBlock2_apply (c : Dev nD) (t : Fin cfg2.N) (y i : S1024.Idx) (h0 : (i 0).val = (y 0).val) :
    (iblk2 V c 2 t : Vec Ideal S1024 .f32) y = (V c main_arg8 : S1024.Idx → EReal) i := by
  obtain ⟨-, -, -, -, e0, -⟩ := blockIdx2 t
  unfold iblk2
  rw [View.read_apply]
  show V c main_arg8 _ = V c main_arg8 _
  congr 1
  funext a
  apply Fin.ext
  match a with
  | ⟨0, _⟩ => show win2_2.index t (0 : Fin 1) * 1024 + 1 * (y 0).val = (i 0).val; rw [e0, h0]; omega

/-- What point t writes back is block t of the linear layer of the three arrays as the region finds them. -/
theorem flushed2_eq (c : Dev nD) (t : Fin cfg2.N) :
    (dat2 (F := Ideal) V c).flushed 3 t
      = ((cfg2.win 3).blk t).view.read (Elt Ideal) (lin32768 (V c main_v7) (V c main_arg7) (V c main_arg8)) := by
  show (cfg2.win 3).cut (grid2.coords t) ((dat2 V c).after 3 t) = _
  rw [after2_3]
  unfold out2_3
  rw [View.canon_unit_zero zeros2]
  simp only [View.ld_unit_zero (S := S1024x1024) zeros2, View.ld_unit_zero (S := S1024) zeros1]
  obtain ⟨-, -, -, -, -, e0, e1⟩ := blockIdx2 t
  funext j
  obtain ⟨p, e, rfl⟩ : ∃ (p e : Fin 1024), j = ix2 p e := ⟨j 0, j 1, eq_ix2 j⟩
  show k2_pay1 (F := Ideal) (iblk2 V c 0 t) (iblk2 V c 1 t) (iblk2 V c 2 t) (ix2 p e)
    = lin32768 (V c main_v7) (V c main_arg7) (V c main_arg8) (((cfg2.win 3).blk t).view.emb (ix2 p e))
  refine (proj_pay_apply2 (iblk2 V c 0 t) (iblk2 V c 1 t) (iblk2 V c 2 t) p e).trans ?_
  have hk0 : ((((cfg2.win 3).blk t).view.emb (ix2 p e)) 0).val = win2_3.index t (0 : Fin 2) * 1024 + 1 * p.val := rfl
  have hk1 : ((((cfg2.win 3).blk t).view.emb (ix2 p e)) 1).val = win2_3.index t (1 : Fin 2) * 1024 + 1 * e.val := rfl
  rw [e0] at hk0
  rw [e1] at hk1
  unfold lin32768
  refine congrArg₂ (· + ·) (Finset.sum_congr rfl fun d _ => congrArg₂ (· * ·) ?_ ?_) ?_
  · exact xBlock2_apply V c t (ix2 p d) _ (by rw [hk0]; show _ = 1024 * t.val + p.val; omega) rfl
  · exact wBlock2_apply V c t (ix2 e d) _ (by show _ = e.val; rw [hk1]; omega) rfl
  · exact bBlock2_apply V c t (ix1 e) _ (by show _ = e.val; rw [hk1]; omega)

/-- An index of the result array lies in point t's block iff each coordinate is in the block's range. -/
theorem mem_outBlock2 (t : Fin cfg2.N) (i : S32768x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v8).slice (win2_3.rect t)).set ↔ _
  rw [View.set_slice_whole, Rect.mem_set_unit]
  exact Iff.rfl

/-- The result array after the region: the linear layer of the three arrays as the region found them. Row r is
    written at point r / 1024, and every point writes back. -/
theorem final2 (c : Dev nD) :
    (dat2 (F := Ideal) V c).arrAt 3 cfg2.N = lin32768 (V c main_v7) (V c main_arg7) (V c main_arg8) :=
  (dat2 (F := Ideal) V c).arrAt_eq_of_cover 3 (lin32768 (V c main_v7) (V c main_arg7) (V c main_arg8)) (fun t _ => flushed2_eq V c t) fun i => by
    have hi0 : (i 0).val < 32768 := (i 0).isLt
    have hi1 : (i 1).val < 1024 := (i 1).isLt
    have hN : grid2.N = 32 := N_2
    let t : Fin cfg2.N := ⟨(i 0).val / 1024, by show (i 0).val / 1024 < grid2.N; omega⟩
    obtain ⟨-, -, -, -, -, e0, e1⟩ := blockIdx2 t
    have ht : t.val = (i 0).val / 1024 := rfl
    refine ⟨t, flush2_3 t, ?_⟩
    rw [mem_outBlock2]
    intro a
    match a with
    | ⟨0, _⟩ =>
      show win2_3.index t (0 : Fin 2) * 1024 ≤ (i 0).val ∧ (i 0).val < win2_3.index t (0 : Fin 2) * 1024 + 1024
      rw [e0, ht]; omega
    | ⟨1, _⟩ =>
      show win2_3.index t (1 : Fin 2) * 1024 ≤ (i 1).val ∧ (i 1).val < win2_3.index t (1 : Fin 2) * 1024 + 1024
      rw [e1]; omega

/-- The result array read at row r and feature e, as the linear layer of the entry arrays there. -/
theorem proj_final2_apply (c : Dev nD) (r : Fin 32768) (e : Fin 1024) :
    (dat2 (F := Ideal) V c).arrAt 3 cfg2.N (ix2 r e) = lin32768 (V c main_v7) (V c main_arg7) (V c main_arg8) (ix2 r e) :=
  congrFun (final2 V c) (ix2 r e)

/-- The same with the entry arrays named: if they hold x, W and b, the result at (r, e) is  ∑_d x(r, d) · W(e, d) + b(e). -/
theorem proj_final2_apply_of (c : Dev nD) (x : S32768x1024.Idx → EReal) (W : S1024x1024.Idx → EReal) (b : S1024.Idx → EReal)
    (hx : V c main_v7 = x) (hW : V c main_arg7 = W) (hb : V c main_arg8 = b) (r : Fin 32768) (e : Fin 1024) :
    (dat2 (F := Ideal) V c).arrAt 3 cfg2.N (ix2 r e) = (∑ d : Fin 1024, x (ix2 r d) * W (ix2 e d)) + b (ix1 e) := by
  subst hx hW hb
  exact (proj_final2_apply V c r e).trans (lin32768_apply _ _ _ r e)

end Cert.KernelIdeal.ProjValue

end
-- ==== Proof.ComposeQ.lean ====
/-
  The query side of the attention launch's input, followed back to the program's arguments.

  The first projection launch is fed the first 256 rows of each of the 8 batches of the query array, laid out as
  2048 rows (row 256·b + i is row i of batch b); its result, a 2048-row array, is laid back out as [8, 256, 1024]
  and is what the attention launch reads as its query block array. Entry (b, i, e) of that array is therefore the
  linear layer of the query array with the first weight matrix and bias at batch b, row i (as a row of the 4096), and
  feature e.
-/
import proofs.«137853_j11811160064067_1_alg».proof.Proof.MainRun
import proofs.«137853_j11811160064067_1_alg».proof.Proof.ProjValue
import proofs.«137853_j11811160064067_1_alg».proof.Proof.Spec
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Compose

open Idealize.ShloMosaic Idealize.ShloMosaic.ValueIdx Idealize.ShloMosaic.TcCoe Idealize.ShloMosaic.Tactic
open Idealize.ShloMosaic.StableHlo
open Idealize.SL Idealize.SL.Sem
open Cert.KernelIdeal Cert.KernelIdeal.Gen
open Cert.KernelIdeal.Hand (W0 W1 W2 W3 W4 W5 W6 W7 W2_arr W4_of_ne W6_of_ne dat0)
open Cert.KernelIdeal.ProjValue (proj_final0_apply_of)

variable (m : (ℓ : Loc nD τ sig) → Buf (Elt Ideal) ℓ) (ρ : Dev nD → PrngReg)

/-! ## The layout steps read at an index -/

/-- Row 256·b + i of the 2048-row flattening of the first 256 rows of each batch is row i of batch b. -/
theorem flatRows_apply (q : S8x4096x1024.Idx → EReal) (b : Fin 8) (i : Fin 256) (d : Fin 1024) (r : Fin 2048)
    (hr : r.val = 256 * b.val + i.val) :
    shapeCast S2048x1024 (extractStridedSlice S8x256x1024 ![0, 0, 0] q slices_S8x4096x1024_S8x256x1024_0_0_0)
        shapeCasts_S8x256x1024_S2048x1024 (ix2 r d)
      = q (ix3 b (Cert.Spec.qrow i) d) := by
  refine (shapeCast_apply _ _ (ix2 r d) (ix3 b i d) ?_).trans ?_
  · rw [Shape.rowMajor_val_three, Shape.rowMajor_val_two]
    show (b.val * 256 + i.val) * 1024 + d.val = r.val * 1024 + d.val
    rw [hr]; omega
  · exact slice3_axis1_apply 0 q _ b i d (Cert.Spec.qrow i) (by show i.val = 0 + i.val; omega)

/-- Entry (b, i, e) of the [8, 256, 1024] layout of a 2048-row array is its row 256·b + i at e. -/
theorem stackRows_apply (y : S2048x1024.Idx → EReal) (b : Fin 8) (i : Fin 256) (e : Fin 1024) (r : Fin 2048)
    (hr : r.val = 256 * b.val + i.val) :
    shapeCast S8x256x1024 y shapeCasts_S2048x1024_S8x256x1024 (ix3 b i e) = y (ix2 r e) := by
  refine shapeCast_apply _ _ (ix3 b i e) (ix2 r e) ?_
  rw [Shape.rowMajor_val_three, Shape.rowMajor_val_two]
  show r.val * 1024 + e.val = (b.val * 256 + i.val) * 1024 + e.val
  rw [hr]; omega

/-! ## The buffers along the run -/

/-- What the first projection launch is fed: the flattened first 256 rows of each batch of the query argument. -/
theorem v1_eq (c : Dev nD) :
    (W1 m ρ c (Proc.devRef .tc main_v1) : S2048x1024.Idx → EReal)
      = shapeCast S2048x1024 (extractStridedSlice S8x256x1024 ![0, 0, 0]
          (m ((c.tc : Thread nD τ).loc main_arg0) : S8x4096x1024.Idx → EReal) slices_S8x4096x1024_S8x256x1024_0_0_0)
          shapeCasts_S8x256x1024_S2048x1024 := by
  dsimp only [W1, hostOps0]; after_results; rfl

/-- The weight and the bias of the first projection are the arguments as launched. -/
theorem w1_arg3 (c : Dev nD) : W1 m ρ c (Proc.devRef .tc main_arg3) = m ((c.tc : Thread nD τ).loc main_arg3) :=
  StableHlo.after_of_writes_sub hostOps0 _ hostOps0_writes (by decide : main_arg3 ∉ hostOps0_W)
theorem w1_arg4 (c : Dev nD) : W1 m ρ c (Proc.devRef .tc main_arg4) = m ((c.tc : Thread nD τ).loc main_arg4) :=
  StableHlo.after_of_writes_sub hostOps0 _ hostOps0_writes (by decide : main_arg4 ∉ hostOps0_W)

/-- The first projection's result array, read at row 256·b + i and feature e, is the linear layer of the query argument
    at (b, i, e). -/
theorem v2_apply (c : Dev nD) (b : Fin 8) (i : Fin 256) (e : Fin 1024) (r : Fin 2048) (hr : r.val = 256 * b.val + i.val) :
    (W2 m ρ c (Proc.devRef .tc main_v2) : S2048x1024.Idx → EReal) (ix2 r e)
      = Cert.Spec.lin (m ((c.tc : Thread nD τ).loc main_arg0)) (m ((c.tc : Thread nD τ).loc main_arg3))
          (m ((c.tc : Thread nD τ).loc main_arg4)) b (Cert.Spec.qrow i) e := by
  have h2 : W2 m ρ c (Proc.devRef .tc main_v2) = (dat0 (Hand.V1 m ρ) c).arrAt 3 cfg0.N := W2_arr m ρ c 3
  refine (congrFun h2 (ix2 r e)).trans ?_
  refine (proj_final0_apply_of (Hand.V1 m ρ) c _ _ _ (v1_eq m ρ c) (w1_arg3 m ρ c) (w1_arg4 m ρ c) r e).trans ?_
  unfold Cert.Spec.lin
  exact congrArg₂ (· + ·) (Finset.sum_congr rfl fun d _ => congrArg₂ (· * ·) (flatRows_apply _ b i d r hr) rfl) rfl

/-- The attention launch's query array is the [8, 256, 1024] layout of the first projection's result. -/
theorem v3_eq (c : Dev nD) :
    (W3 m ρ c (Proc.devRef .tc main_v3) : S8x256x1024.Idx → EReal)
      = shapeCast S8x256x1024 (W2 m ρ c (Proc.devRef .tc main_v2) : S2048x1024.Idx → EReal) shapeCasts_S2048x1024_S8x256x1024 := by
  dsimp only [W3, hostOps1]; after_results; rfl

/-- Nothing between the second host stretch and the attention launch writes that array. -/
theorem w7_v3 (c : Dev nD) : W7 m ρ c (Proc.devRef .tc main_v3) = W3 m ρ c (Proc.devRef .tc main_v3) :=
  calc W7 m ρ c (Proc.devRef .tc main_v3)
    _ = W6 m ρ c (Proc.devRef .tc main_v3) := StableHlo.after_of_writes_sub hostOps3 _ hostOps3_writes (by decide : main_v3 ∉ hostOps3_W)
    _ = W5 m ρ c (Proc.devRef .tc main_v3) := W6_of_ne m ρ c main_v3 (by decide)
    _ = W4 m ρ c (Proc.devRef .tc main_v3) := StableHlo.after_of_writes_sub hostOps2 _ hostOps2_writes (by decide : main_v3 ∉ hostOps2_W)
    _ = W3 m ρ c (Proc.devRef .tc main_v3) := W4_of_ne m ρ c main_v3 (by decide)

/-- THE QUERY SIDE: the array the attention launch reads as its queries holds, at (b, i, e), the linear layer of the
    query argument with the first weights and bias at batch b, row i of the 4096, feature e. -/
theorem v3_apply (c : Dev nD) (x : S8x256x1024.Idx → EReal) (hx : Hand.V7 m ρ c main_v3 = x)
    (b : Fin 8) (i : Fin 256) (e : Fin 1024) :
    x (ix3 b i e)
      = Cert.Spec.lin (m ((c.tc : Thread nD τ).loc main_arg0)) (m ((c.tc : Thread nD τ).loc main_arg3))
          (m ((c.tc : Thread nD τ).loc main_arg4)) b (Cert.Spec.qrow i) e := by
  subst hx
  have hb : b.val < 8 := b.isLt
  have hi : i.val < 256 := i.isLt
  have h7 : (W7 m ρ c (Proc.devRef .tc main_v3) : S8x256x1024.Idx → EReal)
      = shapeCast S8x256x1024 (W2 m ρ c (Proc.devRef .tc main_v2) : S2048x1024.Idx → EReal) shapeCasts_S2048x1024_S8x256x1024 :=
    (w7_v3 m ρ c).trans (v3_eq m ρ c)
  refine (congrFun h7 (ix3 b i e)).trans ?_
  refine (stackRows_apply _ b i e ⟨256 * b.val + i.val, by omega⟩ rfl).trans ?_
  exact v2_apply m ρ c b i e ⟨256 * b.val + i.val, by omega⟩ rfl

end Cert.KernelIdeal.Compose

end
-- ==== Proof.AttnPieces.lean ====
/-
  What each case of the attention body leaves, as a value.

  The body's run found, case by case, the pieces its stores leave in the accumulator and in the output block. Read back
  they are: at a middle key tile, and at the last one, the accumulating store's value of the three loaded blocks and the
  accumulator as the point found it; at the last key tile the output block receives that same value (the accumulator is
  read back after it was written); at the first key tile the accumulator is first filled with zeros, read back, and the
  accumulating store's value is taken over the zero array. Every load and store goes through the whole buffer.
-/
import proofs.«137853_j11811160064067_1_alg».proof.Proof.AttnRegion
import Idealize.ShloMosaic.Lib.Pipeline.Value
import Idealize.ShloMosaic.Lib.Tactic

set_option maxRecDepth 16384

noncomputable section

namespace Cert.KernelIdeal.AttnValue

open Cert.KernelIdeal Cert.KernelIdeal.Gen Cert.KernelIdeal.Hand
open Idealize.ShloMosaic Idealize.ShloMosaic.TcCoe Idealize.SL.Sem Idealize.ShloMosaic.Tactic
open Idealize.ShloMosaic.Pipeline (Dat)

variable {F : FTy → Type} [FloatOps F]

/-- The zero offsets of a three-axis buffer. -/
theorem hz3 : (![0, 0, 0] : Fin 3 → Nat) = fun _ => 0 := funext fun a => by fin_cases a <;> rfl

/-- At a middle key tile the accumulator is left at the accumulating store's value. -/
theorem sout_B (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : ¬cond3_1 i)
    (x0 : Vec F S8x128x1024 .bf16) (x1 : Vec F S8x256x1024 .bf16) (x2 : Vec F S8x256x1024 .bf16) (xs0 : Vec F S8x128x1024 .f32) :
    sout3_B_0 c i arg2 harg2 arg3 harg3 arg4 harg4 arg5 harg5 arg6 harg6 hc0 hc1 x0 x1 x2 xs0 = k3_pay2 x0 x1 x2 xs0 := by
  unfold sout3_B_0
  rw [View.read_writes_eq_canon _ _ _ (scover3_B_0 c i arg2 harg2 arg3 harg3 arg4 harg4 arg5 harg5 arg6 harg6 hc0 hc1 x0 x1 x2 xs0)]
  unfold kernelRun3_B
  dsimp only
  rw [View.canon_unit_zero hz3]
  simp only [View.readAt_eq_ld, harg2.read_unread, harg3.read_unread, harg4.read_unread, harg6.read_unread, View.ld_unit_zero (S := S8x128x1024) hz3, View.ld_unit_zero (S := S8x256x1024) hz3]

/-- At the last key tile likewise. -/
theorem sout_C (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) :
    sout3_C_0 c i arg2 harg2 arg3 harg3 arg4 harg4 arg5 harg5 arg6 harg6 hc0 hc1 x0 x1 x2 xs0 = k3_pay2 x0 x1 x2 xs0 := by
  unfold sout3_C_0
  rw [View.read_writes_eq_canon _ _ _ (scover3_C_0 c i arg2 harg2 arg3 harg3 arg4 harg4 arg5 harg5 arg6 harg6 hc0 hc1 x0 x1 x2 xs0)]
  unfold kernelRun3_C
  dsimp only
  sl_unfold_words
  rw [View.canon_unit_zero hz3]
  simp only [View.readAt_eq_ld, harg2.read_unread, harg3.read_unread, harg4.read_unread, harg6.read_unread, View.ld_unit_zero (S := S8x128x1024) hz3, View.ld_unit_zero (S := S8x256x1024) hz3]

/-- At the last key tile the output block receives the accumulator just written. -/
theorem out_C (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : ¬cond3_0 i) (hc1 : cond3_1 i)
    (x0 : Vec F S8x128x1024 .bf16) (x1 : Vec F S8x256x1024 .bf16) (x2 : Vec F S8x256x1024 .bf16) (xs0 : Vec F S8x128x1024 .f32) :
    out3_C_3 c i arg2 harg2 arg3 harg3 arg4 harg4 arg5 harg5 arg6 harg6 hc0 hc1 x0 x1 x2 xs0 = k3_pay2 x0 x1 x2 xs0 := by
  unfold out3_C_3
  rw [View.read_writes_eq_canon _ _ _ (cover3_C_3 c i arg2 harg2 arg3 harg3 arg4 harg4 arg5 harg5 arg6 harg6 hc0 hc1 x0 x1 x2 xs0)]
  unfold kernelRun3_C
  dsimp only
  sl_unfold_words
  rw [View.canon_unit_zero hz3, View.readCov_unit_zero (S := S8x128x1024) _ hz3]
  simp only [View.readAt_eq_ld, harg2.read_unread, harg3.read_unread, harg4.read_unread, harg6.read_unread, View.ld_unit_zero (S := S8x128x1024) hz3, View.ld_unit_zero (S := S8x256x1024) hz3]

/-- At the first key tile the accumulator is zeroed, read back, and left at the accumulating store's value over zeros. -/
theorem sout_A (c : Dev nD) (i : grid3.Coords) (arg2 : Memref sig .tc .vmem S8x128x1024 .bf16) (harg2 : arg2.IsWhole) (arg3 : Memref sig .tc .vmem S8x256x1024 .bf16) (harg3 : arg3.IsWhole) (arg4 : Memref sig .tc .vmem S8x256x1024 .bf16) (harg4 : arg4.IsWhole) (arg5 : Memref sig .tc .vmem S8x128x1024 .f32) (harg5 : arg5.IsWhole) (arg6 : Memref sig .tc .vmem S8x128x1024 .f32) (harg6 : arg6.IsWhole) (hc0 : cond3_0 i) (hc1 : ¬cond3_1 i)
    (x0 : Vec F S8x128x1024 .bf16) (x1 : Vec F S8x256x1024 .bf16) (x2 : Vec F S8x256x1024 .bf16) :
    sout3_A_0 c i arg2 harg2 arg3 harg3 arg4 harg4 arg5 harg5 arg6 harg6 hc0 hc1 x0 x1 x2 = k3_pay2 x0 x1 x2 (k3_pay1 (F := F)) := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  sl_unfold_words
  rw [View.canon_cons_unit_zero (S := S8x128x1024) hz3, View.readCov_unit_zero (S := S8x128x1024) _ hz3]
  simp only [View.readAt_eq_ld, harg2.read_unread, harg3.read_unread, harg4.read_unread, View.ld_unit_zero (S := S8x128x1024) hz3, View.ld_unit_zero (S := S8x256x1024) hz3]

end Cert.KernelIdeal.AttnValue

end
-- ==== Proof.LibBatchedProduct.lean ====
/-
  A batched matrix product read at an index, at the ideal values.

  For a stack of `B` matrix pairs, `[B, M, K]` against `[B, K, N]` (the batch axis leading on both sides, the left
  operand contracted on its last axis and the right one on its middle axis), the entry `(b, p, q)` of the product is
  `∑ k, l (b, p, k) * r (b, k, q)`: a sum over the `K` positions of the one contracted axis. The library states the
  product's entry as a sum over the dimension record's own contraction index; here that index is traded for `Fin K` and
  the two operand indices are written out by coordinates, for a kernel's `tpu.matmul` into the zero accumulator and for
  the host's `dot_general` alike — so that the two read as the same sum.
-/
import Idealize.ShloMosaic.PureOps.Ideal.Laws
import Idealize.ShloMosaic.Lib.ValueIdx

noncomputable section

namespace Cert.Lib

open Idealize.ShloMosaic Idealize.ShloMosaic.ValueIdx

/-- The dimension numbers of the batched product `[B, M, K] · [B, K, N] → [B, M, N]`: batch axis 0 on both sides, the
    left operand contracted on axis 2, the right one on axis 1. -/
def batched3 (B M K N : ℕ)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

variable {B M K N : ℕ}
  (wf : DotDims.WF ⟨3, ![B, M, K]⟩ ⟨3, ![B, K, N]⟩ ⟨3, ![B, M, N]⟩ [2] [1] [1] [2] [0] [0])

/-- The product's sum over the record's contraction index is the sum over the `K` positions of the contracted axis, the
    left operand read along row `p` of matrix `b` and the right one down column `q` of matrix `b`. -/
theorem batched3_sum (l : (⟨3, ![B, M, K]⟩ : Shape).Idx → EReal) (r : (⟨3, ![B, K, N]⟩ : Shape).Idx → EReal)
    (b : Fin B) (p : Fin M) (q : Fin N) :
    (∑ k : (batched3 B M K N wf).contr.Idx,
        l ((batched3 B M K N wf).lhsIdx (ix3 b p q) k) * r ((batched3 B M K N wf).rhsIdx (ix3 b p q) k))
      = ∑ k : Fin K, l (ix3 b p k) * r (ix3 b k q) := by
  refine (Equiv.sum_comp (contrEquiv1 (batched3 B M K N wf) K rfl rfl).symm _).symm.trans ?_
  refine Finset.sum_congr rfl fun k _ => ?_
  have hl : (batched3 B M K N wf).lhsIdx (ix3 b p q) ((contrEquiv1 (batched3 B M K N wf) K rfl rfl).symm k) = ix3 b p k := by
    funext a
    refine Fin.ext ?_
    match a with
    | ⟨0, _⟩ => rfl
    | ⟨1, _⟩ => rfl
    | ⟨2, _⟩ =>
      exact ((batched3 B M K N wf).lhsIdx_val_of_single (cl := 2) rfl _ _).trans
        (contrEquiv1_symm_val (batched3 B M K N wf) K rfl rfl k)
  have hr : (batched3 B M K N wf).rhsIdx (ix3 b p q) ((contrEquiv1 (batched3 B M K N wf) K rfl rfl).symm k) = ix3 b k q := by
    funext a
    refine Fin.ext ?_
    match a with
    | ⟨0, _⟩ => rfl
    | ⟨1, _⟩ =>
      exact ((batched3 B M K N wf).rhsIdx_val_of_single (cr := 1) rfl _ _).trans
        (contrEquiv1_symm_val (batched3 B M K N wf) K rfl rfl k)
    | ⟨2, _⟩ => rfl
  rw [hl, hr]

/-- A kernel's batched `tpu.matmul` into the zero accumulator, read at `(b, p, q)`. -/
theorem batched3_matmul_zero_apply {φ₁ φ₂ : FTy} (prec : Option ContractPrecision)
    (l : FVec Ideal ⟨3, ![B, M, K]⟩ φ₁) (r : FVec Ideal ⟨3, ![B, K, N]⟩ φ₂) (b : Fin B) (p : Fin M) (q : Fin N) :
    FloatOps.matmul (batched3 B M K N wf) prec l r (constant ⟨3, ![B, M, N]⟩ .f32 0x00000000#32) (ix3 b p q)
      = ∑ k : Fin K, l (ix3 b p k) * r (ix3 b k q) :=
  (Ideal.matmul_constant_zero_apply (batched3 B M K N wf) prec l r (ix3 b p q)).trans (batched3_sum wf l r b p q)

/-- The host's batched `dot_general`, read at `(b, p, q)`: the same sum. -/
theorem batched3_dotGeneral_apply {φ₁ φ₂ : FTy} (prec : Option ContractPrecision) (sched : HostSchedule)
    (l : FVec Ideal ⟨3, ![B, M, K]⟩ φ₁) (r : FVec Ideal ⟨3, ![B, K, N]⟩ φ₂) (b : Fin B) (p : Fin M) (q : Fin N) :
    FloatOps.dotGeneral (batched3 B M K N wf) prec sched l r (ix3 b p q)
      = ∑ k : Fin K, l (ix3 b p k) * r (ix3 b k q) :=
  (Ideal.dotGeneral_apply (batched3 B M K N wf) prec sched l r (ix3 b p q)).trans (batched3_sum wf l r b p q)

end Cert.Lib

end
-- ==== Proof.LibOuterStack.lean ====
/-
  A stack of all pairs of rows, read at an index given by coordinates.

  A value computed for every pair (row `p` of one matrix, row `q` of another) against the `n` entries of those rows
  lives in an `[a, b, n]` array.  Three operands meet there.  The first matrix, `[a, n]`, is cast to `[a, 1, n]` and
  repeated along the middle axis; the second, `[b, n]`, is cast to `[1, b, n]` and repeated along the first axis; a
  table of `n` entries, `[1, n]`, is cast to `[1, 1, n]` and repeated along both.  Read at `(p, q, k)` they are the first
  matrix at `(p, k)`, the second at `(q, k)` and the table at `k`.  A sum over the last axis of the stack, read at
  `(p, q)`, is the sum over `k` of the stack at `(p, q, k)`.  Beside them, a one-entry matrix `[1, 1]` repeated to
  `[a, b]` reads that entry everywhere.
-/
import Idealize.ShloMosaic.Lib.ValueLayout
import Idealize.ShloMosaic.PureOps.Ideal.Laws

namespace Cert.Lib

open Idealize.ShloMosaic Idealize.ShloMosaic.ValueIdx

variable {α : Type}

/-- An `[a, n]` matrix cast to `[a, 1, n]` reads, at `(p, u, k)`, the matrix at `(p, k)`. -/
theorem shapeCast_an_a1n_apply {a n : ℕ} (x : (⟨2, ![a, n]⟩ : Shape).Idx → α)
    (h : (⟨2, ![a, n]⟩ : Shape).ShapeCasts ⟨3, ![a, 1, n]⟩) (p : Fin a) (u : Fin 1) (k : Fin n) :
    shapeCast ⟨3, ![a, 1, n]⟩ x h (ix3 p u k) = x (ix2 p k) :=
  shapeCast_apply x h _ _ (by
    have hu : u.val = 0 := by omega
    rw [Shape.rowMajor_val_two, Shape.rowMajor_val_three]
    show p.val * n + k.val = (p.val * 1 + u.val) * n + k.val
    rw [hu, Nat.mul_one, Nat.add_zero])

/-- An `[a, 1, n]` array repeated along its middle axis to `[a, b, n]` reads, at `(p, q, k)`, the operand at `(p, 0, k)`. -/
theorem broadcastTo_a1n_abn_apply {a b n : ℕ} (x : (⟨3, ![a, 1, n]⟩ : Shape).Idx → α)
    (h : (⟨3, ![a, 1, n]⟩ : Shape).Broadcasts ⟨3, ![a, b, n]⟩) (p : Fin a) (q : Fin b) (k : Fin n) :
    broadcastTo ⟨3, ![a, b, n]⟩ x h (ix3 p q k) = x (ix3 p (0 : Fin 1) k) := by
  refine broadcastTo_apply x h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if n = 1 then 0 else k.val
    split
    · have := k.isLt; omega
    · rfl

/-- A `[1, b, n]` array repeated along its first axis to `[a, b, n]` reads, at `(p, q, k)`, the operand at `(0, q, k)`. -/
theorem broadcastTo_1bn_abn_apply {a b n : ℕ} (x : (⟨3, ![1, b, n]⟩ : Shape).Idx → α)
    (h : (⟨3, ![1, b, n]⟩ : Shape).Broadcasts ⟨3, ![a, b, n]⟩) (p : Fin a) (q : Fin b) (k : Fin n) :
    broadcastTo ⟨3, ![a, b, n]⟩ x h (ix3 p q k) = x (ix3 (0 : Fin 1) q k) := by
  refine broadcastTo_apply x h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if n = 1 then 0 else k.val
    split
    · have := k.isLt; omega
    · rfl

/-- A `[1, 1, n]` array repeated along its first two axes to `[a, b, n]` reads, at `(p, q, k)`, the operand at `(0, 0, k)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- A one-entry matrix repeated to `[a, b]` reads that entry everywhere. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

/-- Over the stack's last axis, the index above `(p, q)` with coordinate `k` inserted is `(p, q, k)`. -/
theorem lift_last_ix2 {a b n : ℕ} (h : (⟨3, ![a, b, n]⟩ : Shape).Reduces [2] ⟨2, ![a, b]⟩) (p : Fin a) (q : Fin b) (k : Fin n) :
    h.lift (ix2 p q) k = ix3 p q k := by
  funext c
  apply Fin.ext
  match c with
  | ⟨0, _⟩ => rfl
  | ⟨1, _⟩ => rfl
  | ⟨2, _⟩ => rfl

/-- At the ideal values, a sum over the last axis of an `[a, b, n]` stack, read at `(p, q)`, is the sum over `k` of the
    stack at `(p, q, k)`. -/
theorem laneSum_apply {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin n, src (ix3 p q k) := by
  refine (Ideal.multiReduction_add_single src acc h hφ hacc (ix2 p q)).trans ?_
  exact Finset.sum_congr rfl fun k _ => congrArg src (lift_last_ix2 h p q k)

end Cert.Lib
-- ==== Proof.AttnPayload.lean ====
/-
  The attention tile's arithmetic at the ideal values.

  One step of the attention kernel takes a block of 128 query rows, a block of 256 key rows and the matching block of
  256 value rows, each for all 8 batches and with 1024 features, and adds to its accumulator the product of the tile's
  softmax weights with the value rows. The weights are computed inside the tile: the score of query row p against key
  row j in batch b is the sum over the features of the products of the two rows, times the scale; its maximum over the
  8 BATCHES at a fixed (p, j) is subtracted, the exponential taken, and the result divided by the sum of the
  exponentials over the 8 batches. Here that payload is read at an index (b, p, d): it is the accumulator there plus
  the sum over the 256 key rows j of weight(b, p, j) times value(b, j, d). The roundings to the 16-bit format are the
  identity at the ideal values, the casts to the same shape are the identity, and the maximum and the sum over the
  batch axis, kept as a unit axis and repeated over the 8 batches, read at (b, p, j) what they are at (p, j).

  The general facts used are stated first at arbitrary extents: a batched product of rows with rows read at an index,
  a maximum and a sum over the leading axis of a three-axis array read at an index, and the repeat of a two-axis array
  over a new leading axis.
-/
import proofs.«137853_j11811160064067_1_alg».proof.Proof.Gen.KernelIdeal.Skeleton
import proofs.«137853_j11811160064067_1_alg».proof.Proof.Spec
import proofs.«137853_j11811160064067_1_alg».proof.Proof.LibBatchedProduct
import proofs.«137853_j11811160064067_1_alg».proof.Proof.LibOuterStack
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AttnValue

open Idealize.ShloMosaic Idealize.ShloMosaic.ValueIdx

/-! ## A batched product of rows with rows -/

/-- The dimension numbers of the batched product [B, M, K] · [B, N, K] → [B, M, N]: batch axis 0 on both sides, both
    operands contracted on their last axis (every row of the left matrix against every row of the right one). -/
def rowsBatched3 (B M N K : ℕ)
    (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := wf

section Rows
variable {B M N K : ℕ}
  (wf : DotDims.WF ⟨3, ![B, M, K]⟩ ⟨3, ![B, N, K]⟩ ⟨3, ![B, M, N]⟩ [2] [2] [1] [1] [0] [0])

/-- The product's sum over the record's contraction index is the sum over the K positions of the contracted axis, the
    left operand read along row p of matrix b and the right one along row q of matrix b. -/
theorem rowsBatched3_sum (l : (⟨3, ![B, M, K]⟩ : Shape).Idx → EReal) (r : (⟨3, ![B, N, K]⟩ : Shape).Idx → EReal)
    (b : Fin B) (p : Fin M) (q : Fin N) :
    (∑ k : (rowsBatched3 B M N K wf).contr.Idx,
        l ((rowsBatched3 B M N K wf).lhsIdx (ix3 b p q) k) * r ((rowsBatched3 B M N K wf).rhsIdx (ix3 b p q) k))
      = ∑ k : Fin K, l (ix3 b p k) * r (ix3 b q k) := by
  refine (Equiv.sum_comp (contrEquiv1 (rowsBatched3 B M N K wf) K rfl rfl).symm _).symm.trans ?_
  refine Finset.sum_congr rfl fun k _ => ?_
  have hl : (rowsBatched3 B M N K wf).lhsIdx (ix3 b p q) ((contrEquiv1 (rowsBatched3 B M N K wf) K rfl rfl).symm k) = ix3 b p k := by
    funext a
    refine Fin.ext ?_
    match a with
    | ⟨0, _⟩ => rfl
    | ⟨1, _⟩ => rfl
    | ⟨2, _⟩ =>
      exact ((rowsBatched3 B M N K wf).lhsIdx_val_of_single (cl := 2) rfl _ _).trans
        (contrEquiv1_symm_val (rowsBatched3 B M N K wf) K rfl rfl k)
  have hr : (rowsBatched3 B M N K wf).rhsIdx (ix3 b p q) ((contrEquiv1 (rowsBatched3 B M N K wf) K rfl rfl).symm k) = ix3 b q k := by
    funext a
    refine Fin.ext ?_
    match a with
    | ⟨0, _⟩ => rfl
    | ⟨1, _⟩ => rfl
    | ⟨2, _⟩ =>
      exact ((rowsBatched3 B M N K wf).rhsIdx_val_of_single (cr := 2) rfl _ _).trans
        (contrEquiv1_symm_val (rowsBatched3 B M N K wf) K rfl rfl k)
  rw [hl, hr]

/-- A batched product of rows with rows into the zero accumulator, read at (b, p, q). -/
theorem rowsBatched3_matmul_zero_apply {φ₁ φ₂ : FTy} (prec : Option ContractPrecision)
    (l : FVec Ideal ⟨3, ![B, M, K]⟩ φ₁) (r : FVec Ideal ⟨3, ![B, N, K]⟩ φ₂) (b : Fin B) (p : Fin M) (q : Fin N) :
    FloatOps.matmul (rowsBatched3 B M N K wf) prec l r (constant ⟨3, ![B, M, N]⟩ .f32 0x00000000#32) (ix3 b p q)
      = ∑ k : Fin K, l (ix3 b p k) * r (ix3 b q k) :=
  (Ideal.matmul_constant_zero_apply (rowsBatched3 B M N K wf) prec l r (ix3 b p q)).trans (rowsBatched3_sum wf l r b p q)

end Rows

/-! ## A maximum and a sum over the leading axis, and the repeat over a new leading axis -/

/-- Over the leading axis of an [a, b, n] array, the index above (p, q) with coordinate k inserted is (k, p, q). -/
theorem lift_first_ix2 {a b n : ℕ} (h : (⟨3, ![a, b, n]⟩ : Shape).Reduces [0] ⟨2, ![b, n]⟩) (p : Fin b) (q : Fin n) (k : Fin a) :
    h.lift (ix2 p q) k = ix3 k p q := by
  funext c
  apply Fin.ext
  match c with
  | ⟨0, _⟩ => rfl
  | ⟨1, _⟩ => rfl
  | ⟨2, _⟩ => rfl

/-- A sum over the leading axis of an [a, b, n] array, read at (p, q), is the sum over k of the array at (k, p, q). -/
theorem leadSum_apply {a b n : ℕ} {φ : FTy} (src : FVec Ideal ⟨3, ![a, b, n]⟩ φ) (acc : BitVec φ.bits)
    (h : (⟨3, ![a, b, n]⟩ : Shape).Reduces [0] ⟨2, ![b, n]⟩) (hφ : FKind.Formats φ) (hacc : acc = FKind.add.neutral φ hφ)
    (p : Fin b) (q : Fin n) :
    multiReduction .add [0] ⟨2, ![b, n]⟩ src acc h hφ hacc (ix2 p q) = ∑ k : Fin a, src (ix3 k p q) := by
  refine (Ideal.multiReduction_add_single src acc h hφ hacc (ix2 p q)).trans ?_
  exact Finset.sum_congr rfl fun k _ => congrArg src (lift_first_ix2 h p q k)

/-- A maximum over the leading axis of an [a, b, n] array, read at (p, q), is the fold of max, from the value of the
    accumulator's word, over k of the array at (k, p, q). -/
theorem leadMax_apply {a b n : ℕ} {φ : FTy} (src : FVec Ideal ⟨3, ![a, b, n]⟩ φ) (acc : BitVec φ.bits)
    (h : (⟨3, ![a, b, n]⟩ : Shape).Reduces [0] ⟨2, ![b, n]⟩) (hφ : FKind.Formats φ) (hacc : acc = FKind.maximumf.neutral φ hφ)
    (p : Fin b) (q : Fin n) :
    multiReduction .maximumf [0] ⟨2, ![b, n]⟩ src acc h hφ hacc (ix2 p q)
      = (Finset.univ : Finset (Fin a)).fold max (FloatOps.ofBits (F := Ideal) φ acc) (fun k => src (ix3 k p q)) := by
  refine (Ideal.multiReduction_maximumf_single src acc h hφ hacc (ix2 p q)).trans ?_
  exact congrArg ((Finset.univ : Finset (Fin a)).fold max (FloatOps.ofBits (F := Ideal) φ acc))
    (funext fun k => congrArg src (lift_first_ix2 h p q k))

/-- A [b, n] array given a leading unit axis and repeated a times along it reads, at (k, p, q), the array at (p, q). -/
theorem keepLead_apply {α : Type} {a b n : ℕ} (x : (⟨2, ![b, n]⟩ : Shape).Idx → α)
    (hc : (⟨2, ![b, n]⟩ : Shape).ShapeCasts ⟨3, ![1, b, n]⟩) (hb : (⟨3, ![1, b, n]⟩ : Shape).Broadcasts ⟨3, ![a, b, n]⟩)
    (k : Fin a) (p : Fin b) (q : Fin n) :
    broadcastTo ⟨3, ![a, b, n]⟩ (shapeCast ⟨3, ![1, b, n]⟩ x hc) hb (ix3 k p q) = x (ix2 p q) :=
  (Cert.Lib.broadcastTo_1bn_abn_apply _ hb k p q).trans (shapeCast_ab_1ab_apply x hc 0 p q)

/-! ## The tile's own quantities, in the shape of the specification's -/

/-- The scaled score of query row p of the tile against key row j of the tile in batch b. -/
def tileScore (v3 : Vec Ideal S8x128x1024 .bf16) (v5 : Vec Ideal S8x256x1024 .bf16) (b : Fin 8) (p : Fin 128) (j : Fin 256) : EReal :=
  (∑ e : Fin 1024, v3 (ix3 b p e) * v5 (ix3 b j e)) * Cert.Spec.scale

/-- Its maximum over the 8 batches, folded from −∞. -/
def tileMax (v3 : Vec Ideal S8x128x1024 .bf16) (v5 : Vec Ideal S8x256x1024 .bf16) (p : Fin 128) (j : Fin 256) : EReal :=
  (Finset.univ : Finset (Fin 8)).fold max Cert.Spec.negInf (fun b => tileScore v3 v5 b p j)

/-- The exponential of the score less its maximum over the batches. -/
def tileExp (v3 : Vec Ideal S8x128x1024 .bf16) (v5 : Vec Ideal S8x256x1024 .bf16) (b : Fin 8) (p : Fin 128) (j : Fin 256) : EReal :=
  Ideal.exp (tileScore v3 v5 b p j - tileMax v3 v5 p j)

/-- The softmax weight over the batch axis. -/
def tileWeight (v3 : Vec Ideal S8x128x1024 .bf16) (v5 : Vec Ideal S8x256x1024 .bf16) (b : Fin 8) (p : Fin 128) (j : Fin 256) : EReal :=
  Ideal.div (tileExp v3 v5 b p j) (∑ b' : Fin 8, tileExp v3 v5 b' p j)

/-! ## The payload's intermediate arrays, each read at an index -/

/-- The two products' dimension numbers are the batched rows-with-rows and the batched rows-with-columns ones. -/
theorem dot1_eq : dot_S8x128x1024_S8x256x1024_S8x128x256_2_2_1_1_0_0
    = rowsBatched3 8 128 256 1024 Gen.dot_S8x128x1024_S8x256x1024_S8x128x256_2_2_1_1_0_0_wf := rfl
theorem dot2_eq : dot_S8x128x256_S8x256x1024_S8x128x1024_2_1_1_2_0_0
    = Cert.Lib.batched3 8 128 256 1024 Gen.dot_S8x128x256_S8x256x1024_S8x128x1024_2_1_1_2_0_0_wf := rfl

/-- The scaled scores: the product of the query block's rows with the key block's rows, batch by batch, times the
    scale word repeated over the array. -/
def scoreVec (v3 : Vec Ideal S8x128x1024 .bf16) (v5 : Vec Ideal S8x256x1024 .bf16) : FVec Ideal S8x128x256 .f32 :=
  mulf (matmul (φ₁ := .bf16) (φ₂ := .bf16) dot_S8x128x1024_S8x256x1024_S8x128x256_2_2_1_1_0_0 none
      (shapeCast S8x128x1024 v3 Gen.shapeCasts_S8x128x1024_S8x128x1024)
      (shapeCast S8x256x1024 v5 Gen.shapeCasts_S8x256x1024_S8x256x1024)
      (constant S8x128x256 .f32 0x00000000#32))
    (broadcast S8x128x256 (Scalar.ofBits .f32 0x3D000000#32))

theorem scoreVec_apply (v3 : Vec Ideal S8x128x1024 .bf16) (v5 : Vec Ideal S8x256x1024 .bf16) (b : Fin 8) (p : Fin 128) (j : Fin 256) :
    scoreVec v3 v5 (ix3 b p j) = tileScore v3 v5 b p j := by
  unfold scoreVec tileScore
  rw [shapeCast_self, shapeCast_self, dot1_eq]
  exact congrArg (· * Cert.Spec.scale)
    (rowsBatched3_matmul_zero_apply Gen.dot_S8x128x1024_S8x256x1024_S8x128x256_2_2_1_1_0_0_wf none v3 v5 b p j)

/-- The maximum of the scores over the batch axis. -/
def maxVec (v3 : Vec Ideal S8x128x1024 .bf16) (v5 : Vec Ideal S8x256x1024 .bf16) : FVec Ideal S128x256 .f32 :=
  multiReduction .maximumf [0] S128x256 (scoreVec v3 v5) 0xFF800000#32 Gen.reduces_S8x128x256_S128x256 (.inl rfl) rfl

theorem maxVec_apply (v3 : Vec Ideal S8x128x1024 .bf16) (v5 : Vec Ideal S8x256x1024 .bf16) (p : Fin 128) (j : Fin 256) :
    maxVec v3 v5 (ix2 p j) = tileMax v3 v5 p j := by
  unfold maxVec tileMax
  refine (leadMax_apply (scoreVec v3 v5) 0xFF800000#32 Gen.reduces_S8x128x256_S128x256 (.inl rfl) rfl p j).trans ?_
  exact congrArg ((Finset.univ : Finset (Fin 8)).fold max Cert.Spec.negInf) (funext fun k => scoreVec_apply v3 v5 k p j)

/-- The exponentials of the scores less their maximum over the batches (kept as a unit axis and repeated). -/
def expVec (v3 : Vec Ideal S8x128x1024 .bf16) (v5 : Vec Ideal S8x256x1024 .bf16) : FVec Ideal S8x128x256 .f32 :=
  exp (subf (scoreVec v3 v5)
    (broadcastTo S8x128x256 (shapeCast S1x128x256 (maxVec v3 v5) Gen.shapeCasts_S128x256_S1x128x256)
      Gen.broadcasts_S1x128x256_S8x128x256))

theorem expVec_apply (v3 : Vec Ideal S8x128x1024 .bf16) (v5 : Vec Ideal S8x256x1024 .bf16) (b : Fin 8) (p : Fin 128) (j : Fin 256) :
    expVec v3 v5 (ix3 b p j) = tileExp v3 v5 b p j := by
  unfold expVec tileExp
  show Ideal.exp (scoreVec v3 v5 (ix3 b p j)
    - broadcastTo S8x128x256 (shapeCast S1x128x256 (maxVec v3 v5) Gen.shapeCasts_S128x256_S1x128x256)
        Gen.broadcasts_S1x128x256_S8x128x256 (ix3 b p j)) = _
  rw [scoreVec_apply, keepLead_apply, maxVec_apply]

/-- The sum of the exponentials over the batch axis. -/
def sumVec (v3 : Vec Ideal S8x128x1024 .bf16) (v5 : Vec Ideal S8x256x1024 .bf16) : FVec Ideal S128x256 .f32 :=
  multiReduction .add [0] S128x256 (expVec v3 v5) 0x00000000#32 Gen.reduces_S8x128x256_S128x256 (.inl rfl) rfl

theorem sumVec_apply (v3 : Vec Ideal S8x128x1024 .bf16) (v5 : Vec Ideal S8x256x1024 .bf16) (p : Fin 128) (j : Fin 256) :
    sumVec v3 v5 (ix2 p j) = ∑ b' : Fin 8, tileExp v3 v5 b' p j := by
  unfold sumVec
  refine (leadSum_apply (expVec v3 v5) 0x00000000#32 Gen.reduces_S8x128x256_S128x256 (.inl rfl) rfl p j).trans ?_
  exact Finset.sum_congr rfl fun k _ => expVec_apply v3 v5 k p j

/-- The weights: each exponential over the sum of its (p, j) over the batches (kept as a unit axis and repeated). -/
def weightVec (v3 : Vec Ideal S8x128x1024 .bf16) (v5 : Vec Ideal S8x256x1024 .bf16) : FVec Ideal S8x128x256 .f32 :=
  divf (expVec v3 v5)
    (broadcastTo S8x128x256 (shapeCast S1x128x256 (sumVec v3 v5) Gen.shapeCasts_S128x256_S1x128x256)
      Gen.broadcasts_S1x128x256_S8x128x256)

theorem weightVec_apply (v3 : Vec Ideal S8x128x1024 .bf16) (v5 : Vec Ideal S8x256x1024 .bf16) (b : Fin 8) (p : Fin 128) (j : Fin 256) :
    weightVec v3 v5 (ix3 b p j) = tileWeight v3 v5 b p j := by
  unfold weightVec tileWeight
  show Ideal.div (expVec v3 v5 (ix3 b p j))
    (broadcastTo S8x128x256 (shapeCast S1x128x256 (sumVec v3 v5) Gen.shapeCasts_S128x256_S1x128x256)
        Gen.broadcasts_S1x128x256_S8x128x256 (ix3 b p j)) = _
  rw [expVec_apply, keepLead_apply, sumVec_apply]

/-! ## The payload -/

/-- The payload is the accumulator plus the product of the weights (rounded to the 16-bit format) with the value block. -/
theorem pay2_eq (v3 : Vec Ideal S8x128x1024 .bf16) (v5 v20 : Vec Ideal S8x256x1024 .bf16) (v22 : Vec Ideal S8x128x1024 .f32) :
    Gen.k3_pay2 (F := Ideal) v3 v5 v20 v22
      = shapeCast S8x128x1024
          (addf v22 (matmul (φ₁ := .bf16) (φ₂ := .bf16) dot_S8x128x256_S8x256x1024_S8x128x1024_2_1_1_2_0_0 none
            (truncf .bf16 (weightVec v3 v5) Gen.bitsLt_bf16_f32)
            (shapeCast S8x256x1024 v20 Gen.shapeCasts_S8x256x1024_S8x256x1024)
            (constant S8x128x1024 .f32 0x00000000#32)))
          Gen.shapeCasts_S8x128x1024_S8x128x1024 := rfl

/-- The attention step's stored value at (b, p, d): the accumulator there plus the sum over the tile's 256 key rows of
    the weight of (b, p, j) times the value row j at d. -/
theorem pay2_apply (v3 : Vec Ideal S8x128x1024 .bf16) (v5 v20 : Vec Ideal S8x256x1024 .bf16) (v22 : Vec Ideal S8x128x1024 .f32)
    (b : Fin 8) (p : Fin 128) (d : Fin 1024) :
    Gen.k3_pay2 (F := Ideal) v3 v5 v20 v22 (ix3 b p d)
      = v22 (ix3 b p d) + ∑ j : Fin 256, tileWeight v3 v5 b p j * v20 (ix3 b j d) := by
  rw [pay2_eq, shapeCast_self, shapeCast_self, dot2_eq]
  refine congrArg (v22 (ix3 b p d) + ·) ?_
  refine (Cert.Lib.batched3_matmul_zero_apply Gen.dot_S8x128x256_S8x256x1024_S8x128x1024_2_1_1_2_0_0_wf none
    (truncf .bf16 (weightVec v3 v5) Gen.bitsLt_bf16_f32) v20 b p d).trans ?_
  exact Finset.sum_congr rfl fun j _ => congrArg (· * v20 (ix3 b j d)) (weightVec_apply v3 v5 b p j)

/-- The zeroing store's value: the zero word repeated over the array is 0 everywhere. -/
theorem pay1_apply (i : S8x128x1024.Idx) : Gen.k3_pay1 (F := Ideal) i = 0 := by
  unfold Gen.k3_pay1
  rw [shapeCast_self]
  exact Ideal.ofBits_zero_f32

end Cert.KernelIdeal.AttnValue

end
-- ==== Proof.LibBandSum.lean ====
/-
  A sum over 2048 consecutive indices, split into 8 bands of 256.

  A sum over the first m · n naturals is the sum, over the bands j < m, of the sums over the n naturals starting at
  n · j: one band more adds the n indices from n · m on. Both sides of the identity are such sums, a sum over `Fin k` of a
  function of the value being the sum over the first k naturals.
-/
import Mathlib.Data.Fintype.BigOperators
import Mathlib.Algebra.BigOperators.Intervals

namespace Cert.Lib

/-- The first m · n naturals, band by band: m bands of n consecutive indices, band j starting at n · j. -/
theorem sum_range_bands {M : Type*} [AddCommMonoid M] (f : ℕ → M) (n : ℕ) :
    ∀ m : ℕ, ∑ j ∈ Finset.range m, ∑ p ∈ Finset.range n, f (n * j + p) = ∑ q ∈ Finset.range (m * n), f q
  | 0 => by rw [Finset.sum_range_zero, Nat.zero_mul, Finset.sum_range_zero]
  | m + 1 => by
    rw [Finset.sum_range_succ, sum_range_bands f n m, Nat.add_one_mul, Finset.sum_range_add, Nat.mul_comm n m]

/-- Eight bands of 256 make up the first 2048 indices. -/
theorem sum_bands {M : Type*} [AddCommMonoid M] (f : ℕ → M) :
    ∑ j ∈ Finset.range 8, ∑ p : Fin 256, f (256 * j + p.val) = ∑ q : Fin 2048, f q.val := by
  have h : ∑ q : Fin 2048, f q.val = ∑ q ∈ Finset.range (8 * 256), f q := Fin.sum_univ_eq_sum_range f 2048
  rw [h, ← sum_range_bands f 256 8]
  exact Finset.sum_congr rfl fun j _ => Fin.sum_univ_eq_sum_range (fun p => f (256 * j + p)) 256

end Cert.Lib
-- ==== Proof.AttnAlgebra.lean ====
/-
  From the key tiles to the whole key axis.

  The attention kernel walks the 4096 key rows in 16 tiles of 256 and adds each tile's contribution to an accumulator
  that starts at zero; the specification sums over all 4096 key rows at once. Two facts connect them, both using only
  that addition is commutative and associative. First, a sum over the 4096 key rows is the sum, over the 16 tiles T, of
  the sums over the 256 rows j' of the tile, key row 256 · T + j'. Second, an accumulator that is zero plus the first
  contribution after the first tile and gains one contribution per tile is, after tile n, the sum of the contributions
  of tiles 0 … n; after the last tile, the sum over all 16.
-/
import proofs.«137853_j11811160064067_1_alg».proof.Proof.Spec
import proofs.«137853_j11811160064067_1_alg».proof.Proof.LibBandSum
import Mathlib.Data.Fintype.BigOperators
import Mathlib.Algebra.BigOperators.Intervals

noncomputable section

open scoped BigOperators

namespace Cert.KernelIdeal.AttnValue

/-- Key row j' of key tile T as a row of the length-4096 key axis. -/
def keyIdx (T : Fin 16) (j' : Fin 256) : Fin 4096 := ⟨256 * T.val + j'.val, by omega⟩

theorem keyIdx_val (T : Fin 16) (j' : Fin 256) : (keyIdx T j').val = 256 * T.val + j'.val := rfl

/-- A sum over the 4096 key rows, tile by tile: 16 tiles of 256 consecutive rows, tile T starting at row 256 · T.
    The bound of the row index is any proof of it. -/
theorem sum_keyTiles' {M : Type*} [AddCommMonoid M] (f : Fin 4096 → M)
    (hb : ∀ (T : Fin 16) (j' : Fin 256), 256 * T.val + j'.val < 4096) :
    ∑ j : Fin 4096, f j = ∑ T : Fin 16, ∑ j' : Fin 256, f ⟨256 * T.val + j'.val, hb T j'⟩ := by
  -- extend f by zero to all naturals, so that both sides are sums over ranges
  let g : ℕ → M := fun q => if h : q < 4096 then f ⟨q, h⟩ else 0
  have hg : ∀ j : Fin 4096, f j = g j.val := fun j => by
    show f j = if h : j.val < 4096 then f ⟨j.val, h⟩ else 0
    rw [dif_pos j.isLt]
  have hl : ∑ j : Fin 4096, f j = ∑ q ∈ Finset.range (16 * 256), g q :=
    (Finset.sum_congr rfl fun j _ => hg j).trans (Fin.sum_univ_eq_sum_range g 4096)
  rw [hl, ← Cert.Lib.sum_range_bands g 256 16, ← Fin.sum_univ_eq_sum_range (fun T => ∑ p ∈ Finset.range 256, g (256 * T + p)) 16]
  refine Finset.sum_congr rfl fun T _ => ?_
  rw [← Fin.sum_univ_eq_sum_range (fun p => g (256 * T.val + p)) 256]
  exact Finset.sum_congr rfl fun j' _ => (hg ⟨256 * T.val + j'.val, hb T j'⟩).symm

/-- The same with the row index's bound found by arithmetic. -/
theorem sum_keyTiles {M : Type*} [AddCommMonoid M] (f : Fin 4096 → M) :
    ∑ j : Fin 4096, f j = ∑ T : Fin 16, ∑ j' : Fin 256, f ⟨256 * T.val + j'.val, by omega⟩ :=
  sum_keyTiles' f fun T j' => by omega

/-- The same with the row index named. -/
theorem sum_keyIdx {M : Type*} [AddCommMonoid M] (f : Fin 4096 → M) :
    ∑ j : Fin 4096, f j = ∑ T : Fin 16, ∑ j' : Fin 256, f (keyIdx T j') :=
  sum_keyTiles' f fun T j' => by omega

/-- The specification's weighted sum of the value rows, tile by tile. -/
theorem mix_eq_tiles (a : Fin 8 → Fin 256 → Fin 4096 → EReal) (vp : Fin 8 → Fin 4096 → Fin 1024 → EReal)
    (b : Fin 8) (i : Fin 256) (d : Fin 1024) :
    Cert.Spec.mix a vp b i d = ∑ T : Fin 16, ∑ j' : Fin 256, a b i (keyIdx T j') * vp b (keyIdx T j') d :=
  sum_keyIdx fun j => a b i j * vp b j d

/-- An accumulator that is zero plus the first contribution after step 0 and gains contribution n + 1 at step n + 1
    (for the steps up to N) is, after step n ≤ N, the sum of the contributions 0 … n. -/
theorem accum_range {M : Type*} [AddCommMonoid M] (g A : ℕ → M) (N : ℕ) (h0 : A 0 = 0 + g 0)
    (hs : ∀ n, n < N → A (n + 1) = A n + g (n + 1)) :
    ∀ n, n ≤ N → A n = ∑ T ∈ Finset.range (n + 1), g T
  | 0, _ => by rw [h0, zero_add, Finset.sum_range_one]
  | n + 1, hn => by
    rw [hs n (Nat.lt_of_succ_le hn), accum_range g A N h0 hs n (Nat.le_of_succ_le hn), ← Finset.sum_range_succ]

/-- After the last of 16 steps the accumulator is the sum of all 16 contributions. -/
theorem accum_16 {M : Type*} [AddCommMonoid M] (g A : ℕ → M) (h0 : A 0 = 0 + g 0)
    (hs : ∀ n, n < 15 → A (n + 1) = A n + g (n + 1)) :
    A 15 = ∑ T : Fin 16, g T.val :=
  (accum_range g A 15 h0 hs 15 (Nat.le_refl 15)).trans (Fin.sum_univ_eq_sum_range g 16).symm

end Cert.KernelIdeal.AttnValue

end
-- ==== Proof.AttnAccum.lean ====
/-
  The accumulator, point by point, and after a query tile's last key tile.

  At the ideal values the accumulating store's value at (b, p, d) is the accumulator there plus the tile sum: the sum
  over the 256 key rows of the key tile of the softmax weight times the value row. So after the first key tile of a
  query tile the accumulator is zero plus that tile's sum, after each later one it has gained that tile's sum, and the
  output block stored at the last key tile is the accumulator. After the last of the 16 key tiles the accumulator is
  therefore the sum of the 16 tile sums of the query tile's points.
-/
import proofs.«137853_j11811160064067_1_alg».proof.Proof.AttnPieces
import proofs.«137853_j11811160064067_1_alg».proof.Proof.AttnPayload
import proofs.«137853_j11811160064067_1_alg».proof.Proof.AttnAlgebra

set_option maxRecDepth 16384

noncomputable section

open scoped BigOperators

namespace Cert.KernelIdeal.AttnValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The tile sum: over the key rows of the tile, the weight times the value row. -/
def tileSum (x0 : Vec Ideal S8x128x1024 .bf16) (x1 x2 : Vec Ideal S8x256x1024 .bf16) (b : Fin 8) (p : Fin 128) (d : Fin 1024) : EReal :=
  ∑ j' : Fin 256, tileWeight x0 x1 b p j' * x2 (ix3 b j' d)

/-- The accumulating store's value over an accumulator: the accumulator plus the tile sum. -/
theorem step_val (x0 : Vec Ideal S8x128x1024 .bf16) (x1 x2 : Vec Ideal S8x256x1024 .bf16) (xs0 : Vec Ideal S8x128x1024 .f32)
    (b : Fin 8) (p : Fin 128) (d : Fin 1024) :
    k3_pay2 (F := Ideal) x0 x1 x2 xs0 (ix3 b p d) = xs0 (ix3 b p d) + tileSum x0 x1 x2 b p d :=
  pay2_apply x0 x1 x2 xs0 b p d

/-- Over the zeroed accumulator: zero plus the tile sum. -/
theorem first_val (x0 : Vec Ideal S8x128x1024 .bf16) (x1 x2 : Vec Ideal S8x256x1024 .bf16)
    (b : Fin 8) (p : Fin 128) (d : Fin 1024) :
    k3_pay2 (F := Ideal) x0 x1 x2 (k3_pay1 (F := Ideal)) (ix3 b p d) = 0 + tileSum x0 x1 x2 b p d :=
  (pay2_apply x0 x1 x2 (k3_pay1 (F := Ideal)) b p d).trans
    (congrArg (· + tileSum x0 x1 x2 b p d) (pay1_apply (ix3 b p d)))

variable (V : (c : Dev nD) → (b : Ref sig .tc) → Buf (Elt Ideal) ((c : Thread nD τ).loc b))

/-- The query, key and value blocks of a point, as arrays of their literal shapes. -/
abbrev qB (c : Dev nD) (t : Fin cfg3.N) : Vec Ideal S8x128x1024 .bf16 := iblk3 V c 0 t
abbrev kB (c : Dev nD) (t : Fin cfg3.N) : Vec Ideal S8x256x1024 .bf16 := iblk3 V c 1 t
abbrev vB (c : Dev nD) (t : Fin cfg3.N) : Vec Ideal S8x256x1024 .bf16 := iblk3 V c 2 t

/-- At the first key tile of a query tile the accumulator is left at zero plus the point's tile sum. -/
theorem acc_first (c : Dev nD) (t : Fin cfg3.N) (h0 : t.val % 16 = 0) (b : Fin 8) (p : Fin 128) (d : Fin 1024) :
    (outsAt3 V c t.val t.isLt).2 (ix3 b p d) = 0 + tileSum (qB V c t) (kB V c t) (vB V c t) b p d := by
  have h1 : ¬t.val % 16 = 15 := by omega
  rw [outsAt3_A V c t h0 h1]
  dsimp only
  refine (congrFun (sout_A (F := Ideal) c (grid3.coords t) (ms3_0 t) (hs3_0 t) (ms3_1 t) (hs3_1 t) (ms3_2 t) (hs3_2 t) (ms3_3 t) (hs3_3 t) scM3_0 (Memref.isWhole_whole _)
    ((hcond3_0 t).mpr h0) (fun h => h1 ((hcond3_1 t).mp h)) (iblk3 V c 0 t) (iblk3 V c 1 t) (iblk3 V c 2 t)) (ix3 b p d)).trans ?_
  exact first_val (qB V c t) (kB V c t) (vB V c t) b p d

/-- At every later key tile it gains the point's tile sum. -/
theorem acc_step (c : Dev nD) (t : Fin cfg3.N) (h0 : ¬t.val % 16 = 0) (b : Fin 8) (p : Fin 128) (d : Fin 1024) :
    (outsAt3 V c t.val t.isLt).2 (ix3 b p d)
      = (outsAt3 V c (t.val - 1) (Nat.lt_of_le_of_lt (Nat.sub_le _ _) t.isLt)).2 (ix3 b p d)
        + tileSum (qB V c t) (kB V c t) (vB V c t) b p d := by
  by_cases h1 : t.val % 16 = 15
  · rw [outsAt3_C V c t h0 h1]
    dsimp only
    refine (congrFun (sout_C (F := Ideal) c (grid3.coords t) (ms3_0 t) (hs3_0 t) (ms3_1 t) (hs3_1 t) (ms3_2 t) (hs3_2 t) (ms3_3 t) (hs3_3 t) scM3_0 (Memref.isWhole_whole _)
      (fun h => h0 ((hcond3_0 t).mp h)) ((hcond3_1 t).mpr h1) (iblk3 V c 0 t) (iblk3 V c 1 t) (iblk3 V c 2 t)
      (outsAt3 V c (t.val - 1) (Nat.lt_of_le_of_lt (Nat.sub_le _ _) t.isLt)).2) (ix3 b p d)).trans ?_
    exact step_val (qB V c t) (kB V c t) (vB V c t) (outsAt3 V c (t.val - 1) (Nat.lt_of_le_of_lt (Nat.sub_le _ _) t.isLt)).2 b p d
  · rw [outsAt3_B V c t h0 h1]
    dsimp only
    refine (congrFun (sout_B (F := Ideal) c (grid3.coords t) (ms3_0 t) (hs3_0 t) (ms3_1 t) (hs3_1 t) (ms3_2 t) (hs3_2 t) (ms3_3 t) (hs3_3 t) scM3_0 (Memref.isWhole_whole _)
      (fun h => h0 ((hcond3_0 t).mp h)) (fun h => h1 ((hcond3_1 t).mp h)) (iblk3 V c 0 t) (iblk3 V c 1 t) (iblk3 V c 2 t)
      (outsAt3 V c (t.val - 1) (Nat.lt_of_le_of_lt (Nat.sub_le _ _) t.isLt)).2) (ix3 b p d)).trans ?_
    exact step_val (qB V c t) (kB V c t) (vB V c t) (outsAt3 V c (t.val - 1) (Nat.lt_of_le_of_lt (Nat.sub_le _ _) t.isLt)).2 b p d

/-- At the last key tile the output block is stored with the accumulator's contents. -/
theorem out_eq_acc (c : Dev nD) (t : Fin cfg3.N) (h1 : t.val % 16 = 15) :
    (outsAt3 V c t.val t.isLt).1 = (outsAt3 V c t.val t.isLt).2 := by
  have h0 : ¬t.val % 16 = 0 := by omega
  rw [outsAt3_C V c t h0 h1]
  dsimp only
  exact (out_C (F := Ideal) c (grid3.coords t) (ms3_0 t) (hs3_0 t) (ms3_1 t) (hs3_1 t) (ms3_2 t) (hs3_2 t) (ms3_3 t) (hs3_3 t) scM3_0 (Memref.isWhole_whole _)
      (fun h => h0 ((hcond3_0 t).mp h)) ((hcond3_1 t).mpr h1) (iblk3 V c 0 t) (iblk3 V c 1 t) (iblk3 V c 2 t)
      (outsAt3 V c (t.val - 1) (Nat.lt_of_le_of_lt (Nat.sub_le _ _) t.isLt)).2).trans
    (sout_C (F := Ideal) c (grid3.coords t) (ms3_0 t) (hs3_0 t) (ms3_1 t) (hs3_1 t) (ms3_2 t) (hs3_2 t) (ms3_3 t) (hs3_3 t) scM3_0 (Memref.isWhole_whole _)
      (fun h => h0 ((hcond3_0 t).mp h)) ((hcond3_1 t).mpr h1) (iblk3 V c 0 t) (iblk3 V c 1 t) (iblk3 V c 2 t)
      (outsAt3 V c (t.val - 1) (Nat.lt_of_le_of_lt (Nat.sub_le _ _) t.isLt)).2).symm

/-- The point of query tile q and key tile T. -/
def pt (q : ℕ) (hq : q < 2) (T : ℕ) (hT : T < 16) : Fin cfg3.N :=
  ⟨16 * q + T, lt_of_lt_of_eq (by omega) (show cfg3.N = 32 from N_3).symm⟩

theorem pt_val (q : ℕ) (hq : q < 2) (T : ℕ) (hT : T < 16) : (pt q hq T hT).val = 16 * q + T := rfl

/-- The accumulator depends on the point's position only. -/
theorem acc_congr (c : Dev nD) {n n' : ℕ} (e : n = n') (h : n < cfg3.N) (h' : n' < cfg3.N) :
    (outsAt3 V c n h).2 = (outsAt3 V c n' h').2 := by
  subst e; rfl

/-- After the last key tile of query tile q the accumulator is the sum of the 16 tile sums of its points. -/
theorem acc_tile (c : Dev nD) (q : ℕ) (hq : q < 2) (b : Fin 8) (p : Fin 128) (d : Fin 1024) :
    (outsAt3 V c (pt q hq 15 (by omega)).val (pt q hq 15 (by omega)).isLt).2 (ix3 b p d)
      = ∑ T : Fin 16, tileSum (qB V c (pt q hq T.val T.isLt)) (kB V c (pt q hq T.val T.isLt)) (vB V c (pt q hq T.val T.isLt)) b p d := by
  let g : ℕ → EReal := fun n => if h : n < 16 then tileSum (qB V c (pt q hq n h)) (kB V c (pt q hq n h)) (vB V c (pt q hq n h)) b p d else 0
  let A : ℕ → EReal := fun n => if h : n < 16 then (outsAt3 V c (pt q hq n h).val (pt q hq n h).isLt).2 (ix3 b p d) else 0
  have hg : ∀ (n : ℕ) (h : n < 16), g n = tileSum (qB V c (pt q hq n h)) (kB V c (pt q hq n h)) (vB V c (pt q hq n h)) b p d :=
    fun n h => dif_pos h
  have hA : ∀ (n : ℕ) (h : n < 16), A n = (outsAt3 V c (pt q hq n h).val (pt q hq n h).isLt).2 (ix3 b p d) :=
    fun n h => dif_pos h
  have h0 : A 0 = 0 + g 0 := by
    rw [hA 0 (by omega), hg 0 (by omega)]
    exact acc_first V c (pt q hq 0 (by omega)) (by rw [pt_val]; omega) b p d
  have hs : ∀ n, n < 15 → A (n + 1) = A n + g (n + 1) := fun n hn => by
    rw [hA (n + 1) (by omega), hA n (by omega), hg (n + 1) (by omega)]
    refine (acc_step V c (pt q hq (n + 1) (by omega)) (by rw [pt_val]; omega) b p d).trans ?_
    exact congrArg (· + _) (congrFun (acc_congr V c (by rw [pt_val, pt_val]; omega) _ _) (ix3 b p d))
  have h15 := accum_16 g A h0 hs
  rw [hA 15 (by omega)] at h15
  refine h15.trans ?_
  exact Finset.sum_congr rfl fun T _ => hg T.val T.isLt

end Cert.KernelIdeal.AttnValue

end
-- ==== Proof.AttnTile.lean ====
/-
  The tile's quantities are the specification's.

  When row p of the query block is row i of the projected queries and row j of the key block is row J of the projected
  keys, in every batch, the tile's score, its maximum over the batches, the exponential and the softmax weight at
  (b, p, j) are the specification's at (b, i, J), for the score function "row i of the queries against row J of the
  keys, times the scale": each is the same expression of the same numbers. The attention result is the
  specification's weighted sum of the value rows for that score function.
-/
import proofs.«137853_j11811160064067_1_alg».proof.Proof.AttnPayload

noncomputable section

open scoped BigOperators

namespace Cert.KernelIdeal.AttnValue

open Idealize.ShloMosaic Idealize.ShloMosaic.ValueIdx

/-- The scaled score of query row i against key row j in batch b, the queries given on their 256 rows. -/
def scoreOf (qp : Fin 8 → Fin 256 → Fin 1024 → EReal) (kp : Fin 8 → Fin 4096 → Fin 1024 → EReal) :
    Fin 8 → Fin 256 → Fin 4096 → EReal :=
  fun b i j => (∑ e : Fin 1024, qp b i e * kp b j e) * Cert.Spec.scale

/-- The attention result at (b, i, d) from the projected queries, keys and values. -/
def attnOf (qp : Fin 8 → Fin 256 → Fin 1024 → EReal) (kp vp : Fin 8 → Fin 4096 → Fin 1024 → EReal)
    (b : Fin 8) (i : Fin 256) (d : Fin 1024) : EReal :=
  Cert.Spec.mix (Cert.Spec.weight (fun b i j => (∑ e : Fin 1024, qp b i e * kp b j e) * Cert.Spec.scale)) vp b i d

theorem attnOf_eq (qp : Fin 8 → Fin 256 → Fin 1024 → EReal) (kp vp : Fin 8 → Fin 4096 → Fin 1024 → EReal)
    (b : Fin 8) (i : Fin 256) (d : Fin 1024) :
    attnOf qp kp vp b i d = Cert.Spec.mix (Cert.Spec.weight (scoreOf qp kp)) vp b i d := rfl

section
variable (v3 : Vec Ideal Cert.KernelIdeal.S8x128x1024 .bf16) (v5 : Vec Ideal Cert.KernelIdeal.S8x256x1024 .bf16)
  (qp : Fin 8 → Fin 256 → Fin 1024 → EReal) (kp : Fin 8 → Fin 4096 → Fin 1024 → EReal)
  (i : Fin 256) (J : Fin 4096) (p : Fin 128) (j : Fin 256)
  (h3 : ∀ (b : Fin 8) (e : Fin 1024), v3 (ix3 b p e) = qp b i e)
  (h5 : ∀ (b : Fin 8) (e : Fin 1024), v5 (ix3 b j e) = kp b J e)

include h3 h5

/-- The tile's score is the specification's. -/
theorem tileScore_eq (b : Fin 8) : tileScore v3 v5 b p j = scoreOf qp kp b i J := by
  unfold tileScore scoreOf
  exact congrArg (· * Cert.Spec.scale) (Finset.sum_congr rfl fun e _ => by rw [h3 b e, h5 b e])

/-- Its maximum over the batches is the specification's. -/
theorem tileMax_eq : tileMax v3 v5 p j = Cert.Spec.smax (scoreOf qp kp) i J := by
  unfold tileMax Cert.Spec.smax
  exact congrArg ((Finset.univ : Finset (Fin 8)).fold max Cert.Spec.negInf)
    (funext fun b => tileScore_eq v3 v5 qp kp i J p j h3 h5 b)

/-- The exponential is the specification's. -/
theorem tileExp_eq (b : Fin 8) : tileExp v3 v5 b p j = Cert.Spec.expo (scoreOf qp kp) b i J := by
  unfold tileExp Cert.Spec.expo
  rw [tileScore_eq v3 v5 qp kp i J p j h3 h5 b, tileMax_eq v3 v5 qp kp i J p j h3 h5]

/-- The weight is the specification's. -/
theorem tileWeight_eq (b : Fin 8) : tileWeight v3 v5 b p j = Cert.Spec.weight (scoreOf qp kp) b i J := by
  unfold tileWeight Cert.Spec.weight
  rw [tileExp_eq v3 v5 qp kp i J p j h3 h5 b]
  exact congrArg (Ideal.div _) (Finset.sum_congr rfl fun b' _ => tileExp_eq v3 v5 qp kp i J p j h3 h5 b')

end

end Cert.KernelIdeal.AttnValue

end
-- ==== Proof.AttnBlocks.lean ====
/-
  The blocks of a point, read where their rectangles say, and a point's tile sum in the specification's terms.

  Point t is query tile t / 16 and key tile t % 16. Its query block is rows 128 · (t / 16) + p of the projected queries,
  its key and value blocks are rows 256 · (t % 16) + j of the projected keys and values, all batches and all features.
  So the tile sum of point t at (b, p, d) is the sum over the key rows of the key tile of the specification's softmax
  weight times the projected value row.
-/
import proofs.«137853_j11811160064067_1_alg».proof.Proof.AttnAccum
import proofs.«137853_j11811160064067_1_alg».proof.Proof.AttnTile

set_option maxRecDepth 16384

noncomputable section

open scoped BigOperators

namespace Cert.KernelIdeal.AttnValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The windows' block indices over the grid: the query and result windows follow the query tile, the key and value
    windows the key tile; the batch and feature axes are whole. -/
theorem idx3_0 : ∀ t : Fin cfg3.N, win3_0.index t (0 : Fin 3) = 0 ∧ win3_0.index t (1 : Fin 3) = t.val / 16 ∧ win3_0.index t (2 : Fin 3) = 0 :=
  (by decide +kernel : ∀ t : Fin grid3.N, _)
theorem idx3_1 : ∀ t : Fin cfg3.N, win3_1.index t (0 : Fin 3) = 0 ∧ win3_1.index t (1 : Fin 3) = t.val % 16 ∧ win3_1.index t (2 : Fin 3) = 0 :=
  (by decide +kernel : ∀ t : Fin grid3.N, _)
theorem idx3_2 : ∀ t : Fin cfg3.N, win3_2.index t (0 : Fin 3) = 0 ∧ win3_2.index t (1 : Fin 3) = t.val % 16 ∧ win3_2.index t (2 : Fin 3) = 0 :=
  (by decide +kernel : ∀ t : Fin grid3.N, _)
theorem idx3_3 : ∀ t : Fin cfg3.N, win3_3.index t (0 : Fin 3) = 0 ∧ win3_3.index t (1 : Fin 3) = t.val / 16 ∧ win3_3.index t (2 : Fin 3) = 0 :=
  (by decide +kernel : ∀ t : Fin grid3.N, _)

variable (V : (c : Dev nD) → (b : Ref sig .tc) → Buf (Elt Ideal) ((c : Thread nD τ).loc b))

/-- The projected queries, keys and values as the region finds them, by coordinates. -/
abbrev qpOf (c : Dev nD) : Fin 8 → Fin 256 → Fin 1024 → EReal := fun b i e => (V c main_v3) (ix3 b i e)
abbrev kpOf (c : Dev nD) : Fin 8 → Fin 4096 → Fin 1024 → EReal := fun b j e => (V c main_v6) (ix3 b j e)
abbrev vpOf (c : Dev nD) : Fin 8 → Fin 4096 → Fin 1024 → EReal := fun b j e => (V c main_v9) (ix3 b j e)

/-- The query block of point t at (b, p, e) is the projected queries at row 128 · (t / 16) + p. -/
theorem qB_apply (c : Dev nD) (t : Fin cfg3.N) (b : Fin 8) (p : Fin 128) (e : Fin 1024) (i : Fin 256)
    (hi : i.val = 128 * (t.val / 16) + p.val) : qB V c t (ix3 b p e) = qpOf V c b i e := by
  show V c main_v3 (((cfg3.win 0).blk t).view.emb (ix3 b p e)) = V c main_v3 (ix3 b i e)
  refine congrArg (V c main_v3) (funext fun a => Fin.ext ?_)
  obtain ⟨e0, e1, e2⟩ := idx3_0 t
  match a with
  | ⟨0, _⟩ => show win3_0.index t (0 : Fin 3) * 8 + 1 * b.val = b.val; rw [e0]; omega
  | ⟨1, _⟩ => show win3_0.index t (1 : Fin 3) * 128 + 1 * p.val = i.val; rw [e1, hi]; omega
  | ⟨2, _⟩ => show win3_0.index t (2 : Fin 3) * 1024 + 1 * e.val = e.val; rw [e2]; omega

/-- The key block of point t at (b, j, e) is the projected keys at row 256 · (t % 16) + j. -/
theorem kB_apply (c : Dev nD) (t : Fin cfg3.N) (b : Fin 8) (j : Fin 256) (e : Fin 1024) (J : Fin 4096)
    (hJ : J.val = 256 * (t.val % 16) + j.val) : kB V c t (ix3 b j e) = kpOf V c b J e := by
  show V c main_v6 (((cfg3.win 1).blk t).view.emb (ix3 b j e)) = V c main_v6 (ix3 b J e)
  refine congrArg (V c main_v6) (funext fun a => Fin.ext ?_)
  obtain ⟨e0, e1, e2⟩ := idx3_1 t
  match a with
  | ⟨0, _⟩ => show win3_1.index t (0 : Fin 3) * 8 + 1 * b.val = b.val; rw [e0]; omega
  | ⟨1, _⟩ => show win3_1.index t (1 : Fin 3) * 256 + 1 * j.val = J.val; rw [e1, hJ]; omega
  | ⟨2, _⟩ => show win3_1.index t (2 : Fin 3) * 1024 + 1 * e.val = e.val; rw [e2]; omega

/-- The value block of point t at (b, j, e) is the projected values at row 256 · (t % 16) + j. -/
theorem vB_apply (c : Dev nD) (t : Fin cfg3.N) (b : Fin 8) (j : Fin 256) (e : Fin 1024) (J : Fin 4096)
    (hJ : J.val = 256 * (t.val % 16) + j.val) : vB V c t (ix3 b j e) = vpOf V c b J e := by
  show V c main_v9 (((cfg3.win 2).blk t).view.emb (ix3 b j e)) = V c main_v9 (ix3 b J e)
  refine congrArg (V c main_v9) (funext fun a => Fin.ext ?_)
  obtain ⟨e0, e1, e2⟩ := idx3_2 t
  match a with
  | ⟨0, _⟩ => show win3_2.index t (0 : Fin 3) * 8 + 1 * b.val = b.val; rw [e0]; omega
  | ⟨1, _⟩ => show win3_2.index t (1 : Fin 3) * 256 + 1 * j.val = J.val; rw [e1, hJ]; omega
  | ⟨2, _⟩ => show win3_2.index t (2 : Fin 3) * 1024 + 1 * e.val = e.val; rw [e2]; omega

/-- The tile sum of point t — key tile T, query row i = 128 · (t / 16) + p — in the specification's terms. -/
theorem tileSum_spec (c : Dev nD) (t : Fin cfg3.N) (T : Fin 16) (hT : t.val % 16 = T.val) (b : Fin 8) (p : Fin 128) (d : Fin 1024)
    (i : Fin 256) (hi : i.val = 128 * (t.val / 16) + p.val) :
    tileSum (qB V c t) (kB V c t) (vB V c t) b p d
      = ∑ j' : Fin 256, Cert.Spec.weight (scoreOf (qpOf V c) (kpOf V c)) b i (keyIdx T j') * vpOf V c b (keyIdx T j') d := by
  unfold tileSum
  refine Finset.sum_congr rfl fun j' _ => ?_
  have hJ : (keyIdx T j').val = 256 * (t.val % 16) + j'.val := by rw [keyIdx_val, hT]
  have hw : tileWeight (qB V c t) (kB V c t) b p j' = Cert.Spec.weight (scoreOf (qpOf V c) (kpOf V c)) b i (keyIdx T j') :=
    tileWeight_eq (qB V c t) (kB V c t) (qpOf V c) (kpOf V c) i (keyIdx T j') p j'
      (fun b e => qB_apply V c t b p e i hi) (fun b e => kB_apply V c t b j' e (keyIdx T j') hJ) b
  have hv : vB V c t (ix3 b j' d) = vpOf V c b (keyIdx T j') d := vB_apply V c t b j' d (keyIdx T j') hJ
  rw [hw, hv]

/-- After the last key tile of its query tile (t % 16 = 15) the accumulator at (b, p, d) is the attention result at
    query row 128 · (t / 16) + p. -/
theorem acc_last_spec (c : Dev nD) (t : Fin cfg3.N) (h15 : t.val % 16 = 15) (b : Fin 8) (p : Fin 128) (d : Fin 1024)
    (i : Fin 256) (hi : i.val = 128 * (t.val / 16) + p.val) :
    (outsAt3 V c t.val t.isLt).2 (ix3 b p d) = attnOf (qpOf V c) (kpOf V c) (vpOf V c) b i d := by
  have hN : t.val < 32 := lt_of_lt_of_eq t.isLt (show cfg3.N = 32 from N_3)
  have hq : t.val / 16 < 2 := by omega
  have et : t.val = (pt (t.val / 16) hq 15 (by omega)).val := by rw [pt_val]; omega
  rw [congrFun (acc_congr V c et t.isLt (pt (t.val / 16) hq 15 (by omega)).isLt) (ix3 b p d),
    acc_tile V c (t.val / 16) hq b p d, attnOf_eq, mix_eq_tiles]
  refine Finset.sum_congr rfl fun T _ => ?_
  have hT : T.val < 16 := T.isLt
  exact tileSum_spec V c (pt (t.val / 16) hq T.val T.isLt) T (by rw [pt_val]; omega) b p d i (by rw [pt_val, hi]; omega)

end Cert.KernelIdeal.AttnValue

end
-- ==== Proof.AttnValue.lean ====
/-
  The attention region's result array.

  The result window is written back only at the last key tile of each query tile, with the accumulator's contents,
  which there are the attention result at the query rows of the tile. The two written blocks tile the result array
  (rows 0–127 and 128–255), so after the region the array holds, at (b, i, d), the specification's weighted sum over
  all 4096 key rows of the softmax weights over the batch axis times the projected value rows, for the projected
  queries, keys and values as the region finds them.
-/
import proofs.«137853_j11811160064067_1_alg».proof.Proof.AttnBlocks

set_option maxRecDepth 16384

noncomputable section

open scoped BigOperators

namespace Cert.KernelIdeal.AttnValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The whole result array as one function of the projected arrays. -/
def resultOf (c : Dev nD) : S8x256x1024.Idx → EReal :=
  fun o => attnOf (qpOf V c) (kpOf V c) (vpOf V c) (o 0) (o 1) (o 2)

/-- What a written-back point writes is its block of the result. -/
theorem flushed_eq (c : Dev nD) (t : Fin cfg3.N) (hf : (cfg3.win 3).flush t = true) :
    (dat3 V c).flushed 3 t = ((cfg3.win 3).blk t).view.read (Elt Ideal) (resultOf V c) := by
  have h15 : t.val % 16 = 15 := (flush3_3 t).mp hf
  have hN : t.val < 32 := lt_of_lt_of_eq t.isLt (show cfg3.N = 32 from N_3)
  show (cfg3.win 3).cut (grid3.coords t) ((dat3 V c).after 3 t) = _
  rw [after3_3, out_eq_acc V c t h15]
  funext y
  obtain ⟨b, p, d, rfl⟩ : ∃ (b : Fin 8) (p : Fin 128) (d : Fin 1024), y = ix3 b p d := ⟨y 0, y 1, y 2, eq_ix3 y⟩
  have hp : p.val < 128 := p.isLt
  have hemb : ((cfg3.win 3).blk t).view.emb (ix3 b p d) = ix3 b (⟨128 * (t.val / 16) + p.val, by omega⟩ : Fin 256) d := by
    funext a
    apply Fin.ext
    obtain ⟨e0, e1, e2⟩ := idx3_3 t
    match a with
    | ⟨0, _⟩ => show win3_3.index t (0 : Fin 3) * 8 + 1 * b.val = b.val; rw [e0]; omega
    | ⟨1, _⟩ => show win3_3.index t (1 : Fin 3) * 128 + 1 * p.val = 128 * (t.val / 16) + p.val; rw [e1]; omega
    | ⟨2, _⟩ => show win3_3.index t (2 : Fin 3) * 1024 + 1 * d.val = d.val; rw [e2]; omega
  show (outsAt3 V c t.val t.isLt).2 (ix3 b p d) = resultOf V c (((cfg3.win 3).blk t).view.emb (ix3 b p d))
  rw [hemb]
  exact acc_last_spec V c t h15 b p d ⟨128 * (t.val / 16) + p.val, by omega⟩ rfl

/-- An index of the result array is in point t's block iff each coordinate is in the block's range on its axis. -/
theorem mem_blk3 (t : Fin cfg3.N) (i : S8x256x1024.Idx) :
    i ∈ ((cfg3.win 3).blk t).view.set ↔ ∀ a : Fin 3, win3_3.index t a * S8x128x1024.size a ≤ (i a).val ∧ (i a).val < win3_3.index t a * S8x128x1024.size a + S8x128x1024.size a := by
  show i ∈ ((View.whole main_v10).slice (win3_3.rect t)).set ↔ _
  rw [View.set_slice_whole, Rect.mem_set_unit]
  exact Iff.rfl

/-- Every index of the result array is in the block of a written-back point: row i is written by the last key tile of
    query tile i / 128. -/
theorem covered (i : S8x256x1024.Idx) : ∃ t : Fin cfg3.N, (cfg3.win 3).flush t = true ∧ i ∈ ((cfg3.win 3).blk t).view.set := by
  have h0 : (i 0).val < 8 := (i 0).isLt
  have h1 : (i 1).val < 256 := (i 1).isLt
  have h2 : (i 2).val < 1024 := (i 2).isLt
  have hq : (i 1).val / 128 < 2 := by omega
  obtain ⟨t, ht⟩ : ∃ t : Fin cfg3.N, t.val = 16 * ((i 1).val / 128) + 15 := ⟨pt ((i 1).val / 128) hq 15 (by omega), rfl⟩
  refine ⟨t, (flush3_3 t).mpr (by omega), ?_⟩
  rw [mem_blk3]
  obtain ⟨e0, e1, e2⟩ := idx3_3 t
  intro a
  match a with
  | ⟨0, _⟩ => show win3_3.index t (0 : Fin 3) * 8 ≤ (i 0).val ∧ (i 0).val < win3_3.index t (0 : Fin 3) * 8 + 8; rw [e0]; omega
  | ⟨1, _⟩ => show win3_3.index t (1 : Fin 3) * 128 ≤ (i 1).val ∧ (i 1).val < win3_3.index t (1 : Fin 3) * 128 + 128; rw [e1, ht]; omega
  | ⟨2, _⟩ => show win3_3.index t (2 : Fin 3) * 1024 ≤ (i 2).val ∧ (i 2).val < win3_3.index t (2 : Fin 3) * 1024 + 1024; rw [e2]; omega

/-- After the region the result array is the attention result. -/
theorem attn_final (c : Dev nD) : (dat3 (F := Ideal) V c).arrAt 3 cfg3.N = resultOf V c :=
  (dat3 (F := Ideal) V c).arrAt_eq_of_cover 3 (resultOf V c) (flushed_eq V c) covered

/-- Read at (b, i, d). -/
theorem attn_final_apply (c : Dev nD) (b : Fin 8) (i : Fin 256) (d : Fin 1024) :
    (Cert.KernelIdeal.Hand.dat3 (F := Ideal) V c).arrAt 3 cfg3.N (ix3 b i d)
      = attnOf (fun b i e => (V c main_v3) (ix3 b i e)) (fun b j e => (V c main_v6) (ix3 b j e)) (fun b j e => (V c main_v9) (ix3 b j e)) b i d :=
  congrFun (attn_final V c) (ix3 b i d)

end Cert.KernelIdeal.AttnValue

end
-- ==== Proof.Compose.lean ====
/-
  The whole kernel-side program against the specification.
  The program is: the first 256 query rows cut out and laid out as 2048 rows; a linear-layer launch on them; the key and
  value arrays laid out as 32768 rows each, a linear-layer launch on each; the three results laid back out as
  [8, 256, 1024] and [8, 4096, 1024]; the attention launch on those three. A layout change keeps the row-major position,
  so row 256·b + i of the 2048 is query row (b, i) and row 4096·b + j of the 32768 is key or value row (b, j); a linear
  layer acts row by row; hence the three arrays the attention launch is entered with are the specification's three
  linear layers of the launch contents of the arguments, and the attention launch's result is the specification's result.
-/
import proofs.«137853_j11811160064067_1_alg».proof.Proof.MainRun
import proofs.«137853_j11811160064067_1_alg».proof.Proof.ProjValue
import proofs.«137853_j11811160064067_1_alg».proof.Proof.ComposeQ
import proofs.«137853_j11811160064067_1_alg».proof.Proof.AttnValue
import proofs.«137853_j11811160064067_1_alg».proof.Proof.Spec
import Idealize.ShloMosaic.Lib.Pipeline.Value

set_option maxRecDepth 16384

noncomputable section

open scoped BigOperators

namespace Cert.KernelIdeal.Compose.Rows

open Idealize.ShloMosaic Idealize.ShloMosaic.ValueIdx Idealize.ShloMosaic.TcCoe
open Idealize.SL Idealize.SL.Sem
open Cert.KernelIdeal Cert.KernelIdeal.Gen Cert.KernelIdeal.Hand

/-! ## Layout changes read at an index -/

/-- [8, 4096, 1024] laid out as [32768, 1024]: row 4096·b + j is row (b, j). -/
theorem rows_of_batches (x : S8x4096x1024.Idx → EReal) (h : S8x4096x1024.ShapeCasts S32768x1024)
    (b : Fin 8) (j : Fin 4096) (d : Fin 1024) (r : Fin 32768) (hr : r.val = 4096 * b.val + j.val) :
    shapeCast S32768x1024 x h (ix2 r d) = x (ix3 b j d) :=
  shapeCast_apply x h (ix2 r d) (ix3 b j d) (by
    rw [Shape.rowMajor_val_three, Shape.rowMajor_val_two]
    show (b.val * 4096 + j.val) * 1024 + d.val = r.val * 1024 + d.val
    omega)

/-- [32768, 1024] laid out as [8, 4096, 1024]: row (b, j) is row 4096·b + j. -/
theorem batches_of_rows (y : S32768x1024.Idx → EReal) (h : S32768x1024.ShapeCasts S8x4096x1024)
    (b : Fin 8) (j : Fin 4096) (e : Fin 1024) (r : Fin 32768) (hr : r.val = 4096 * b.val + j.val) :
    shapeCast S8x4096x1024 y h (ix3 b j e) = y (ix2 r e) :=
  shapeCast_apply y h (ix3 b j e) (ix2 r e) (by
    rw [Shape.rowMajor_val_three, Shape.rowMajor_val_two]
    show r.val * 1024 + e.val = (b.val * 4096 + j.val) * 1024 + e.val
    omega)

/-! ## A linear layer between two layout changes -/

/-- Rows laid out flat, a linear layer row by row, rows laid back out: the specification's linear layer. -/
theorem lin_between (x : S8x4096x1024.Idx → EReal) (W : S1024x1024.Idx → EReal) (bias : S1024.Idx → EReal)
    (xin out : S32768x1024.Idx → EReal) (h1 : S8x4096x1024.ShapeCasts S32768x1024) (h2 : S32768x1024.ShapeCasts S8x4096x1024)
    (hxin : xin = shapeCast S32768x1024 x h1)
    (hout : ∀ (r : Fin 32768) (e : Fin 1024), out (ix2 r e) = (∑ d : Fin 1024, xin (ix2 r d) * W (ix2 e d)) + bias (ix1 e))
    (b : Fin 8) (j : Fin 4096) (e : Fin 1024) :
    shapeCast S8x4096x1024 out h2 (ix3 b j e) = Spec.lin x W bias b j e := by
  have hb : b.val < 8 := b.isLt
  have hj : j.val < 4096 := j.isLt
  let r : Fin 32768 := ⟨4096 * b.val + j.val, by omega⟩
  rw [batches_of_rows out h2 b j e r rfl, hout r e]
  unfold Spec.lin
  refine congrArg (· + bias (ix1 e)) (Finset.sum_congr rfl fun d _ => ?_)
  rw [hxin, rows_of_batches x h1 b j d r rfl]

/-! ## Buffers no stretch and no launch has written yet hold their launch contents -/

section Walk

variable (m : (ℓ : Loc nD τ sig) → Buf (Elt Ideal) ℓ) (ρ : Dev nD → PrngReg) (c : Dev nD)

theorem W1_keep (r : Ref sig .tc) (h0 : r ∉ hostOps0_W) :
    W1 m ρ c (Proc.devRef .tc r) = m ((c : Thread nD τ).loc r) :=
  StableHlo.after_of_writes_sub hostOps0 _ hostOps0_writes h0
theorem W2_keep (r : Ref sig .tc) (h0 : r ∉ hostOps0_W) (a0 : ∀ w, Pipeline.arrRef spec0 w ≠ r) :
    W2 m ρ c (Proc.devRef .tc r) = m ((c : Thread nD τ).loc r) :=
  (W2_of_ne m ρ c r a0).trans (W1_keep m ρ c r h0)
theorem W3_keep (r : Ref sig .tc) (h0 : r ∉ hostOps0_W) (a0 : ∀ w, Pipeline.arrRef spec0 w ≠ r) (h1 : r ∉ hostOps1_W) :
    W3 m ρ c (Proc.devRef .tc r) = m ((c : Thread nD τ).loc r) :=
  (StableHlo.after_of_writes_sub hostOps1 _ hostOps1_writes h1).trans (W2_keep m ρ c r h0 a0)
theorem W4_keep (r : Ref sig .tc) (h0 : r ∉ hostOps0_W) (a0 : ∀ w, Pipeline.arrRef spec0 w ≠ r) (h1 : r ∉ hostOps1_W)
    (a1 : ∀ w, Pipeline.arrRef spec1 w ≠ r) :
    W4 m ρ c (Proc.devRef .tc r) = m ((c : Thread nD τ).loc r) :=
  (W4_of_ne m ρ c r a1).trans (W3_keep m ρ c r h0 a0 h1)
theorem W5_keep (r : Ref sig .tc) (h0 : r ∉ hostOps0_W) (a0 : ∀ w, Pipeline.arrRef spec0 w ≠ r) (h1 : r ∉ hostOps1_W)
    (a1 : ∀ w, Pipeline.arrRef spec1 w ≠ r) (h2 : r ∉ hostOps2_W) :
    W5 m ρ c (Proc.devRef .tc r) = m ((c : Thread nD τ).loc r) :=
  (StableHlo.after_of_writes_sub hostOps2 _ hostOps2_writes h2).trans (W4_keep m ρ c r h0 a0 h1 a1)

end Walk

end Cert.KernelIdeal.Compose.Rows

namespace Cert.KernelIdeal.Compose

open Idealize.ShloMosaic Idealize.ShloMosaic.ValueIdx Idealize.ShloMosaic.TcCoe
open Idealize.SL Idealize.SL.Sem
open Cert.KernelIdeal Cert.KernelIdeal.Gen Cert.KernelIdeal.Hand

variable (m : (ℓ : Loc nD τ sig) → Buf (Elt Ideal) ℓ) (ρ : Dev nD → PrngReg) (c : Dev nD)

/-! ## The value and key arrays the attention launch is entered with -/

/-- The value array the attention launch is entered with is the specification's linear layer of the launch contents of
    the value input, weights and bias: the input laid out as 32768 rows, the linear-layer launch, the result laid back
    out; nothing else writes any of these buffers before the attention launch. -/
theorem v9_apply (x : S8x4096x1024.Idx → EReal) (hx : Hand.V7 m ρ c main_v9 = x) (b : Fin 8) (j : Fin 4096) (e : Fin 1024) :
    x (ix3 b j e) = Cert.Spec.lin (m ((c : Thread nD τ).loc main_arg2)) (m ((c : Thread nD τ).loc main_arg7))
      (m ((c : Thread nD τ).loc main_arg8)) b j e := by
  have e9 : (W7 m ρ c (Proc.devRef .tc main_v9) : S8x4096x1024.Idx → EReal)
      = shapeCast S8x4096x1024 (W6 m ρ c (Proc.devRef .tc main_v8) : S32768x1024.Idx → EReal) shapeCasts_S32768x1024_S8x4096x1024 := by
    dsimp only [W7, hostOps3]; after_results; rfl
  have e7 : (W5 m ρ c (Proc.devRef .tc main_v7) : S32768x1024.Idx → EReal)
      = shapeCast S32768x1024 (W4 m ρ c (Proc.devRef .tc main_arg2) : S8x4096x1024.Idx → EReal) shapeCasts_S8x4096x1024_S32768x1024 := by
    dsimp only [W5, hostOps2]; after_results; rfl
  subst hx
  show (W7 m ρ c (Proc.devRef .tc main_v9) : S8x4096x1024.Idx → EReal) (ix3 b j e) = _
  rw [e9]
  refine Rows.lin_between _ _ _ (W5 m ρ c (Proc.devRef .tc main_v7) : S32768x1024.Idx → EReal) _ shapeCasts_S8x4096x1024_S32768x1024 _ ?_ ?_ b j e
  · rw [e7, Rows.W4_keep m ρ c main_arg2 (by decide) (by decide) (by decide) (by decide)]
  · intro r e'
    exact (congrFun (W6_arr m ρ c 3) (ix2 r e')).trans
      (ProjValue.proj_final2_apply_of (Hand.V5 m ρ) c _ _ _ rfl
        (Rows.W5_keep m ρ c main_arg7 (by decide) (by decide) (by decide) (by decide) (by decide))
        (Rows.W5_keep m ρ c main_arg8 (by decide) (by decide) (by decide) (by decide) (by decide)) r e')

/-- The key array the attention launch is entered with is the specification's linear layer of the launch contents of the
    key input, weights and bias: the result of the second linear-layer launch laid back out, which the stretch before
    the third launch writes and nothing after it touches. -/
theorem v6_apply (x : S8x4096x1024.Idx → EReal) (hx : Hand.V7 m ρ c main_v6 = x) (b : Fin 8) (j : Fin 4096) (e : Fin 1024) :
    x (ix3 b j e) = Cert.Spec.lin (m ((c : Thread nD τ).loc main_arg1)) (m ((c : Thread nD τ).loc main_arg5))
      (m ((c : Thread nD τ).loc main_arg6)) b j e := by
  have e6 : (W5 m ρ c (Proc.devRef .tc main_v6) : S8x4096x1024.Idx → EReal)
      = shapeCast S8x4096x1024 (W4 m ρ c (Proc.devRef .tc main_v5) : S32768x1024.Idx → EReal) shapeCasts_S32768x1024_S8x4096x1024 := by
    dsimp only [W5, hostOps2]; after_results; rfl
  have e4 : (W3 m ρ c (Proc.devRef .tc main_v4) : S32768x1024.Idx → EReal)
      = shapeCast S32768x1024 (W2 m ρ c (Proc.devRef .tc main_arg1) : S8x4096x1024.Idx → EReal) shapeCasts_S8x4096x1024_S32768x1024 := by
    dsimp only [W3, hostOps1]; after_results; rfl
  have e76 : W7 m ρ c (Proc.devRef .tc main_v6) = W5 m ρ c (Proc.devRef .tc main_v6) :=
    (StableHlo.after_of_writes_sub hostOps3 _ hostOps3_writes (by decide : main_v6 ∉ hostOps3_W)).trans
      (W6_of_ne m ρ c main_v6 (by decide))
  subst hx
  show (W7 m ρ c (Proc.devRef .tc main_v6) : S8x4096x1024.Idx → EReal) (ix3 b j e) = _
  rw [e76, e6]
  refine Rows.lin_between _ _ _ (W3 m ρ c (Proc.devRef .tc main_v4) : S32768x1024.Idx → EReal) _ shapeCasts_S8x4096x1024_S32768x1024 _ ?_ ?_ b j e
  · rw [e4, Rows.W2_keep m ρ c main_arg1 (by decide) (by decide)]
  · intro r e'
    exact (congrFun (W4_arr m ρ c 3) (ix2 r e')).trans
      (ProjValue.proj_final1_apply_of (Hand.V3 m ρ) c _ _ _ rfl
        (Rows.W3_keep m ρ c main_arg5 (by decide) (by decide) (by decide))
        (Rows.W3_keep m ρ c main_arg6 (by decide) (by decide) (by decide)) r e')

/-! ## The result -/

/-- The attention result depends on the three projected arrays only through their entries. -/
theorem attnOf_congr {qp qp' : Fin 8 → Fin 256 → Fin 1024 → EReal} {kp kp' vp vp' : Fin 8 → Fin 4096 → Fin 1024 → EReal}
    (hq : ∀ b i e, qp b i e = qp' b i e) (hk : ∀ b j e, kp b j e = kp' b j e) (hv : ∀ b j e, vp b j e = vp' b j e)
    (b : Fin 8) (i : Fin 256) (d : Fin 1024) :
    AttnValue.attnOf qp kp vp b i d = AttnValue.attnOf qp' kp' vp' b i d := by
  have e1 : qp = qp' := funext fun b => funext fun i => funext fun e => hq b i e
  have e2 : kp = kp' := funext fun b => funext fun j => funext fun e => hk b j e
  have e3 : vp = vp' := funext fun b => funext fun j => funext fun e => hv b j e
  rw [e1, e2, e3]

/-- The attention launch's result array is the specification's result of the launch contents of the nine arguments:
    the launch computes the attention of the three arrays it is entered with, and those are the three linear layers. -/
theorem result_spec :
    ((dat3 (F := Ideal) (Hand.V7 m ρ) c).arrAt 3 cfg3.N : S8x256x1024.Idx → EReal)
      = Cert.Spec.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  funext o
  obtain ⟨b, i, d, rfl⟩ : ∃ (b : Fin 8) (i : Fin 256) (d : Fin 1024), o = ix3 b i d := ⟨o 0, o 1, o 2, eq_ix3 o⟩
  refine (AttnValue.attn_final_apply (Hand.V7 m ρ) c b i d).trans ?_
  refine (attnOf_congr
    (qp' := fun b i e => Cert.Spec.lin (m ((c.tc : Thread nD τ).loc main_arg0)) (m ((c.tc : Thread nD τ).loc main_arg3))
      (m ((c.tc : Thread nD τ).loc main_arg4)) b (Cert.Spec.qrow i) e)
    (kp' := Cert.Spec.lin (m ((c.tc : Thread nD τ).loc main_arg1)) (m ((c.tc : Thread nD τ).loc main_arg5)) (m ((c.tc : Thread nD τ).loc main_arg6)))
    (vp' := Cert.Spec.lin (m ((c.tc : Thread nD τ).loc main_arg2)) (m ((c.tc : Thread nD τ).loc main_arg7)) (m ((c.tc : Thread nD τ).loc main_arg8)))
    (fun b i e => v3_apply m ρ c _ rfl b i e) (fun b j e => v6_apply m ρ c _ rfl b j e) (fun b j e => v9_apply m ρ c _ rfl b j e) b i d).trans ?_
  rfl

/-- Every weakly fair execution of the kernel-side program terminates with its result at the specification's function of
    the argument arrays' launch contents, the arguments unchanged. -/
theorem kernel_run_spec (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v10) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run Cert.KernelIdeal.defs _ _).mono (fun _ h c => ⟨(h c).1.trans (result_spec m ρ c), (h c).2⟩) (Hand.run_result m ρ)

end Cert.KernelIdeal.Compose

end
-- ==== Proof.lean ====
/-
  The certificate's claim: truncated-query attention with its softmax over the batch axis, a Pallas kernel program of four
  launches against its jnp reference.
  The kernel program projects the first 256 query rows, all 4096 key rows and all 4096 value rows by three launches of one
  projection kernel (x · Wᵀ + b on blocks of 1024 rows), reshapes between them on the host, and runs an attention kernel
  over 2 query tiles by 16 key tiles that keeps an accumulator between grid points: reset at key tile 0, one key tile's
  weighted value rows added at every point, copied to the output block at key tile 15. The reference computes the same
  quantities on whole arrays.
  Frames. Each kernel program (at the word level and idealized) is run through its eight segments — host stretch, launch,
  host stretch, launch, … — with every buffer outside the kernels' scoped memory followed from the launch memory; no
  host operation and no launch writes an argument array. The reference is host operations only.
  Values, on the extended reals. Both programs end at ONE function of the nine argument arrays (Proof/Spec.lean):
  the kernel's result array is what the attention launch's write-backs fold to, each output block the accumulator after
  its sixteenth key tile, a sum over sixteen bands of 256 keys that is the reference's sum over all 4096 keys by
  associativity and commutativity of addition alone; the per-tile maximum, exponential and sum over the batches are
  the reference's, entry by entry; the kernel's scale 2⁻⁵ is the reference's 1 / √1024 because 1024 = 32². No step needs
  the inputs to be finite.
-/
import proofs.«137853_j11811160064067_1_alg».proof.Defs
import proofs.«137853_j11811160064067_1_alg».proof.Proof.Gen.Kernel
import proofs.«137853_j11811160064067_1_alg».proof.Proof.Gen.KernelIdeal
import proofs.«137853_j11811160064067_1_alg».proof.Proof.Gen.ReferenceIdeal
import proofs.«137853_j11811160064067_1_alg».proof.Proof.Gen.Pre_finite_inputs
import proofs.«137853_j11811160064067_1_alg».proof.Proof.Gen.ReferenceIdeal.Run
import proofs.«137853_j11811160064067_1_alg».proof.Proof.Gen.ReferenceIdeal.Read
import proofs.«137853_j11811160064067_1_alg».proof.Proof.MainRun
import proofs.«137853_j11811160064067_1_alg».proof.Proof.MainRunBits
import proofs.«137853_j11811160064067_1_alg».proof.Proof.RefValue
import proofs.«137853_j11811160064067_1_alg».proof.Proof.Compose

noncomputable section

namespace Cert.Proof

open Idealize.ShloMosaic Idealize.SL.Sem

/-- The word-level program runs to its end without a fault and leaves its nine argument arrays as launched. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference is host operations only: its run, with the result dropped. -/
theorem frame_ri : Cert.frame_ReferenceIdeal := Cert.ReferenceIdeal.RefValue.frame_ri
/-- The idealization rewrote no operation: nothing to preserve beyond the text itself. -/
theorem preserves : Cert.preserves_Kernel_KernelIdeal := trivial

/-- From memories that agree on the nine arguments both idealized programs end with their result array at the
    specification's value of those arguments: the kernel's four launches by the run above and the reading of each
    launch's write-backs, the reference by reading its host operations one at a time. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelIdeal.Compose.kernel_run_spec m ρ, ?_⟩
  refine (θ_run Cert.ReferenceIdeal.defs _ _).mono (fun r h c => ⟨?_, (h c).2⟩) (Cert.ReferenceIdeal.RefValue.run_spec m' ρ')
  rw [(h c).1, (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
